-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_arg15 : FVec F S128 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  main_v73

def fn_part3 {F : FTy → Type} [FloatOps F] (main_arg12 : FVec F S128x128 .f32) (main_arg13 : FVec F S128 .f32) (main_arg14 : FVec F S128x128 .f32) (main_arg15 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg14
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg15 main_v63 main_v67

def fn_part2 {F : FTy → Type} [FloatOps F] (main_arg8 : FVec F S128x128 .f32) (main_arg9 : FVec F S128x128 .f32) (main_arg10 : FVec F S128 .f32) (main_arg11 : FVec F S128x128 .f32) (main_arg12 : FVec F S128x128 .f32) (main_arg13 : FVec F S128 .f32) (main_arg14 : FVec F S128x128 .f32) (main_arg15 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_arg13 main_arg14 main_arg15 main_v48 main_v49 main_v50

def fn_part1 {F : FTy → Type} [FloatOps F] (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128x128 .f32) (main_arg13 : FVec F S128 .f32) (main_arg14 : FVec F S128x128 .f32) (main_arg15 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S50000x128 .f32) (main_arg1 : IVec S2x800000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128x128 .f32) (main_arg13 : FVec F S128 .f32) (main_arg14 : FVec F S128x128 .f32) (main_arg15 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S5000x128 : Shape := ⟨2, ![5000, 128]⟩

abbrev nBuf : Space → Nat
  | .hbm => 112
  | .vmem => 42
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S1x800000, .i32⟩
  | .hbm, ⟨17, _⟩ => ⟨S800000, .i32⟩
  | .hbm, ⟨18, _⟩ => ⟨S1x800000, .i32⟩
  | .hbm, ⟨19, _⟩ => ⟨S800000, .i32⟩
  | .hbm, ⟨20, _⟩ => ⟨S_, .f32⟩
  | .hbm, ⟨21, _⟩ => ⟨S800000, .f32⟩
  | .hbm, ⟨22, _⟩ => ⟨S_, .f32⟩
  | .hbm, ⟨23, _⟩ => ⟨S50000, .f32⟩
  | .hbm, ⟨24, _⟩ => ⟨S800000x1, .i32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000x1, .f32⟩
  | .hbm, ⟨33, _⟩ => ⟨S128x128, .f32⟩
  | .hbm, ⟨34, _⟩ => ⟨S128x128, .f32⟩
  | .hbm, ⟨35, _⟩ => ⟨S128x128, .f32⟩
  | .hbm, ⟨36, _⟩ => ⟨S128x128, .f32⟩
  | .hbm, ⟨37, _⟩ => ⟨S128x128, .f32⟩
  | .hbm, ⟨38, _⟩ => ⟨S128x128, .f32⟩
  | .hbm, ⟨39, _⟩ => ⟨S128x128, .f32⟩
  | .hbm, ⟨40, _⟩ => ⟨S128x128, .f32⟩
  | .hbm, ⟨41, _⟩ => ⟨S128x128, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x128, .f32⟩
  | .hbm, ⟨51, _⟩ => ⟨S_, .f32⟩
  | .hbm, ⟨52, _⟩ => ⟨S50000x128, .f32⟩
  | .hbm, ⟨53, _⟩ => ⟨S800000x1, .i32⟩
  | .hbm, ⟨54, _⟩ => ⟨S50000x128, .f32⟩
  | .hbm, ⟨55, _⟩ => ⟨S50000x128, .f32⟩
  | .hbm, ⟨56, _⟩ => ⟨S50000x128, .f32⟩
  | .hbm, ⟨57, _⟩ => ⟨S1x128, .f32⟩
  | .hbm, ⟨58, _⟩ => ⟨S50000x128, .f32⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S800000x1, .i32⟩
  | .hbm, ⟨67, _⟩ => ⟨S800000x128, .f32⟩
  | .hbm, ⟨68, _⟩ => ⟨S_, .f32⟩
  | .hbm, ⟨69, _⟩ => ⟨S50000x128, .f32⟩
  | .hbm, ⟨70, _⟩ => ⟨S800000x1, .i32⟩
  | .hbm, ⟨71, _⟩ => ⟨S50000x128, .f32⟩
  | .hbm, ⟨72, _⟩ => ⟨S50000x128, .f32⟩
  | .hbm, ⟨73, _⟩ => ⟨S50000x128, .f32⟩
  | .hbm, ⟨74, _⟩ => ⟨S1x128, .f32⟩
  | .hbm, ⟨75, _⟩ => ⟨S50000x128, .f32⟩
  | .hbm, ⟨76, _⟩ => ⟨S_, .i32⟩
  | .hbm, ⟨77, _⟩ => ⟨S800000, .i32⟩
  | .hbm, ⟨78, _⟩ => ⟨S800000, .i1⟩
  | .hbm, ⟨79, _⟩ => ⟨S_, .i32⟩
  | .hbm, ⟨80, _⟩ => ⟨S800000, .i32⟩
  | .hbm, ⟨81, _⟩ => ⟨S800000, .i32⟩
  | .hbm, ⟨82, _⟩ => ⟨S800000, .i32⟩
  | .hbm, ⟨83, _⟩ => ⟨S800000x1, .i32⟩
  | .hbm, ⟨84, _⟩ => ⟨S800000x128, .f32⟩
  | .hbm, ⟨85, _⟩ => ⟨S_, .f32⟩
  | .hbm, ⟨86, _⟩ => ⟨S50000x128, .f32⟩
  | .hbm, ⟨87, _⟩ => ⟨S800000x1, .i32⟩
  | .hbm, ⟨88, _⟩ => ⟨S50000x128, .f32⟩
  | .hbm, ⟨89, _⟩ => ⟨S50000x128, .f32⟩
  | .hbm, ⟨90, _⟩ => ⟨S50000x128, .f32⟩
  | .hbm, ⟨91, _⟩ => ⟨S1x128, .f32⟩
  | .hbm, ⟨92, _⟩ => ⟨S50000x128, .f32⟩
  | .hbm, ⟨93, _⟩ => ⟨S_, .i32⟩
  | .hbm, ⟨94, _⟩ => ⟨S800000, .i32⟩
  | .hbm, ⟨95, _⟩ => ⟨S800000, .i1⟩
  | .hbm, ⟨96, _⟩ => ⟨S_, .i32⟩
  | .hbm, ⟨97, _⟩ => ⟨S800000, .i32⟩
  | .hbm, ⟨98, _⟩ => ⟨S800000, .i32⟩
  | .hbm, ⟨99, _⟩ => ⟨S800000, .i32⟩
  | .hbm, ⟨100, _⟩ => ⟨S800000x1, .i32⟩
  | .hbm, ⟨101, _⟩ => ⟨S800000x128, .f32⟩
  | .hbm, ⟨102, _⟩ => ⟨S_, .f32⟩
  | .hbm, ⟨103, _⟩ => ⟨S50000x128, .f32⟩
  | .hbm, ⟨104, _⟩ => ⟨S800000x1, .i32⟩
  | .hbm, ⟨105, _⟩ => ⟨S50000x128, .f32⟩
  | .hbm, ⟨106, _⟩ => ⟨S50000x128, .f32⟩
  | .hbm, ⟨107, _⟩ => ⟨S50000x128, .f32⟩
  | .hbm, ⟨108, _⟩ => ⟨S1x128, .f32⟩
  | .hbm, ⟨109, _⟩ => ⟨S50000x128, .f32⟩
  | .hbm, ⟨110, _⟩ => ⟨S1x128, .f32⟩
  | .hbm, ⟨111, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S128x128, .f32⟩
  | .local _ .vmem, ⟨32, _⟩ => ⟨S128x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S128x128, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c : Ref sig .tc := ⟨.hbm, 42, rfl⟩
abbrev main_v22 : Ref sig .tc := ⟨.hbm, 43, rfl⟩
abbrev main_v23 : Ref sig .tc := ⟨.hbm, 44, rfl⟩
abbrev main_c_3 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_4 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_5 : Ref sig .tc := ⟨.hbm, 59, rfl⟩
abbrev main_v36 : Ref sig .tc := ⟨.hbm, 60, rfl⟩
abbrev main_v37 : Ref sig .tc := ⟨.hbm, 61, rfl⟩
abbrev main_c_6 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_7 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_c_8 : Ref sig .tc := ⟨.hbm, 76, rfl⟩
abbrev main_v50 : Ref sig .tc := ⟨.hbm, 77, rfl⟩
abbrev main_v51 : Ref sig .tc := ⟨.hbm, 78, rfl⟩
abbrev main_c_9 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_10 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_11 : Ref sig .tc := ⟨.hbm, 93, rfl⟩
abbrev main_v64 : Ref sig .tc := ⟨.hbm, 94, rfl⟩
abbrev main_v65 : Ref sig .tc := ⟨.hbm, 95, rfl⟩
abbrev main_c_12 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_13 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg3_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem3_0 : DmaSem sig := 40
abbrev cc4_sem3_1 : DmaSem sig := 41

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  transposes_S128x128_S128x128_1_0 : S128x128.Transposes [1, 0] S128x128
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S50000x128.size a
  hwx4_3 : ∀ i : grid4.Coords, EltTy.bits .f32 = 32 ∨ (Rect.block (s := S50000x128) S5000x128.size (cc4_transform_3 i) (hinb4_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v33) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v34) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v35) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v61) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v17) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v18) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v62) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v63) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v75) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v19) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v20) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v76) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v77) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v77) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v21) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v78) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v79) S5000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 169
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128x128, .f32⟩
  | 4 => ⟨S128, .f32⟩
  | 5 => ⟨S128x128, .f32⟩
  | 6 => ⟨S128x128, .f32⟩
  | 7 => ⟨S128, .f32⟩
  | 8 => ⟨S128x128, .f32⟩
  | 9 => ⟨S128x128, .f32⟩
  | 10 => ⟨S128, .f32⟩
  | 11 => ⟨S128x128, .f32⟩
  | 12 => ⟨S128x128, .f32⟩
  | 13 => ⟨S128, .f32⟩
  | 14 => ⟨S128x128, .f32⟩
  | 15 => ⟨S128, .f32⟩
  | 16 => ⟨S1x800000, .i32⟩
  | 17 => ⟨S800000, .i32⟩
  | 18 => ⟨S1x800000, .i32⟩
  | 19 => ⟨S800000, .i32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000x128, .f32⟩
  | 29 => ⟨S_, .f32⟩
  | 30 => ⟨S50000x128, .f32⟩
  | 31 => ⟨S800000x1, .i32⟩
  | 32 => ⟨S50000x128, .f32⟩
  | 33 => ⟨S_, .f32⟩
  | 34 => ⟨S800000, .f32⟩
  | 35 => ⟨S_, .f32⟩
  | 36 => ⟨S50000, .f32⟩
  | 37 => ⟨S800000x1, .i32⟩
  | 38 => ⟨S50000, .f32⟩
  | 39 => ⟨S_, .f32⟩
  | 40 => ⟨S50000, .f32⟩
  | 41 => ⟨S50000, .f32⟩
  | 42 => ⟨S50000x1, .f32⟩
  | 43 => ⟨S50000x128, .f32⟩
  | 44 => ⟨S50000x128, .f32⟩
  | 45 => ⟨S128x128, .f32⟩
  | 46 => ⟨S50000x128, .f32⟩
  | 47 => ⟨S128x128, .f32⟩
  | 48 => ⟨S50000x128, .f32⟩
  | 49 => ⟨S50000x128, .f32⟩
  | 50 => ⟨S1x128, .f32⟩
  | 51 => ⟨S50000x128, .f32⟩
  | 52 => ⟨S50000x128, .f32⟩
  | 53 => ⟨S_, .f32⟩
  | 54 => ⟨S50000x128, .f32⟩
  | 55 => ⟨S50000x128, .f32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S800000x128, .f32⟩
  | 65 => ⟨S_, .f32⟩
  | 66 => ⟨S50000x128, .f32⟩
  | 67 => ⟨S800000x1, .i32⟩
  | 68 => ⟨S50000x128, .f32⟩
  | 69 => ⟨S_, .f32⟩
  | 70 => ⟨S800000, .f32⟩
  | 71 => ⟨S_, .f32⟩
  | 72 => ⟨S50000, .f32⟩
  | 73 => ⟨S800000x1, .i32⟩
  | 74 => ⟨S50000, .f32⟩
  | 75 => ⟨S_, .f32⟩
  | 76 => ⟨S50000, .f32⟩
  | 77 => ⟨S50000, .f32⟩
  | 78 => ⟨S50000x1, .f32⟩
  | 79 => ⟨S50000x128, .f32⟩
  | 80 => ⟨S50000x128, .f32⟩
  | 81 => ⟨S128x128, .f32⟩
  | 82 => ⟨S50000x128, .f32⟩
  | 83 => ⟨S128x128, .f32⟩
  | 84 => ⟨S50000x128, .f32⟩
  | 85 => ⟨S50000x128, .f32⟩
  | 86 => ⟨S1x128, .f32⟩
  | 87 => ⟨S50000x128, .f32⟩
  | 88 => ⟨S50000x128, .f32⟩
  | 89 => ⟨S_, .f32⟩
  | 90 => ⟨S50000x128, .f32⟩
  | 91 => ⟨S50000x128, .f32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S800000x128, .f32⟩
  | 101 => ⟨S_, .f32⟩
  | 102 => ⟨S50000x128, .f32⟩
  | 103 => ⟨S800000x1, .i32⟩
  | 104 => ⟨S50000x128, .f32⟩
  | 105 => ⟨S_, .f32⟩
  | 106 => ⟨S800000, .f32⟩
  | 107 => ⟨S_, .f32⟩
  | 108 => ⟨S50000, .f32⟩
  | 109 => ⟨S800000x1, .i32⟩
  | 110 => ⟨S50000, .f32⟩
  | 111 => ⟨S_, .f32⟩
  | 112 => ⟨S50000, .f32⟩
  | 113 => ⟨S50000, .f32⟩
  | 114 => ⟨S50000x1, .f32⟩
  | 115 => ⟨S50000x128, .f32⟩
  | 116 => ⟨S50000x128, .f32⟩
  | 117 => ⟨S128x128, .f32⟩
  | 118 => ⟨S50000x128, .f32⟩
  | 119 => ⟨S128x128, .f32⟩
  | 120 => ⟨S50000x128, .f32⟩
  | 121 => ⟨S50000x128, .f32⟩
  | 122 => ⟨S1x128, .f32⟩
  | 123 => ⟨S50000x128, .f32⟩
  | 124 => ⟨S50000x128, .f32⟩
  | 125 => ⟨S_, .f32⟩
  | 126 => ⟨S50000x128, .f32⟩
  | 127 => ⟨S50000x128, .f32⟩
  | _ => ⟨S50000x128, .f32⟩

abbrev hbmTy0_1 (i : Nat) : BufTy := match i % 128 with
  | 0 => ⟨S_, .i32⟩
  | 1 => ⟨S800000, .i32⟩
  | 2 => ⟨S800000, .i1⟩
  | 3 => ⟨S_, .i32⟩
  | 4 => ⟨S800000, .i32⟩
  | 5 => ⟨S800000, .i32⟩
  | 6 => ⟨S800000, .i32⟩
  | 7 => ⟨S800000x1, .i32⟩
  | 8 => ⟨S800000x128, .f32⟩
  | 9 => ⟨S_, .f32⟩
  | 10 => ⟨S50000x128, .f32⟩
  | 11 => ⟨S800000x1, .i32⟩
  | 12 => ⟨S50000x128, .f32⟩
  | 13 => ⟨S_, .f32⟩
  | 14 => ⟨S800000, .f32⟩
  | 15 => ⟨S_, .f32⟩
  | 16 => ⟨S50000, .f32⟩
  | 17 => ⟨S800000x1, .i32⟩
  | 18 => ⟨S50000, .f32⟩
  | 19 => ⟨S_, .f32⟩
  | 20 => ⟨S50000, .f32⟩
  | 21 => ⟨S50000, .f32⟩
  | 22 => ⟨S50000x1, .f32⟩
  | 23 => ⟨S50000x128, .f32⟩
  | 24 => ⟨S50000x128, .f32⟩
  | 25 => ⟨S128x128, .f32⟩
  | 26 => ⟨S50000x128, .f32⟩
  | 27 => ⟨S128x128, .f32⟩
  | 28 => ⟨S50000x128, .f32⟩
  | 29 => ⟨S50000x128, .f32⟩
  | 30 => ⟨S1x128, .f32⟩
  | 31 => ⟨S50000x128, .f32⟩
  | 32 => ⟨S50000x128, .f32⟩
  | 33 => ⟨S_, .f32⟩
  | 34 => ⟨S50000x128, .f32⟩
  | 35 => ⟨S50000x128, .f32⟩
  | 36 => ⟨S128x128, .f32⟩
  | 37 => ⟨S50000x128, .f32⟩
  | 38 => ⟨S1x128, .f32⟩
  | 39 => ⟨S50000x128, .f32⟩
  | 40 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_1 : Ref sig .tc := ⟨.hbm, 33, rfl⟩
abbrev main_v14 : Ref sig .tc := ⟨.hbm, 34, rfl⟩
abbrev main_cst_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_3 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_call0_cst : Ref sig .tc := ⟨.hbm, 53, rfl⟩
abbrev main_call0_v0 : Ref sig .tc := ⟨.hbm, 54, rfl⟩
abbrev main_v31 : Ref sig .tc := ⟨.hbm, 55, rfl⟩
abbrev main_c_4 : Ref sig .tc := ⟨.hbm, 56, rfl⟩
abbrev main_v32 : Ref sig .tc := ⟨.hbm, 57, rfl⟩
abbrev main_v33 : Ref sig .tc := ⟨.hbm, 58, rfl⟩
abbrev main_c_5 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_6 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_7 : Ref sig .tc := ⟨.hbm, 69, rfl⟩
abbrev main_v42 : Ref sig .tc := ⟨.hbm, 70, rfl⟩
abbrev main_cst_8 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_9 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_call1_cst : Ref sig .tc := ⟨.hbm, 89, rfl⟩
abbrev main_call1_v0 : Ref sig .tc := ⟨.hbm, 90, rfl⟩
abbrev main_v59 : Ref sig .tc := ⟨.hbm, 91, rfl⟩
abbrev main_c_10 : Ref sig .tc := ⟨.hbm, 92, rfl⟩
abbrev main_v60 : Ref sig .tc := ⟨.hbm, 93, rfl⟩
abbrev main_v61 : Ref sig .tc := ⟨.hbm, 94, rfl⟩
abbrev main_c_11 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_12 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_13 : Ref sig .tc := ⟨.hbm, 105, rfl⟩
abbrev main_v70 : Ref sig .tc := ⟨.hbm, 106, rfl⟩
abbrev main_cst_14 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_cst_15 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_call2_cst : Ref sig .tc := ⟨.hbm, 125, rfl⟩
abbrev main_call2_v0 : Ref sig .tc := ⟨.hbm, 126, rfl⟩
abbrev main_v87 : Ref sig .tc := ⟨.hbm, 127, rfl⟩
abbrev main_c_16 : Ref sig .tc := ⟨.hbm, 128, rfl⟩
abbrev main_v88 : Ref sig .tc := ⟨.hbm, 129, rfl⟩
abbrev main_v89 : Ref sig .tc := ⟨.hbm, 130, rfl⟩
abbrev main_c_17 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_cst_18 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_cst_19 : Ref sig .tc := ⟨.hbm, 141, rfl⟩
abbrev main_v98 : Ref sig .tc := ⟨.hbm, 142, rfl⟩
abbrev main_cst_20 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_cst_21 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_call3_cst : Ref sig .tc := ⟨.hbm, 161, rfl⟩
abbrev main_call3_v0 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel's run with its result named. Every weakly fair execution of the program terminates without a
  fault; at the end each unscoped buffer of a core holds what the last boundary of the run says, in particular the
  result buffer, and the sixteen argument arrays are as launched. The boundaries are the run's own: the launch
  memory, then alternately a stretch of host operations applied to the previous boundary and a region's write-backs
  folded into it.
-/
import proofs.«105406_j64759516889909_1_alg».proof.Proof.Gen.KernelIdeal.Frame

set_option maxRecDepth 16384

noncomputable section

namespace Cert.KernelIdeal.RunValue

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v79) = W10 m ρ c (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v79 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c)⟩)

end Cert.KernelIdeal.RunValue

end
-- ==== Proof.LibRealEntries2.lean ====
/-
  Entries that are real numbers, through the host operations that keep them so, for any shapes and dimension numbers.

  An extended real is "real" when it is the image of a real number. Sums, products and maxima of reals are real; a
  finite sum of reals is real. A gather reads, at every result index, SOME entry of its operand, so when every entry of
  the operand is real so is every entry of the result, whatever the dimension numbers and the indices. An accumulating
  scatter yields, at every index, the operand's entry plus a finite sum of update entries, so reals in, reals out. The
  reciprocal square root of a positive real is the real 1 / sqrt r. A selection between two reals is real.
-/
import Idealize.ShloMosaic.Lib.ValueIdx
import Idealize.ShloMosaic.Lib.Pipeline.Value
import Idealize.ShloMosaic.PureOps.Ideal.Laws

noncomputable section

namespace RealEntries2

open Idealize.ShloMosaic
open scoped BigOperators

/-- The extended real is (the image of) a real number. -/
def IsReal (x : EReal) : Prop := ∃ r : ℝ, x = (r : EReal)

/-- The extended real is a positive real number. -/
def IsPosReal (x : EReal) : Prop := ∃ r : ℝ, 0 < r ∧ x = (r : EReal)

theorem IsPosReal.isReal {x : EReal} (h : IsPosReal x) : IsReal x := by
  obtain ⟨r, _, hr⟩ := h
  exact ⟨r, hr⟩

/-- Realness passes along an equality. -/
theorem isReal_of_eq {x y : EReal} (h : x = y) (hy : IsReal y) : IsReal x := by
  obtain ⟨r, hr⟩ := hy
  exact ⟨r, h.trans hr⟩

theorem isPosReal_of_eq {x y : EReal} (h : x = y) (hy : IsPosReal y) : IsPosReal x := by
  obtain ⟨r, h0, hr⟩ := hy
  exact ⟨r, h0, h.trans hr⟩

theorem isReal_coe (r : ℝ) : IsReal (r : EReal) := ⟨r, rfl⟩

theorem isReal_zero : IsReal (0 : EReal) := ⟨0, rfl⟩

theorem isReal_add {x y : EReal} (hx : IsReal x) (hy : IsReal y) : IsReal (x + y) := by
  obtain ⟨a, rfl⟩ := hx
  obtain ⟨b, rfl⟩ := hy
  exact ⟨a + b, (EReal.coe_add a b).symm⟩

theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- A finite sum of reals is real. -/
theorem isReal_sum {ι : Type} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact isReal_add (h a (Finset.mem_insert_self a s)) (ih fun i hi => h i (Finset.mem_insert_of_mem hi))

/-- The larger of a real and a positive real is a positive real. -/
theorem isPosReal_max {x y : EReal} (hx : IsReal x) (hy : IsPosReal y) : IsPosReal (max x y) := by
  obtain ⟨a, rfl⟩ := hx
  obtain ⟨b, hb, rfl⟩ := hy
  rcases le_total (a : EReal) (b : EReal) with h | h
  · rw [max_eq_right h]
    exact ⟨b, hb, rfl⟩
  · rw [max_eq_left h]
    exact ⟨a, lt_of_lt_of_le hb (EReal.coe_le_coe_iff.mp h), rfl⟩

/-- The reciprocal square root of a positive real is a real. -/
theorem isReal_rsqrt {x : EReal} (hx : IsPosReal x) : IsReal (Ideal.rsqrt x) := by
  obtain ⟨r, hr, rfl⟩ := hx
  rw [Ideal.rsqrt_coe, if_neg (not_lt.mpr hr.le), if_neg (ne_of_gt hr)]
  exact ⟨_, rfl⟩

/-- A selection between two reals is real. -/
theorem isReal_select (c : BitVec 1) {a b : EReal} (ha : IsReal a) (hb : IsReal b) : IsReal (Scalar.select c a b) := by
  unfold Scalar.select
  split
  · exact ha
  · exact hb

/-- A gather of an array of reals is an array of reals: every result entry is some operand entry. -/
theorem gather_real {s si t : Shape} {w : Nat} (d : GatherDims s si t) (x : s.Idx → EReal) (idx : IVec si w)
    (hx : ∀ i, IsReal (x i)) (j : t.Idx) : IsReal (Host.gather d x idx j) :=
  hx (d.operandIdx j idx)

/-- An accumulating scatter of real updates into an array of reals is an array of reals. -/
theorem scatterAdd_real {s si su : Shape} {w : Nat} (d : ScatterDims s si su) (x : s.Idx → EReal) (idx : IVec si w)
    (upd : su.Idx → EReal) (hx : ∀ i, IsReal (x i)) (hu : ∀ j, IsReal (upd j)) (i : s.Idx) :
    IsReal (Ideal.hostScatterAdd d x idx upd i) := by
  unfold Ideal.hostScatterAdd
  exact isReal_add (hx i) (isReal_sum _ _ fun j _ => hu j)

/-- The same for the host's accumulating scatter read on the extended reals. -/
theorem hostScatterAdd_real {s si su : Shape} {w : Nat} {φ : FTy} (d : ScatterDims s si su) (x : FVec Ideal s φ) (idx : IVec si w)
    (upd : FVec Ideal su φ) (hx : ∀ i, IsReal (x i)) (hu : ∀ j, IsReal (upd j)) (i : s.Idx) :
    IsReal (Host.scatterAdd d x idx upd i) :=
  scatterAdd_real d x idx upd hx hu i

end RealEntries2

end
-- ==== Proof.LibIdealReal.lean ====
/-
  The exact float operations on finite values.

  At the exact reading a float is an extended real and every operation is the textbook one. When the operands
  are (coercions of) real numbers, and the operation is not at a corner (no division by zero), the result is
  the coercion of the real result:
      x + y, x - y, x * y, max x y, exp x, x / y (y ≠ 0), a finite sum, a finite maximum (from a real start, or
      from -∞ over a nonempty family),
  each stated for the extended-real operator and for the float operation of the same name (kernel's and host's).
  Also the values a few 32-bit words denote: 0, 1, 1024, 1/32, -∞, and one large negative finite number; and
  √1024 = 32, so that  1 / √1024  and the word for  1/32  are the same number.
-/
import Idealize.ShloMosaic.PureOps.Ideal
import Idealize.ShloMosaic.PureOps.Ideal.Laws

noncomputable section

namespace Cert.IdealReal

open scoped BigOperators
open Idealize.ShloMosaic

variable {φ : FTy}

/-! ### The extended-real operators on coerced reals -/

theorem add_coe (x y : ℝ) : (x : EReal) + (y : EReal) = ((x + y : ℝ) : EReal) := (EReal.coe_add x y).symm
theorem sub_coe (x y : ℝ) : (x : EReal) - (y : EReal) = ((x - y : ℝ) : EReal) := (EReal.coe_sub x y).symm
theorem mul_coe (x y : ℝ) : (x : EReal) * (y : EReal) = ((x * y : ℝ) : EReal) := (EReal.coe_mul x y).symm
theorem neg_coe (x : ℝ) : -(x : EReal) = ((-x : ℝ) : EReal) := (EReal.coe_neg x).symm

/-- The coercion is monotone, so it commutes with `max`. -/
@[simp, norm_cast] theorem coe_max (x y : ℝ) : ((max x y : ℝ) : EReal) = max (x : EReal) (y : EReal) :=
  EReal.coe_strictMono.monotone.map_max
theorem max_coe (x y : ℝ) : max (x : EReal) (y : EReal) = ((max x y : ℝ) : EReal) := (coe_max x y).symm
theorem max_coe_zero (x : ℝ) : max (x : EReal) 0 = ((max x 0 : ℝ) : EReal) := by
  rw [← EReal.coe_zero, max_coe]

theorem exp_coe (x : ℝ) : Ideal.exp (x : EReal) = ((Real.exp x : ℝ) : EReal) := rfl
theorem exp_sub_coe (x y : ℝ) : Ideal.exp ((x : EReal) - (y : EReal)) = ((Real.exp (x - y) : ℝ) : EReal) := rfl

/-- Division of reals by a nonzero real. -/
theorem div_coe {y : ℝ} (hy : y ≠ 0) (x : ℝ) : Ideal.div (x : EReal) (y : EReal) = ((x / y : ℝ) : EReal) := by
  rw [Ideal.div_coe hy, ← EReal.coe_mul, mul_one_div]

/-- `√1024 = 32`. -/
theorem sqrt_1024 : Ideal.sqrt ((1024 : ℝ) : EReal) = ((32 : ℝ) : EReal) := by
  have h : Real.sqrt 1024 = 32 := by
    rw [show (1024 : ℝ) = 32 ^ 2 by norm_num, Real.sqrt_sq (by norm_num)]
  rw [Ideal.sqrt_coe, if_neg (by norm_num), h]

/-! ### Finite sums and maxima -/

/-- A finite sum of coerced reals is the coerced sum. -/
@[simp, norm_cast] theorem coe_finset_sum {α : Type*} (s : Finset α) (f : α → ℝ) :
    ((∑ i ∈ s, f i : ℝ) : EReal) = ∑ i ∈ s, (f i : EReal) := by
  induction s using Finset.cons_induction with
  | empty => simp
  | cons a s ha ih => rw [Finset.sum_cons, Finset.sum_cons, EReal.coe_add, ih]

theorem sum_coe {α : Type*} (s : Finset α) (f : α → ℝ) :
    ∑ i ∈ s, (f i : EReal) = ((∑ i ∈ s, f i : ℝ) : EReal) := (coe_finset_sum s f).symm

/-- The same when each summand is only known to be a coerced real. -/
theorem sum_eq_coe {α : Type*} (s : Finset α) (g : α → EReal) (f : α → ℝ) (hg : ∀ i ∈ s, g i = (f i : EReal)) :
    ∑ i ∈ s, g i = ((∑ i ∈ s, f i : ℝ) : EReal) := by
  rw [Finset.sum_congr rfl hg, sum_coe]

/-- A fold of `max` from a real start over coerced reals is the coerced fold. -/
theorem fold_max_coe {α : Type*} (s : Finset α) (a : ℝ) (f : α → ℝ) :
    s.fold max (a : EReal) (fun i => (f i : EReal)) = ((s.fold max a f : ℝ) : EReal) := by
  induction s using Finset.cons_induction with
  | empty => simp
  | cons b s hb ih => rw [Finset.fold_cons, Finset.fold_cons, ih, max_coe]

/-- A fold of `max` from `-∞` over a NONEMPTY family of coerced reals is a coerced real: the family's maximum. -/
theorem fold_max_bot_coe {α : Type*} (s : Finset α) (hs : s.Nonempty) (f : α → ℝ) :
    s.fold max (⊥ : EReal) (fun i => (f i : EReal)) = ((s.sup' hs f : ℝ) : EReal) := by
  induction hs using Finset.Nonempty.cons_induction with
  | singleton a => simp
  | cons a s ha hs ih =>
    rw [Finset.fold_cons, ih, Finset.sup'_cons hs, max_coe]

/-- The same when each element is only known to be a coerced real. -/
theorem fold_max_bot_eq_coe {α : Type*} (s : Finset α) (hs : s.Nonempty) (g : α → EReal) (f : α → ℝ)
    (hg : ∀ i ∈ s, g i = (f i : EReal)) :
    s.fold max (⊥ : EReal) g = ((s.sup' hs f : ℝ) : EReal) := by
  rw [← fold_max_bot_coe s hs f]
  exact Finset.fold_congr hg

/-- In particular it is SOME real, above every element. -/
theorem fold_max_bot_real {α : Type*} (s : Finset α) (hs : s.Nonempty) (g : α → EReal) (f : α → ℝ)
    (hg : ∀ i ∈ s, g i = (f i : EReal)) :
    ∃ m : ℝ, s.fold max (⊥ : EReal) g = (m : EReal) ∧ ∀ i ∈ s, f i ≤ m :=
  ⟨s.sup' hs f, fold_max_bot_eq_coe s hs g f hg, fun i hi => Finset.le_sup' f hi⟩

/-! ### The float operations of the exact reading -/

theorem addf_coe (x y : ℝ) : FloatOps.addf (F := Ideal) (φ := φ) (x : EReal) (y : EReal) = ((x + y : ℝ) : EReal) :=
  add_coe x y
theorem subf_coe (x y : ℝ) : FloatOps.subf (F := Ideal) (φ := φ) (x : EReal) (y : EReal) = ((x - y : ℝ) : EReal) :=
  sub_coe x y
theorem mulf_coe (x y : ℝ) : FloatOps.mulf (F := Ideal) (φ := φ) (x : EReal) (y : EReal) = ((x * y : ℝ) : EReal) :=
  mul_coe x y
theorem maximumf_coe (x y : ℝ) :
    FloatOps.maximumf (F := Ideal) (φ := φ) (x : EReal) (y : EReal) = ((max x y : ℝ) : EReal) :=
  max_coe x y
theorem expf_coe (x : ℝ) : FloatOps.exp (F := Ideal) (φ := φ) (x : EReal) = ((Real.exp x : ℝ) : EReal) := rfl
theorem divf_coe {y : ℝ} (hy : y ≠ 0) (x : ℝ) :
    FloatOps.divf (F := Ideal) (φ := φ) (x : EReal) (y : EReal) = ((x / y : ℝ) : EReal) :=
  div_coe hy x

/-- The host's quotient, exponential and square root are the same functions. -/
theorem hostDivf_coe {y : ℝ} (hy : y ≠ 0) (x : ℝ) :
    FloatOps.hostDivf (F := Ideal) (φ := φ) (x : EReal) (y : EReal) = ((x / y : ℝ) : EReal) :=
  div_coe hy x
theorem hostExp_coe (x : ℝ) :
    FloatOps.hostUnary (F := Ideal) .exp (φ := φ) (x : EReal) = ((Real.exp x : ℝ) : EReal) := rfl
theorem hostSqrt_1024 :
    FloatOps.hostUnary (F := Ideal) .sqrt (φ := φ) ((1024 : ℝ) : EReal) = ((32 : ℝ) : EReal) := sqrt_1024

/-- A fold of the float maximum is the fold of `max`. -/
theorem fold_maximumf_eq {α : Type*} (s : Finset α) (a : EReal) (g : α → EReal) :
    s.fold (FloatOps.maximumf (F := Ideal) (φ := φ)) a g = s.fold max a g := rfl

/-! ### What a few 32-bit words denote -/

theorem ofBits_zero : Ideal.ofBits .f32 0x00000000#32 = ((0 : ℝ) : EReal) := by
  rw [Ideal.ofBits_zero_f32, EReal.coe_zero]

theorem ofBits_one : Ideal.ofBits .f32 0x3F800000#32 = ((1 : ℝ) : EReal) := by
  simp [Ideal.ofBits, Ideal.ieee, -EReal.coe_mul]; norm_num

theorem ofBits_1024 : Ideal.ofBits .f32 0x44800000#32 = ((1024 : ℝ) : EReal) := by
  simp [Ideal.ofBits, Ideal.ieee, -EReal.coe_mul]; norm_num

theorem ofBits_inv32 : Ideal.ofBits .f32 0x3D000000#32 = ((1 / 32 : ℝ) : EReal) := by
  simp [Ideal.ofBits, Ideal.ieee, -EReal.coe_mul]; norm_num

theorem ofBits_neg_inf : Ideal.ofBits .f32 0xFF800000#32 = ⊥ := by
  simp [Ideal.ofBits, Ideal.ieee]

/-- The large negative finite number the word `0xFF333332` denotes: `-(2^23 + 0x333332) · 2^104`. -/
def negBig : ℝ := -(11744050 * 2 ^ 104)

theorem ofBits_negBig : Ideal.ofBits .f32 0xFF333332#32 = ((negBig : ℝ) : EReal) := by
  simp [Ideal.ofBits, Ideal.ieee, -EReal.coe_mul, negBig]

theorem ofBits_negBig_real : ∃ x : ℝ, Ideal.ofBits .f32 0xFF333332#32 = (x : EReal) := ⟨negBig, ofBits_negBig⟩

/-- `1 / √1024`, computed on the host from the words for `1` and `1024`, is the number the word for `1/32` denotes. -/
theorem host_one_div_sqrt_1024 :
    FloatOps.hostDivf (F := Ideal) (φ := .f32) (Ideal.ofBits .f32 0x3F800000#32)
        (FloatOps.hostUnary (F := Ideal) .sqrt (φ := .f32) (Ideal.ofBits .f32 0x44800000#32))
      = ((1 / 32 : ℝ) : EReal) := by
  rw [ofBits_one, ofBits_1024, hostSqrt_1024, hostDivf_coe (by norm_num)]

theorem host_one_div_sqrt_1024_eq_word :
    FloatOps.hostDivf (F := Ideal) (φ := .f32) (Ideal.ofBits .f32 0x3F800000#32)
        (FloatOps.hostUnary (F := Ideal) .sqrt (φ := .f32) (Ideal.ofBits .f32 0x44800000#32))
      = Ideal.ofBits .f32 0x3D000000#32 := by
  rw [host_one_div_sqrt_1024, ofBits_inv32]

end Cert.IdealReal

end
-- ==== Proof.SageLaw.lean ====
/-
  One GraphSAGE layer at an entry, on the extended reals, for any extents: node p's output feature q is
      max( Σ_k mean(p,k)·WlT(k,q) + Σ_k h(p,k)·WrT(k,q) + bias(q), 0 ),
  where mean is the neighbour aggregate of h normalised by the in-degree. Two spellings of the normalisation meet
  here: the aggregate TIMES the reciprocal 1 / max(count, 1), and the aggregate DIVIDED BY max(count, 1). The count
  is a real number (a finite sum of ones), so max(count, 1) is a real number at least 1, and on the extended reals a
  quotient by a nonzero real r is the product with the real 1/r whatever the dividend is (infinite dividends
  included): the two spellings are the same number, entry by entry. Nothing else about the aggregate is used.
  The final linear map x·WT + bias is stated the same way.
-/
import Idealize.ShloMosaic.PureOps.Ideal
import Idealize.ShloMosaic.PureOps.Ideal.Laws
import Idealize.ShloMosaic.Lib.ValueIdx
import proofs.«105406_j64759516889909_1_alg».proof.Proof.LibRealEntries2
import proofs.«105406_j64759516889909_1_alg».proof.Proof.LibIdealReal

noncomputable section

open scoped BigOperators

namespace SageLaw

open Idealize.ShloMosaic Idealize.ShloMosaic.ValueIdx RealEntries2

/-- An a × b matrix of extended reals. -/
abbrev Mat (a b : Nat) : Type := (⟨2, ![a, b]⟩ : Shape).Idx → EReal

variable {n d e : Nat}

/-- Entry (p, q) of one layer: max(mean·WlT + h·WrT + bias, 0), the zero being the float word 0. -/
def sageAt (mean h : Mat n d) (WlT WrT : Mat d e) (bias : Fin e → EReal) (p : Fin n) (q : Fin e) : EReal :=
  max (((∑ k : Fin d, mean (ix2 p k) * WlT (ix2 k q)) + ∑ k : Fin d, h (ix2 p k) * WrT (ix2 k q)) + bias q)
    (Ideal.ofBits .f32 0x00000000#32)

/-- The layer as a whole matrix. -/
def sage (mean h : Mat n d) (WlT WrT : Mat d e) (bias : Fin e → EReal) : Mat n e :=
  fun i => sageAt mean h WlT WrT bias (i 0) (i 1)

theorem sage_ix2 (mean h : Mat n d) (WlT WrT : Mat d e) (bias : Fin e → EReal) (p : Fin n) (q : Fin e) :
    sage mean h WlT WrT bias (ix2 p q) = sageAt mean h WlT WrT bias p q := rfl

/-- The entry depends on row p of mean and of h only. -/
theorem sageAt_congr {n' : Nat} (mean h : Mat n d) (mean' h' : Mat n' d) (WlT WrT WlT' WrT' : Mat d e) (bias bias' : Fin e → EReal)
    (p : Fin n) (p' : Fin n') (q : Fin e)
    (hm : ∀ k, mean (ix2 p k) = mean' (ix2 p' k)) (hh : ∀ k, h (ix2 p k) = h' (ix2 p' k))
    (hl : ∀ k, WlT (ix2 k q) = WlT' (ix2 k q)) (hr : ∀ k, WrT (ix2 k q) = WrT' (ix2 k q)) (hb : bias q = bias' q) :
    sageAt mean h WlT WrT bias p q = sageAt mean' h' WlT' WrT' bias' p' q := by
  have e1 : (∑ k : Fin d, mean (ix2 p k) * WlT (ix2 k q)) = ∑ k : Fin d, mean' (ix2 p' k) * WlT' (ix2 k q) :=
    Finset.sum_congr rfl fun k _ => by rw [hm k, hl k]
  have e2 : (∑ k : Fin d, h (ix2 p k) * WrT (ix2 k q)) = ∑ k : Fin d, h' (ix2 p' k) * WrT' (ix2 k q) :=
    Finset.sum_congr rfl fun k _ => by rw [hh k, hr k]
  unfold sageAt
  rw [e1, e2, hb]

/-- Entry (p, q) of the final linear map: x·WT + bias. -/
def fcAt (x : Mat n d) (WT : Mat d e) (bias : Fin e → EReal) (p : Fin n) (q : Fin e) : EReal :=
  (∑ k : Fin d, x (ix2 p k) * WT (ix2 k q)) + bias q

/-- The final linear map as a whole matrix. -/
def fc (x : Mat n d) (WT : Mat d e) (bias : Fin e → EReal) : Mat n e :=
  fun i => fcAt x WT bias (i 0) (i 1)

theorem fc_ix2 (x : Mat n d) (WT : Mat d e) (bias : Fin e → EReal) (p : Fin n) (q : Fin e) :
    fc x WT bias (ix2 p q) = fcAt x WT bias p q := rfl

theorem fcAt_congr {n' : Nat} (x : Mat n d) (x' : Mat n' d) (WT WT' : Mat d e) (bias bias' : Fin e → EReal)
    (p : Fin n) (p' : Fin n') (q : Fin e)
    (hx : ∀ k, x (ix2 p k) = x' (ix2 p' k)) (hw : ∀ k, WT (ix2 k q) = WT' (ix2 k q)) (hb : bias q = bias' q) :
    fcAt x WT bias p q = fcAt x' WT' bias' p' q := by
  have e1 : (∑ k : Fin d, x (ix2 p k) * WT (ix2 k q)) = ∑ k : Fin d, x' (ix2 p' k) * WT' (ix2 k q) :=
    Finset.sum_congr rfl fun k _ => by rw [hx k, hw k]
  unfold fcAt
  rw [e1, hb]

/-- THE LAW: for a real count, scaling by 1 / max(count, 1) is dividing by max(count, 1), whatever is scaled. The
    one is the float word for 1. -/
theorem scale_eq_div (x cnt : EReal) (hc : IsReal cnt) :
    x * Ideal.div (Ideal.ofBits .f32 0x3F800000#32) (max cnt (Ideal.ofBits .f32 0x3F800000#32))
      = Ideal.div x (max cnt (Ideal.ofBits .f32 0x3F800000#32)) := by
  obtain ⟨r, rfl⟩ := hc
  rw [Cert.IdealReal.ofBits_one, Cert.IdealReal.max_coe]
  have hr : (max r 1 : ℝ) ≠ 0 := by
    have h1 : (1 : ℝ) ≤ max r 1 := le_max_right _ _
    intro h0; rw [h0] at h1; norm_num at h1
  rw [Ideal.div_coe hr x, Ideal.div_coe hr ((1 : ℝ) : EReal), ← EReal.coe_mul, one_mul]

end SageLaw

end
-- ==== Proof.SageTerms.lean ====
/-
  The host side of the kernel's program as named functions of arrays. From the edge list: the source and destination
  vectors, the source vector with negative entries wrapped by the node count, the in-degree count (ones added at the
  destinations into zeros), and the column of reciprocals 1 / max(count, 1). From a feature array: the neighbour
  aggregate (rows gathered at the wrapped sources, added at the destinations into zeros) and the mean as the kernel's
  program spells it, the aggregate times the reciprocal column spread over the feature axis. The aggregate is used
  only as a name: nothing here looks inside the gather or the accumulating scatter.
-/
import proofs.«105406_j64759516889909_1_alg».proof.Proof.Gen.KernelIdeal
import proofs.«105406_j64759516889909_1_alg».proof.Proof.SageLaw
import Idealize.ShloMosaic.Lib.ValueIdx

noncomputable section

namespace Cert.KernelIdeal.Terms

open Cert.KernelIdeal Cert.KernelIdeal.Gen Idealize.ShloMosaic Idealize.ShloMosaic.ValueIdx SageLaw

abbrev Feat : Type := FVec Ideal S50000x128 .f32
abbrev Wt : Type := FVec Ideal S128x128 .f32
abbrev Bias : Type := FVec Ideal S128 .f32
abbrev Edges : Type := IVec S2x800000 32
abbrev EdgeVec : Type := IVec S800000 32
abbrev Count : Type := FVec Ideal S50000 .f32
abbrev Col : Type := FVec Ideal S50000x1 .f32
abbrev Row : Type := FVec Ideal S1x128 .f32

/-- Row 0 of the edge list: the sources. -/
def srcOf (E : Edges) : EdgeVec :=
  shapeCast _ (extractStridedSlice S1x800000 ![0, 0] E slices_S2x800000_S1x800000_0_0) shapeCasts_S1x800000_S800000

/-- Row 1 of the edge list: the destinations. -/
def dstOf (E : Edges) : EdgeVec :=
  shapeCast _ (extractStridedSlice S1x800000 ![1, 0] E slices_S2x800000_S1x800000_1_0) shapeCasts_S1x800000_S800000

/-- The in-degree count: ones added at the destinations into zeros. -/
def cntOf (dst : EdgeVec) : Count :=
  Host.scatterAdd scatter_S50000_S800000x1_S800000_n_0_0_1
    (broadcastInDim S50000 ![] bcast_S_S50000 (constant (F := Ideal) S_ .f32 0x00000000#32))
    (broadcastInDim S800000x1 ![0] bcast_S800000_S800000x1_0 dst)
    (broadcastInDim S800000 ![] bcast_S_S800000 (constant (F := Ideal) S_ .f32 0x3F800000#32))

/-- max(count, 1). -/
def degOf (dst : EdgeVec) : Count :=
  maximumf (cntOf dst) (broadcastInDim S50000 ![] bcast_S_S50000 (constant (F := Ideal) S_ .f32 0x3F800000#32))

/-- The column of reciprocals 1 / max(count, 1). -/
def invColOf (dst : EdgeVec) : Col :=
  broadcastInDim S50000x1 ![0] bcast_S50000_S50000x1_0
    (Host.divf (F := Ideal) (broadcastInDim S50000 ![] bcast_S_S50000 (constant (F := Ideal) S_ .f32 0x3F800000#32)) (degOf dst))

/-- The neighbour aggregate of a feature array: rows gathered at the wrapped sources, added at the destinations. -/
def aggOf (h : Feat) (src dst : EdgeVec) : Feat :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (Host.gather gather_S50000x128_S800000x1_S800000x128_1_0_n_n_0_1_1128 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- The mean as the kernel's program spells it: the aggregate times the reciprocal column spread over the features. -/
def meanOf (h : Feat) (src dst : EdgeVec) (icol : Col) : Feat :=
  mulf (aggOf h src dst) (broadcastInDim S50000x128 ![0, 1] bcast_S50000x1_S50000x128_0_1 icol)

/-- A weight matrix transposed. -/
def trOf (W : Wt) : Wt := transpose S128x128 [1, 0] W transposes_S128x128_S128x128_1_0

/-- A bias vector as a row [1, 128]. -/
def rowOf (b : Bias) : Row := shapeCast _ b shapeCasts_S128_S1x128

/-- One layer of the kernel's program, from the previous features. -/
def layerOf (h : Feat) (src dst : EdgeVec) (icol : Col) (WlT WrT : Wt) (brow : Row) : Feat :=
  sage (meanOf h src dst icol) h WlT WrT (fun q => brow (ix2 (0 : Fin 1) q))

/-- The last linear map of the kernel's program. -/
def lastOf (h : Feat) (WT : Wt) (brow : Row) : Feat :=
  fc h WT (fun q => brow (ix2 (0 : Fin 1) q))

end Cert.KernelIdeal.Terms

end
-- ==== Proof.KernelHost0.lean ====
/-
  What the first stretch of host operations leaves, as named functions of the launch memory: the source and
  destination vectors of the edge list, the column of reciprocals 1 / max(count, 1), the nine transposed weight
  matrices, the first layer's mean (the aggregate of the input features times that column) and the first bias as a
  row; the arguments it reads are as launched.
-/
import proofs.«105406_j64759516889909_1_alg».proof.Proof.Gen.KernelIdeal.Frame
import proofs.«105406_j64759516889909_1_alg».proof.Proof.SageTerms
import Idealize.ShloMosaic.Lib.StableHlo.Run

set_option maxRecDepth 16384

noncomputable section

namespace Cert.KernelIdeal.Host

open Cert.KernelIdeal Cert.KernelIdeal.Gen Cert.KernelIdeal.Terms
open Idealize.ShloMosaic Idealize.ShloMosaic.TcCoe Idealize.ShloMosaic.Tactic Idealize.ShloMosaic.ValueIdx Idealize.SL.Sem
open Idealize.ShloMosaic.StableHlo

variable (m : (ℓ : Loc nD τ sig) → Buf (Elt Ideal) ℓ) (ρ : Dev nD → PrngReg) (c : Dev nD)

/-- The edge sources of the launch memory. -/
def srcM : EdgeVec := srcOf (m ((c : Thread nD τ).loc main_arg1))
/-- The edge destinations of the launch memory. -/
def dstM : EdgeVec := dstOf (m ((c : Thread nD τ).loc main_arg1))
/-- The column 1 / max(count, 1) of the launch memory's edge list. -/
def icolM : Col := invColOf (dstM m c)

set_option maxHeartbeats 4000000 in
theorem w1_v1 : (W1 m ρ c (Proc.devRef .tc main_v1) : EdgeVec) = srcM m c := by
  show StableHlo.after hostOps0 (W0 m ρ c) (Proc.devRef .tc main_v1) = _
  after_results_simp <;> rfl

set_option maxHeartbeats 4000000 in
theorem w1_v3 : (W1 m ρ c (Proc.devRef .tc main_v3) : EdgeVec) = dstM m c := by
  show StableHlo.after hostOps0 (W0 m ρ c) (Proc.devRef .tc main_v3) = _
  after_results_simp <;> rfl

set_option maxHeartbeats 4000000 in
theorem w1_v12 : (W1 m ρ c (Proc.devRef .tc main_v12) : Col) = icolM m c := by
  show StableHlo.after hostOps0 (W0 m ρ c) (Proc.devRef .tc main_v12) = _
  after_results_simp <;> rfl

set_option maxHeartbeats 4000000 in
theorem w1_v13 : (W1 m ρ c (Proc.devRef .tc main_v13) : Wt) = trOf (m ((c : Thread nD τ).loc main_arg2)) := by
  show StableHlo.after hostOps0 (W0 m ρ c) (Proc.devRef .tc main_v13) = _
  after_results_simp <;> rfl

set_option maxHeartbeats 4000000 in
theorem w1_v14 : (W1 m ρ c (Proc.devRef .tc main_v14) : Wt) = trOf (m ((c : Thread nD τ).loc main_arg3)) := by
  show StableHlo.after hostOps0 (W0 m ρ c) (Proc.devRef .tc main_v14) = _
  after_results_simp <;> rfl

set_option maxHeartbeats 4000000 in
theorem w1_v15 : (W1 m ρ c (Proc.devRef .tc main_v15) : Wt) = trOf (m ((c : Thread nD τ).loc main_arg5)) := by
  show StableHlo.after hostOps0 (W0 m ρ c) (Proc.devRef .tc main_v15) = _
  after_results_simp <;> rfl

set_option maxHeartbeats 4000000 in
theorem w1_v16 : (W1 m ρ c (Proc.devRef .tc main_v16) : Wt) = trOf (m ((c : Thread nD τ).loc main_arg6)) := by
  show StableHlo.after hostOps0 (W0 m ρ c) (Proc.devRef .tc main_v16) = _
  after_results_simp <;> rfl

set_option maxHeartbeats 4000000 in
theorem w1_v17 : (W1 m ρ c (Proc.devRef .tc main_v17) : Wt) = trOf (m ((c : Thread nD τ).loc main_arg8)) := by
  show StableHlo.after hostOps0 (W0 m ρ c) (Proc.devRef .tc main_v17) = _
  after_results_simp <;> rfl

set_option maxHeartbeats 4000000 in
theorem w1_v18 : (W1 m ρ c (Proc.devRef .tc main_v18) : Wt) = trOf (m ((c : Thread nD τ).loc main_arg9)) := by
  show StableHlo.after hostOps0 (W0 m ρ c) (Proc.devRef .tc main_v18) = _
  after_results_simp <;> rfl

set_option maxHeartbeats 4000000 in
theorem w1_v19 : (W1 m ρ c (Proc.devRef .tc main_v19) : Wt) = trOf (m ((c : Thread nD τ).loc main_arg11)) := by
  show StableHlo.after hostOps0 (W0 m ρ c) (Proc.devRef .tc main_v19) = _
  after_results_simp <;> rfl

set_option maxHeartbeats 4000000 in
theorem w1_v20 : (W1 m ρ c (Proc.devRef .tc main_v20) : Wt) = trOf (m ((c : Thread nD τ).loc main_arg12)) := by
  show StableHlo.after hostOps0 (W0 m ρ c) (Proc.devRef .tc main_v20) = _
  after_results_simp <;> rfl

set_option maxHeartbeats 4000000 in
theorem w1_v21 : (W1 m ρ c (Proc.devRef .tc main_v21) : Wt) = trOf (m ((c : Thread nD τ).loc main_arg14)) := by
  show StableHlo.after hostOps0 (W0 m ρ c) (Proc.devRef .tc main_v21) = _
  after_results_simp <;> rfl

set_option maxHeartbeats 4000000 in
theorem w1_v33 : (W1 m ρ c (Proc.devRef .tc main_v33) : Feat) = meanOf (m ((c : Thread nD τ).loc main_arg0)) (srcM m c) (dstM m c) (icolM m c) := by
  show StableHlo.after hostOps0 (W0 m ρ c) (Proc.devRef .tc main_v33) = _
  after_results_simp <;> rfl

set_option maxHeartbeats 4000000 in
theorem w1_v34 : (W1 m ρ c (Proc.devRef .tc main_v34) : Row) = rowOf (m ((c : Thread nD τ).loc main_arg4)) := by
  show StableHlo.after hostOps0 (W0 m ρ c) (Proc.devRef .tc main_v34) = _
  after_results_simp <;> rfl

set_option maxHeartbeats 4000000 in
theorem w1_arg0 : (W1 m ρ c (Proc.devRef .tc main_arg0) : Feat) = (m ((c : Thread nD τ).loc main_arg0)) := by
  show StableHlo.after hostOps0 (W0 m ρ c) (Proc.devRef .tc main_arg0) = _
  after_results_simp <;> rfl

set_option maxHeartbeats 4000000 in
theorem w1_arg7 : (W1 m ρ c (Proc.devRef .tc main_arg7) : Bias) = (m ((c : Thread nD τ).loc main_arg7)) := by
  show StableHlo.after hostOps0 (W0 m ρ c) (Proc.devRef .tc main_arg7) = _
  after_results_simp <;> rfl

set_option maxHeartbeats 4000000 in
theorem w1_arg10 : (W1 m ρ c (Proc.devRef .tc main_arg10) : Bias) = (m ((c : Thread nD τ).loc main_arg10)) := by
  show StableHlo.after hostOps0 (W0 m ρ c) (Proc.devRef .tc main_arg10) = _
  after_results_simp <;> rfl

set_option maxHeartbeats 4000000 in
theorem w1_arg13 : (W1 m ρ c (Proc.devRef .tc main_arg13) : Bias) = (m ((c : Thread nD τ).loc main_arg13)) := by
  show StableHlo.after hostOps0 (W0 m ρ c) (Proc.devRef .tc main_arg13) = _
  after_results_simp <;> rfl

set_option maxHeartbeats 4000000 in
theorem w1_arg15 : (W1 m ρ c (Proc.devRef .tc main_arg15) : Bias) = (m ((c : Thread nD τ).loc main_arg15)) := by
  show StableHlo.after hostOps0 (W0 m ρ c) (Proc.devRef .tc main_arg15) = _
  after_results_simp <;> rfl

end Cert.KernelIdeal.Host

end
-- ==== Proof.KernelHostA.lean ====
/-
  What each later stretch of host operations leaves, in terms of what it finds: the next layer's mean (the aggregate
  of the previous layer's output times the reciprocal column), the next bias as a row, and every buffer it does not
  write as it was.
-/
import proofs.«105406_j64759516889909_1_alg».proof.Proof.Gen.KernelIdeal.Frame
import proofs.«105406_j64759516889909_1_alg».proof.Proof.SageTerms
import Idealize.ShloMosaic.Lib.StableHlo.Run

set_option maxRecDepth 16384

noncomputable section

namespace Cert.KernelIdeal.Host

open Cert.KernelIdeal Cert.KernelIdeal.Gen Cert.KernelIdeal.Terms
open Idealize.ShloMosaic Idealize.ShloMosaic.TcCoe Idealize.ShloMosaic.Tactic Idealize.ShloMosaic.ValueIdx Idealize.SL.Sem
open Idealize.ShloMosaic.StableHlo

variable (m : (ℓ : Loc nD τ sig) → Buf (Elt Ideal) ℓ) (ρ : Dev nD → PrngReg) (c : Dev nD)

set_option maxHeartbeats 4000000 in
theorem w3_v47 : (W3 m ρ c (Proc.devRef .tc main_v47) : Feat)
    = meanOf (W2 m ρ c (Proc.devRef .tc main_v35)) (W2 m ρ c (Proc.devRef .tc main_v1)) (W2 m ρ c (Proc.devRef .tc main_v3)) (W2 m ρ c (Proc.devRef .tc main_v12)) := by
  show StableHlo.after hostOps1 (W2 m ρ c) (Proc.devRef .tc main_v47) = _
  after_results_simp <;> rfl

set_option maxHeartbeats 4000000 in
theorem w3_v48 : (W3 m ρ c (Proc.devRef .tc main_v48) : Row) = rowOf (W2 m ρ c (Proc.devRef .tc main_arg7)) := by
  show StableHlo.after hostOps1 (W2 m ρ c) (Proc.devRef .tc main_v48) = _
  after_results_simp <;> rfl

set_option maxHeartbeats 4000000 in
theorem w3_keep_v35 : W3 m ρ c (Proc.devRef .tc main_v35) = W2 m ρ c (Proc.devRef .tc main_v35) := by
  show StableHlo.after hostOps1 (W2 m ρ c) (Proc.devRef .tc main_v35) = _
  after_results_simp <;> rfl

set_option maxHeartbeats 4000000 in
theorem w3_keep_v1 : W3 m ρ c (Proc.devRef .tc main_v1) = W2 m ρ c (Proc.devRef .tc main_v1) := by
  show StableHlo.after hostOps1 (W2 m ρ c) (Proc.devRef .tc main_v1) = _
  after_results_simp <;> rfl

set_option maxHeartbeats 4000000 in
theorem w3_keep_v3 : W3 m ρ c (Proc.devRef .tc main_v3) = W2 m ρ c (Proc.devRef .tc main_v3) := by
  show StableHlo.after hostOps1 (W2 m ρ c) (Proc.devRef .tc main_v3) = _
  after_results_simp <;> rfl

set_option maxHeartbeats 4000000 in
theorem w3_keep_v12 : W3 m ρ c (Proc.devRef .tc main_v12) = W2 m ρ c (Proc.devRef .tc main_v12) := by
  show StableHlo.after hostOps1 (W2 m ρ c) (Proc.devRef .tc main_v12) = _
  after_results_simp <;> rfl

set_option maxHeartbeats 4000000 in
theorem w3_keep_v15 : W3 m ρ c (Proc.devRef .tc main_v15) = W2 m ρ c (Proc.devRef .tc main_v15) := by
  show StableHlo.after hostOps1 (W2 m ρ c) (Proc.devRef .tc main_v15) = _
  after_results_simp <;> rfl

set_option maxHeartbeats 4000000 in
theorem w3_keep_v16 : W3 m ρ c (Proc.devRef .tc main_v16) = W2 m ρ c (Proc.devRef .tc main_v16) := by
  show StableHlo.after hostOps1 (W2 m ρ c) (Proc.devRef .tc main_v16) = _
  after_results_simp <;> rfl

set_option maxHeartbeats 4000000 in
theorem w3_keep_v17 : W3 m ρ c (Proc.devRef .tc main_v17) = W2 m ρ c (Proc.devRef .tc main_v17) := by
  show StableHlo.after hostOps1 (W2 m ρ c) (Proc.devRef .tc main_v17) = _
  after_results_simp <;> rfl

set_option maxHeartbeats 4000000 in
theorem w3_keep_v18 : W3 m ρ c (Proc.devRef .tc main_v18) = W2 m ρ c (Proc.devRef .tc main_v18) := by
  show StableHlo.after hostOps1 (W2 m ρ c) (Proc.devRef .tc main_v18) = _
  after_results_simp <;> rfl

set_option maxHeartbeats 4000000 in
theorem w3_keep_v19 : W3 m ρ c (Proc.devRef .tc main_v19) = W2 m ρ c (Proc.devRef .tc main_v19) := by
  show StableHlo.after hostOps1 (W2 m ρ c) (Proc.devRef .tc main_v19) = _
  after_results_simp <;> rfl

set_option maxHeartbeats 4000000 in
theorem w3_keep_v20 : W3 m ρ c (Proc.devRef .tc main_v20) = W2 m ρ c (Proc.devRef .tc main_v20) := by
  show StableHlo.after hostOps1 (W2 m ρ c) (Proc.devRef .tc main_v20) = _
  after_results_simp <;> rfl

set_option maxHeartbeats 4000000 in
theorem w3_keep_v21 : W3 m ρ c (Proc.devRef .tc main_v21) = W2 m ρ c (Proc.devRef .tc main_v21) := by
  show StableHlo.after hostOps1 (W2 m ρ c) (Proc.devRef .tc main_v21) = _
  after_results_simp <;> rfl

set_option maxHeartbeats 4000000 in
theorem w3_keep_arg10 : W3 m ρ c (Proc.devRef .tc main_arg10) = W2 m ρ c (Proc.devRef .tc main_arg10) := by
  show StableHlo.after hostOps1 (W2 m ρ c) (Proc.devRef .tc main_arg10) = _
  after_results_simp <;> rfl

set_option maxHeartbeats 4000000 in
theorem w3_keep_arg13 : W3 m ρ c (Proc.devRef .tc main_arg13) = W2 m ρ c (Proc.devRef .tc main_arg13) := by
  show StableHlo.after hostOps1 (W2 m ρ c) (Proc.devRef .tc main_arg13) = _
  after_results_simp <;> rfl

set_option maxHeartbeats 4000000 in
theorem w3_keep_arg15 : W3 m ρ c (Proc.devRef .tc main_arg15) = W2 m ρ c (Proc.devRef .tc main_arg15) := by
  show StableHlo.after hostOps1 (W2 m ρ c) (Proc.devRef .tc main_arg15) = _
  after_results_simp <;> rfl

set_option maxHeartbeats 4000000 in
theorem w5_v61 : (W5 m ρ c (Proc.devRef .tc main_v61) : Feat)
    = meanOf (W4 m ρ c (Proc.devRef .tc main_v49)) (W4 m ρ c (Proc.devRef .tc main_v1)) (W4 m ρ c (Proc.devRef .tc main_v3)) (W4 m ρ c (Proc.devRef .tc main_v12)) := by
  show StableHlo.after hostOps2 (W4 m ρ c) (Proc.devRef .tc main_v61) = _
  after_results_simp <;> rfl

set_option maxHeartbeats 4000000 in
theorem w5_v62 : (W5 m ρ c (Proc.devRef .tc main_v62) : Row) = rowOf (W4 m ρ c (Proc.devRef .tc main_arg10)) := by
  show StableHlo.after hostOps2 (W4 m ρ c) (Proc.devRef .tc main_v62) = _
  after_results_simp <;> rfl

set_option maxHeartbeats 4000000 in
theorem w5_keep_v49 : W5 m ρ c (Proc.devRef .tc main_v49) = W4 m ρ c (Proc.devRef .tc main_v49) := by
  show StableHlo.after hostOps2 (W4 m ρ c) (Proc.devRef .tc main_v49) = _
  after_results_simp <;> rfl

set_option maxHeartbeats 4000000 in
theorem w5_keep_v1 : W5 m ρ c (Proc.devRef .tc main_v1) = W4 m ρ c (Proc.devRef .tc main_v1) := by
  show StableHlo.after hostOps2 (W4 m ρ c) (Proc.devRef .tc main_v1) = _
  after_results_simp <;> rfl

set_option maxHeartbeats 4000000 in
theorem w5_keep_v3 : W5 m ρ c (Proc.devRef .tc main_v3) = W4 m ρ c (Proc.devRef .tc main_v3) := by
  show StableHlo.after hostOps2 (W4 m ρ c) (Proc.devRef .tc main_v3) = _
  after_results_simp <;> rfl

set_option maxHeartbeats 4000000 in
theorem w5_keep_v12 : W5 m ρ c (Proc.devRef .tc main_v12) = W4 m ρ c (Proc.devRef .tc main_v12) := by
  show StableHlo.after hostOps2 (W4 m ρ c) (Proc.devRef .tc main_v12) = _
  after_results_simp <;> rfl

set_option maxHeartbeats 4000000 in
theorem w5_keep_v17 : W5 m ρ c (Proc.devRef .tc main_v17) = W4 m ρ c (Proc.devRef .tc main_v17) := by
  show StableHlo.after hostOps2 (W4 m ρ c) (Proc.devRef .tc main_v17) = _
  after_results_simp <;> rfl

set_option maxHeartbeats 4000000 in
theorem w5_keep_v18 : W5 m ρ c (Proc.devRef .tc main_v18) = W4 m ρ c (Proc.devRef .tc main_v18) := by
  show StableHlo.after hostOps2 (W4 m ρ c) (Proc.devRef .tc main_v18) = _
  after_results_simp <;> rfl

set_option maxHeartbeats 4000000 in
theorem w5_keep_v19 : W5 m ρ c (Proc.devRef .tc main_v19) = W4 m ρ c (Proc.devRef .tc main_v19) := by
  show StableHlo.after hostOps2 (W4 m ρ c) (Proc.devRef .tc main_v19) = _
  after_results_simp <;> rfl

set_option maxHeartbeats 4000000 in
theorem w5_keep_v20 : W5 m ρ c (Proc.devRef .tc main_v20) = W4 m ρ c (Proc.devRef .tc main_v20) := by
  show StableHlo.after hostOps2 (W4 m ρ c) (Proc.devRef .tc main_v20) = _
  after_results_simp <;> rfl

set_option maxHeartbeats 4000000 in
theorem w5_keep_v21 : W5 m ρ c (Proc.devRef .tc main_v21) = W4 m ρ c (Proc.devRef .tc main_v21) := by
  show StableHlo.after hostOps2 (W4 m ρ c) (Proc.devRef .tc main_v21) = _
  after_results_simp <;> rfl

set_option maxHeartbeats 4000000 in
theorem w5_keep_arg13 : W5 m ρ c (Proc.devRef .tc main_arg13) = W4 m ρ c (Proc.devRef .tc main_arg13) := by
  show StableHlo.after hostOps2 (W4 m ρ c) (Proc.devRef .tc main_arg13) = _
  after_results_simp <;> rfl

set_option maxHeartbeats 4000000 in
theorem w5_keep_arg15 : W5 m ρ c (Proc.devRef .tc main_arg15) = W4 m ρ c (Proc.devRef .tc main_arg15) := by
  show StableHlo.after hostOps2 (W4 m ρ c) (Proc.devRef .tc main_arg15) = _
  after_results_simp <;> rfl

set_option maxHeartbeats 4000000 in
theorem w7_v75 : (W7 m ρ c (Proc.devRef .tc main_v75) : Feat)
    = meanOf (W6 m ρ c (Proc.devRef .tc main_v63)) (W6 m ρ c (Proc.devRef .tc main_v1)) (W6 m ρ c (Proc.devRef .tc main_v3)) (W6 m ρ c (Proc.devRef .tc main_v12)) := by
  show StableHlo.after hostOps3 (W6 m ρ c) (Proc.devRef .tc main_v75) = _
  after_results_simp <;> rfl

set_option maxHeartbeats 4000000 in
theorem w7_v76 : (W7 m ρ c (Proc.devRef .tc main_v76) : Row) = rowOf (W6 m ρ c (Proc.devRef .tc main_arg13)) := by
  show StableHlo.after hostOps3 (W6 m ρ c) (Proc.devRef .tc main_v76) = _
  after_results_simp <;> rfl

set_option maxHeartbeats 4000000 in
theorem w7_keep_v63 : W7 m ρ c (Proc.devRef .tc main_v63) = W6 m ρ c (Proc.devRef .tc main_v63) := by
  show StableHlo.after hostOps3 (W6 m ρ c) (Proc.devRef .tc main_v63) = _
  after_results_simp <;> rfl

set_option maxHeartbeats 4000000 in
theorem w7_keep_v19 : W7 m ρ c (Proc.devRef .tc main_v19) = W6 m ρ c (Proc.devRef .tc main_v19) := by
  show StableHlo.after hostOps3 (W6 m ρ c) (Proc.devRef .tc main_v19) = _
  after_results_simp <;> rfl

set_option maxHeartbeats 4000000 in
theorem w7_keep_v20 : W7 m ρ c (Proc.devRef .tc main_v20) = W6 m ρ c (Proc.devRef .tc main_v20) := by
  show StableHlo.after hostOps3 (W6 m ρ c) (Proc.devRef .tc main_v20) = _
  after_results_simp <;> rfl

set_option maxHeartbeats 4000000 in
theorem w7_keep_v21 : W7 m ρ c (Proc.devRef .tc main_v21) = W6 m ρ c (Proc.devRef .tc main_v21) := by
  show StableHlo.after hostOps3 (W6 m ρ c) (Proc.devRef .tc main_v21) = _
  after_results_simp <;> rfl

set_option maxHeartbeats 4000000 in
theorem w7_keep_arg15 : W7 m ρ c (Proc.devRef .tc main_arg15) = W6 m ρ c (Proc.devRef .tc main_arg15) := by
  show StableHlo.after hostOps3 (W6 m ρ c) (Proc.devRef .tc main_arg15) = _
  after_results_simp <;> rfl

set_option maxHeartbeats 4000000 in
theorem w9_v78 : (W9 m ρ c (Proc.devRef .tc main_v78) : Row) = rowOf (W8 m ρ c (Proc.devRef .tc main_arg15)) := by
  show StableHlo.after hostOps4 (W8 m ρ c) (Proc.devRef .tc main_v78) = _
  after_results_simp <;> rfl

set_option maxHeartbeats 4000000 in
theorem w9_keep_v77 : W9 m ρ c (Proc.devRef .tc main_v77) = W8 m ρ c (Proc.devRef .tc main_v77) := by
  show StableHlo.after hostOps4 (W8 m ρ c) (Proc.devRef .tc main_v77) = _
  after_results_simp <;> rfl

set_option maxHeartbeats 4000000 in
theorem w9_keep_v21 : W9 m ρ c (Proc.devRef .tc main_v21) = W8 m ρ c (Proc.devRef .tc main_v21) := by
  show StableHlo.after hostOps4 (W8 m ρ c) (Proc.devRef .tc main_v21) = _
  after_results_simp <;> rfl

end Cert.KernelIdeal.Host

end
-- ==== Proof.LibRowOps.lean ====
/-
  Matrices read at an entry, for any extents: a column [a, 1] laid along every column of [a, b] (a kernel's broadcast);
  a vector [a] stood up as a column [a, 1]; and the product of an [M, K] matrix by a [K, N] matrix, as a kernel computes
  it into a zero accumulator and as a host program computes it, read at entry (a, b) as the sum over the contracted
  coordinate of the products of the entries. The products are stated for any dimension record that is the plain one
  (left operand contracted on its columns, right operand on its rows, no batch axis).
-/
import Idealize.ShloMosaic.Lib.Pipeline.Value
import Idealize.ShloMosaic.Lib.ValueIdx
import Idealize.ShloMosaic.Lib.StackMember
import Idealize.ShloMosaic.Lib.KernelVsHost
import Idealize.ShloMosaic.PureOps.Ideal.Laws

noncomputable section

open scoped BigOperators

namespace RowOps

open Idealize.ShloMosaic Idealize.ShloMosaic.ValueIdx

variable {α : Type}

/-- A column [a, 1] laid along every column of [a, b]: entry (p, q) is entry (p, 0). -/
theorem col_to_apply {a b : Nat} (h : (⟨2, ![a, 1]⟩ : Shape).Broadcasts ⟨2, ![a, b]⟩)
    (v : (⟨2, ![a, 1]⟩ : Shape).Idx → α) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A vector [a] stood up as a column [a, 1]: entry (p, 0) is entry p. -/
theorem vec_col_apply {a : Nat} (h : (⟨1, ![a]⟩ : Shape).BroadcastsInDim ⟨2, ![a, 1]⟩ (![0] : Fin 1 → Fin 2))
    (v : (⟨1, ![a]⟩ : Shape).Idx → α) (p : Fin a) (z : Fin 1) :
    broadcastInDim ⟨2, ![a, 1]⟩ ![0] h v (ix2 p z) = v (ix1 p) :=
  broadcastInDim_apply _ h v (ix2 p z) (ix1 p) (fun ax => match ax with
    | ⟨0, _⟩ => by
      show p.val = if a = 1 then 0 else p.val
      split
      · have := p.isLt; omega
      · rfl)

/-- The host's product of an [M, K] by a [K, N] matrix at entry (a, b): the sum over c of A(a, c) · B(c, b). -/
theorem dotGeneral_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    Host.dotGeneral D prec A B (ix2 a b) = ∑ c : Fin K, A (ix2 a c) * B (ix2 c b) := by
  subst hD
  exact StackMember.dotGeneral_plain_apply prec A B a b

/-- A kernel's product into a zero accumulator at entry (a, b): the same sum. -/
theorem matmul_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    matmul D prec A B (constant ⟨2, ![M, N]⟩ .f32 0x00000000#32) (ix2 a b) = ∑ c : Fin K, A (ix2 a c) * B (ix2 c b) := by
  rw [matmul_zero_eq_dotGeneral]
  exact dotGeneral_apply D hD prec A B a b

end RowOps

end
-- ==== Proof.LibSoftLayout.lean ====
/-
  Matrices and vectors read at an entry, for any extents: a block of consecutive rows of a matrix; a transposed
  matrix; a row [1, b] laid along every row of [a, b]; a vector stood up as a row [1, b] or as a column [a, 1] by a
  change of shape; a matrix [a, b] read as [1, a, b] and back; the sum of a matrix's rows' entries (along the columns)
  and of its columns' entries (along the rows), and a row's maximum, each as a sum or a fold over one coordinate.
-/
import Idealize.ShloMosaic.Lib.Pipeline.Value
import Idealize.ShloMosaic.Lib.ValueIdx
import Idealize.ShloMosaic.PureOps.Ideal.Laws

noncomputable section

open scoped BigOperators

namespace SoftLayout

open Idealize.ShloMosaic Idealize.ShloMosaic.ValueIdx

variable {α : Type}

/-- Rows `off`, `off + 1`, … of a matrix: entry (r, q) of the piece is entry (off + r, q). -/
theorem rows_apply {n m c off : Nat} (h : (⟨2, ![n, c]⟩ : Shape).Slices ![off, 0] ⟨2, ![m, c]⟩)
    (v : (⟨2, ![n, c]⟩ : Shape).Idx → α) (r : Fin m) (q : Fin c) (hr : off + r.val < n) :
    extractStridedSlice ⟨2, ![m, c]⟩ ![off, 0] v h (ix2 r q) = v (ix2 ⟨off + r.val, hr⟩ q) :=
  extractStridedSlice_apply ![off, 0] v h (ix2 r q) (ix2 ⟨off + r.val, hr⟩ q) (fun a => match a with
    | ⟨0, _⟩ => rfl
    | ⟨1, _⟩ => (Nat.zero_add _).symm)

/-- A transposed matrix: entry (q, p) is entry (p, q). -/
theorem transpose_apply {a b : Nat} (h : (⟨2, ![a, b]⟩ : Shape).Transposes [1, 0] ⟨2, ![b, a]⟩)
    (v : (⟨2, ![a, b]⟩ : Shape).Idx → α) (q : Fin b) (p : Fin a) :
    transpose ⟨2, ![b, a]⟩ [1, 0] v h (ix2 q p) = v (ix2 p q) :=
  Idealize.ShloMosaic.transpose_apply [1, 0] v h (ix2 q p) (ix2 p q) (fun c => match c with
    | ⟨0, _⟩ => rfl
    | ⟨1, _⟩ => rfl)

/-- A row [1, b] laid along every row of [a, b]: entry (p, q) is entry (0, q). -/
theorem row_to_apply {a b : Nat} (h : (⟨2, ![1, b]⟩ : Shape).Broadcasts ⟨2, ![a, b]⟩)
    (v : (⟨2, ![1, b]⟩ : Shape).Idx → α) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- A vector [b] stood up as a row [1, b] by a change of shape: entry (0, q) is entry q. -/
theorem vec_row_cast_apply {b : Nat} (h : (⟨1, ![b]⟩ : Shape).ShapeCasts ⟨2, ![1, b]⟩)
    (v : (⟨1, ![b]⟩ : Shape).Idx → α) (z : Fin 1) (q : Fin b) :
    shapeCast ⟨2, ![1, b]⟩ v h (ix2 z q) = v (ix1 q) := by
  refine shapeCast_apply v h (ix2 z q) (ix1 q) ?_
  rw [Shape.rowMajor_val_one, Shape.rowMajor_val_two]
  show q.val = z.val * b + q.val
  have := z.isLt
  have hz : z.val = 0 := by omega
  rw [hz]; omega

/-- A vector [a] stood up as a column [a, 1] by a change of shape: entry (p, 0) is entry p. -/
theorem vec_col_cast_apply {a : Nat} (h : (⟨1, ![a]⟩ : Shape).ShapeCasts ⟨2, ![a, 1]⟩)
    (v : (⟨1, ![a]⟩ : Shape).Idx → α) (p : Fin a) (z : Fin 1) :
    shapeCast ⟨2, ![a, 1]⟩ v h (ix2 p z) = v (ix1 p) := by
  refine shapeCast_apply v h (ix2 p z) (ix1 p) ?_
  rw [Shape.rowMajor_val_one, Shape.rowMajor_val_two]
  show p.val = p.val * 1 + z.val
  have := z.isLt
  omega

/-- [1, a, b] read as the matrix [a, b]: entry (p, q) is entry (0, p, q). -/
theorem drop_lead_apply {a b : Nat} (h : (⟨3, ![1, a, b]⟩ : Shape).ShapeCasts ⟨2, ![a, b]⟩)
    (v : (⟨3, ![1, a, b]⟩ : Shape).Idx → α) (p : Fin a) (q : Fin b) :
    shapeCast ⟨2, ![a, b]⟩ v h (ix2 p q) = v (ix3 (0 : Fin 1) p q) := by
  refine shapeCast_apply v h (ix2 p q) (ix3 (0 : Fin 1) p q) ?_
  rw [Shape.rowMajor_val_two, Shape.rowMajor_val_three]
  show (0 * a + p.val) * b + q.val = p.val * b + q.val
  rw [Nat.zero_mul, Nat.zero_add]

/-- The matrix [a, b] read as [1, a, b]: entry (0, p, q) is entry (p, q). -/
theorem add_lead_apply {a b : Nat} (h : (⟨2, ![a, b]⟩ : Shape).ShapeCasts ⟨3, ![1, a, b]⟩)
    (v : (⟨2, ![a, b]⟩ : Shape).Idx → α) (z : Fin 1) (p : Fin a) (q : Fin b) :
    shapeCast ⟨3, ![1, a, b]⟩ v h (ix3 z p q) = v (ix2 p q) := by
  refine shapeCast_apply v h (ix3 z p q) (ix2 p q) ?_
  rw [Shape.rowMajor_val_two, Shape.rowMajor_val_three]
  show p.val * b + q.val = (z.val * a + p.val) * b + q.val
  have := z.isLt
  have hz : z.val = 0 := by omega
  rw [hz, Nat.zero_mul, Nat.zero_add]

/-- The index over row `p` with column coordinate `q` inserted. -/
theorem lift_row {a b : Nat} (h : (⟨2, ![a, b]⟩ : Shape).Reduces [1] ⟨1, ![a]⟩) (p : Fin a) (q : Fin b) :
    h.lift (ix1 p) q = ix2 p q :=
  funext fun c => match c with
    | ⟨0, _⟩ => Fin.ext rfl
    | ⟨1, _⟩ => Fin.ext rfl

/-- The index over column `q` with row coordinate `p` inserted. -/
theorem lift_col {a b : Nat} (h : (⟨2, ![a, b]⟩ : Shape).Reduces [0] ⟨1, ![b]⟩) (q : Fin b) (p : Fin a) :
    h.lift (ix1 q) p = ix2 p q :=
  funext fun c => match c with
    | ⟨0, _⟩ => Fin.ext rfl
    | ⟨1, _⟩ => Fin.ext rfl

/-- The sums of a matrix's rows: entry p is the sum over q of entry (p, q). -/
theorem rowsum_apply {a b : Nat} (v : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ v 0x00000000#32 h hφ hacc (ix1 p) = ∑ q : Fin b, v (ix2 p q) := by
  refine (Ideal.multiReduction_add_single v 0x00000000#32 h hφ hacc (ix1 p)).trans ?_
  exact Finset.sum_congr rfl fun q _ => congrArg v (lift_row h p q)

/-- The sums of a matrix's columns: entry q is the sum over p of entry (p, q). -/
theorem colsum_apply {a b : Nat} (v : FVec Ideal ⟨2, ![a, b]⟩ .f32) (h : (⟨2, ![a, b]⟩ : Shape).Reduces [0] ⟨1, ![b]⟩)
    (hφ : FKind.Formats .f32) (hacc : (0x00000000#32 : BitVec 32) = 0x00000000#32) (q : Fin b) :
    multiReduction .add [0] ⟨1, ![b]⟩ v 0x00000000#32 h hφ hacc (ix1 q) = ∑ p : Fin a, v (ix2 p q) := by
  refine (Ideal.multiReduction_add_single v 0x00000000#32 h hφ hacc (ix1 q)).trans ?_
  exact Finset.sum_congr rfl fun p _ => congrArg v (lift_col h q p)

/-- The maxima of a matrix's rows, from -∞: entry p is the fold of `max` over q of entry (p, q). -/
theorem rowmax_apply {a b : Nat} (v : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (p : Fin a) :
    multiReduction .maximumf [1] ⟨1, ![a]⟩ v 0xFF800000#32 h hφ hacc (ix1 p)
      = (Finset.univ : Finset (Fin b)).fold max (Ideal.ofBits .f32 0xFF800000#32) (fun q => v (ix2 p q)) := by
  refine (Ideal.multiReduction_maximumf_single v 0xFF800000#32 h hφ hacc (ix1 p)).trans ?_
  exact congrArg (fun f => (Finset.univ : Finset (Fin b)).fold max (Ideal.ofBits .f32 0xFF800000#32) f)
    (funext fun q => congrArg v (lift_row h p q))

end SoftLayout

end
-- ==== Proof.KernelBody.lean ====
/-
  The bodies' arithmetic at an entry, on the extended reals. A layer's body takes a block of 5000 rows of the mean
  and of the features, both weight matrices (already transposed) and the bias row, and stores
      max(mean·WlT + h·WrT + bias, 0);
  the last body stores x·WT + bias. A change of float format is the identity on the extended reals, a product into a
  zero accumulator is the plain sum over the contracted coordinate, and the bias row [1, 128] laid over the block is
  its entry (0, q): so entry (r, q) of what a body stores is the layer's (the linear map's) entry (r, q) of its
  blocks.
-/
import proofs.«105406_j64759516889909_1_alg».proof.Proof.Gen.KernelIdeal.Skeleton
import proofs.«105406_j64759516889909_1_alg».proof.Proof.LibRowOps
import proofs.«105406_j64759516889909_1_alg».proof.Proof.LibSoftLayout
import proofs.«105406_j64759516889909_1_alg».proof.Proof.SageLaw
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx SageLaw

/-- The blocks' product is the plain one: rows by columns, no batch axis. -/
theorem dot_plain : dot_S5000x128_S128x128_S5000x128_1_0_0_1_n_n = DotDims.plain 5000 128 128 := rfl

/-- A block product at an entry, the operands passed through the identity casts the body applies. -/
theorem prod_at (a : FVec Ideal S5000x128 .f32) (w : FVec Ideal S128x128 .f32) (ha : S5000x128.ShapeCasts S5000x128)
    (hw : S128x128.ShapeCasts S128x128) (r : Fin 5000) (q : Fin 128) :
    matmul dot_S5000x128_S128x128_S5000x128_1_0_0_1_n_n none (truncf .bf16 (shapeCast S5000x128 a ha) bitsLt_bf16_f32)
        (truncf .bf16 (shapeCast S128x128 w hw) bitsLt_bf16_f32) (constant S5000x128 .f32 0x00000000#32) (ix2 r q)
      = ∑ k : Fin 128, a (ix2 r k) * w (ix2 k q) := by
  rw [shapeCast_self, shapeCast_self]
  exact RowOps.matmul_apply _ dot_plain none _ _ r q

/-- The same without the cast of the left operand. -/
theorem prod_at' (a : FVec Ideal S5000x128 .f32) (w : FVec Ideal S128x128 .f32)
    (hw : S128x128.ShapeCasts S128x128) (r : Fin 5000) (q : Fin 128) :
    matmul dot_S5000x128_S128x128_S5000x128_1_0_0_1_n_n none (truncf .bf16 a bitsLt_bf16_f32)
        (truncf .bf16 (shapeCast S128x128 w hw) bitsLt_bf16_f32) (constant S5000x128 .f32 0x00000000#32) (ix2 r q)
      = ∑ k : Fin 128, a (ix2 r k) * w (ix2 k q) := by
  rw [shapeCast_self]
  exact RowOps.matmul_apply _ dot_plain none _ _ r q

/-- The bias row laid over the block, at an entry. -/
theorem bias_at (b : FVec Ideal S1x128 .f32) (hb : S1x128.ShapeCasts S1x128) (r : Fin 5000) (q : Fin 128) :
    broadcastTo S5000x128 (shapeCast S1x128 b hb) broadcasts_S1x128_S5000x128 (ix2 r q) = b (ix2 (0 : Fin 1) q) := by
  rw [shapeCast_self]
  exact SoftLayout.row_to_apply broadcasts_S1x128_S5000x128 b r q

/-- Entry (r, q) of what a layer's body stores. -/
theorem pay0_at (x0 x1 : FVec Ideal S5000x128 .f32) (x2 x3 : FVec Ideal S128x128 .f32) (x4 : FVec Ideal S1x128 .f32)
    (r : Fin 5000) (q : Fin 128) :
    k0_pay1 (F := Ideal) x0 x1 x2 x3 x4 (ix2 r q) = sageAt x0 x1 x2 x3 (fun q' => x4 (ix2 (0 : Fin 1) q')) r q := by
  unfold k0_pay1 sageAt
  show max ((matmul _ none _ _ _ (ix2 r q) + matmul _ none _ _ _ (ix2 r q)) + broadcastTo S5000x128 _ _ (ix2 r q)) _ = _
  rw [prod_at, prod_at', bias_at]
  rfl

end Cert.KernelIdeal.Body

end
-- ==== Proof.KernelBlocks0.lean ====
/-
  Region 0's output array after its ten grid points, as one function of the arrays the region finds. Point t takes
  rows 5000·t … 5000·t + 4999 of the mean and of the features, the two whole weight matrices and the bias row, and
  writes back rows 5000·t … 5000·t + 4999 of the output; the ten blocks tile the 50000 rows. Entry (r, q) of a
  block's result depends on row r of the two row blocks only, so block t of the result is block t of the layer
  applied to the whole arrays, and the output array ends as that layer.
-/
import proofs.«105406_j64759516889909_1_alg».proof.Proof.Gen.KernelIdeal.Frame
import proofs.«105406_j64759516889909_1_alg».proof.Proof.KernelBody
import proofs.«105406_j64759516889909_1_alg».proof.Proof.SageLaw
import Idealize.ShloMosaic.Lib.Pipeline.Value
import Idealize.ShloMosaic.Lib.ValueIdx

set_option maxRecDepth 16384

noncomputable section

open scoped BigOperators

namespace Cert.KernelIdeal.Blocks0

open Cert.KernelIdeal Cert.KernelIdeal.Gen Idealize.ShloMosaic Idealize.ShloMosaic.TcCoe Idealize.ShloMosaic.ValueIdx SageLaw
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The layer of the arrays the region finds: window 0 the mean, window 1 the features, windows 2 and 3 the weights,
    window 4 the bias row. -/
def G (c : Dev nD) : S50000x128.Idx → EReal :=
  sage (V c (Pipeline.arrRef spec0 0)) (V c (Pipeline.arrRef spec0 1)) (V c (Pipeline.arrRef spec0 2)) (V c (Pipeline.arrRef spec0 3))
    (fun q => V c (Pipeline.arrRef spec0 4) (ix2 (0 : Fin 1) q))

/-- The index maps over the grid: the row windows sit at block row t, the others at the origin. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem t_lt (t : Fin cfg0.N) : t.val < 10 := lt_of_lt_of_eq t.isLt N_0

/-- A row block read at an entry is the array at row 5000·t + r. -/
theorem rows0_at (c : Dev nD) (t : Fin cfg0.N) (r : Fin 5000) (k : Fin 128) (h : t.val * 5000 + r.val < 50000) :
    iblk0 V c 0 t (ix2 r k) = V c (Pipeline.arrRef spec0 0) (ix2 ⟨t.val * 5000 + r.val, h⟩ k) := by
  obtain ⟨e00, e01, -⟩ := idx_facts t
  show V c (Pipeline.arrRef spec0 0) (((cfg0.win 0).blk t).view.emb (ix2 r k)) = _
  refine congrArg (V c (Pipeline.arrRef spec0 0)) (funext fun a => Fin.ext ?_)
  match a with
  | ⟨0, _⟩ => show win0_0.index t (0 : Fin 2) * 5000 + 1 * r.val = t.val * 5000 + r.val; omega
  | ⟨1, _⟩ => show win0_0.index t (1 : Fin 2) * 128 + 1 * k.val = k.val; omega

theorem rows1_at (c : Dev nD) (t : Fin cfg0.N) (r : Fin 5000) (k : Fin 128) (h : t.val * 5000 + r.val < 50000) :
    iblk0 V c 1 t (ix2 r k) = V c (Pipeline.arrRef spec0 1) (ix2 ⟨t.val * 5000 + r.val, h⟩ k) := by
  obtain ⟨-, -, e10, e11, -⟩ := idx_facts t
  show V c (Pipeline.arrRef spec0 1) (((cfg0.win 1).blk t).view.emb (ix2 r k)) = _
  refine congrArg (V c (Pipeline.arrRef spec0 1)) (funext fun a => Fin.ext ?_)
  match a with
  | ⟨0, _⟩ => show win0_1.index t (0 : Fin 2) * 5000 + 1 * r.val = t.val * 5000 + r.val; omega
  | ⟨1, _⟩ => show win0_1.index t (1 : Fin 2) * 128 + 1 * k.val = k.val; omega

/-- A weight block is the whole weight matrix. -/
theorem wt2_at (c : Dev nD) (t : Fin cfg0.N) (k : Fin 128) (q : Fin 128) :
    iblk0 V c 2 t (ix2 k q) = V c (Pipeline.arrRef spec0 2) (ix2 k q) := by
  obtain ⟨-, -, -, -, e20, e21, -⟩ := idx_facts t
  show V c (Pipeline.arrRef spec0 2) (((cfg0.win 2).blk t).view.emb (ix2 k q)) = _
  refine congrArg (V c (Pipeline.arrRef spec0 2)) (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

theorem wt3_at (c : Dev nD) (t : Fin cfg0.N) (k : Fin 128) (q : Fin 128) :
    iblk0 V c 3 t (ix2 k q) = V c (Pipeline.arrRef spec0 3) (ix2 k q) := by
  obtain ⟨-, -, -, -, -, -, e30, e31, -⟩ := idx_facts t
  show V c (Pipeline.arrRef spec0 3) (((cfg0.win 3).blk t).view.emb (ix2 k q)) = _
  refine congrArg (V c (Pipeline.arrRef spec0 3)) (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

/-- The bias block is the whole bias row. -/
theorem bias_at (c : Dev nD) (t : Fin cfg0.N) (q : Fin 128) :
    iblk0 V c 4 t (ix2 (0 : Fin 1) q) = V c (Pipeline.arrRef spec0 4) (ix2 (0 : Fin 1) q) := by
  obtain ⟨-, -, -, -, -, -, -, -, e40, e41, -⟩ := idx_facts t
  show V c (Pipeline.arrRef spec0 4) (((cfg0.win 4).blk t).view.emb (ix2 (0 : Fin 1) q)) = _
  refine congrArg (V c (Pipeline.arrRef spec0 4)) (funext fun a => Fin.ext ?_)
  match a with
  | ⟨0, _⟩ => show win0_4.index t (0 : Fin 2) * 1 + 1 * 0 = 0; omega
  | ⟨1, _⟩ => show win0_4.index t (1 : Fin 2) * 128 + 1 * q.val = q.val; omega

/-- WHAT POINT t WRITES BACK is block t of the layer of the whole arrays. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  obtain ⟨-, -, -, -, -, -, -, -, -, -, e50, e51⟩ := idx_facts t
  have ht := t_lt t
  funext j
  obtain ⟨r, q, rfl⟩ : ∃ (r : Fin 5000) (q : Fin 128), j = ix2 r q := ⟨j 0, j 1, eq_ix2 j⟩
  have hrow : t.val * 5000 + r.val < 50000 := by have := r.isLt; omega
  have hi : ((cfg0.win 5).blk t).view.emb (ix2 r q) = ix2 ⟨t.val * 5000 + r.val, hrow⟩ q := by
    funext a; apply Fin.ext
    match a with
    | ⟨0, _⟩ => show win0_5.index t (0 : Fin 2) * 5000 + 1 * r.val = t.val * 5000 + r.val; omega
    | ⟨1, _⟩ => show win0_5.index t (1 : Fin 2) * 128 + 1 * q.val = q.val; omega
  show k0_pay1 (iblk0 V c 0 t) (iblk0 V c 1 t) (iblk0 V c 2 t) (iblk0 V c 3 t) (iblk0 V c 4 t) (ix2 r q)
      = G V c (((cfg0.win 5).blk t).view.emb (ix2 r q))
  rw [hi]
  refine (Body.pay0_at (iblk0 V c 0 t) (iblk0 V c 1 t) (iblk0 V c 2 t) (iblk0 V c 3 t) (iblk0 V c 4 t) r q).trans ?_
  unfold G
  rw [sage_ix2]
  exact sageAt_congr (n := 5000) (d := 128) (e := 128) (n' := 50000)
    (iblk0 V c 0 t) (iblk0 V c 1 t) (V c (Pipeline.arrRef spec0 0)) (V c (Pipeline.arrRef spec0 1))
    (iblk0 V c 2 t) (iblk0 V c 3 t) (V c (Pipeline.arrRef spec0 2)) (V c (Pipeline.arrRef spec0 3))
    (fun q' => iblk0 V c 4 t (ix2 (0 : Fin 1) q')) (fun q' => V c (Pipeline.arrRef spec0 4) (ix2 (0 : Fin 1) q'))
    r ⟨t.val * 5000 + r.val, hrow⟩ q
    (fun k => rows0_at V c t r k hrow) (fun k => rows1_at V c t r k hrow)
    (fun k => wt2_at V c t k q) (fun k => wt3_at V c t k q) (bias_at V c t q)

/-- An index of the array is in point t's block iff each coordinate is in the block's range on its axis. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole (Pipeline.arrRef spec0 5)).slice (win0_5.rect t)).set ↔ _
  rw [View.set_slice_whole, Rect.mem_set_unit]
  exact Iff.rfl

/-- Every row is in some point's block: row i is in block i / 5000. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := N_0
  have hlt : (i 0).val / 5000 < cfg0.N := by rw [hN]; omega
  obtain ⟨-, -, -, -, -, -, -, -, -, -, e50, e51⟩ := idx_facts ⟨(i 0).val / 5000, hlt⟩
  refine ⟨⟨(i 0).val / 5000, hlt⟩, flush0_5 _, ?_⟩
  rw [mem_blk]
  intro a
  match a with
  | ⟨0, _⟩ =>
    show win0_5.index ⟨(i 0).val / 5000, hlt⟩ (0 : Fin 2) * 5000 ≤ (i 0).val ∧ (i 0).val < win0_5.index ⟨(i 0).val / 5000, hlt⟩ (0 : Fin 2) * 5000 + 5000
    have e : win0_5.index ⟨(i 0).val / 5000, hlt⟩ (0 : Fin 2) = (i 0).val / 5000 := e50
    omega
  | ⟨1, _⟩ =>
    show win0_5.index ⟨(i 0).val / 5000, hlt⟩ (1 : Fin 2) * 128 ≤ (i 1).val ∧ (i 1).val < win0_5.index ⟨(i 0).val / 5000, hlt⟩ (1 : Fin 2) * 128 + 128
    omega

/-- THE ARRAY after the region: the layer of the arrays it found. -/
theorem final (c : Dev nD) : (dat0 V c).arrAt 5 cfg0.N = G V c :=
  (dat0 V c).arrAt_eq_of_cover 5 (G V c) (fun t _ => flushed_eq V c t) (cover)

end Cert.KernelIdeal.Blocks0

end
-- ==== Proof.KernelBodyRest.lean ====
/-
  The other bodies' arithmetic at an entry: layers 2, 3 and 4 store max(mean·WlT + h·WrT + bias, 0) of their blocks
  exactly as layer 1 does, and the last body stores x·WT + bias.
-/
import proofs.«105406_j64759516889909_1_alg».proof.Proof.KernelBody

noncomputable section

open scoped BigOperators

namespace Cert.KernelIdeal.Body

open Cert.KernelIdeal Cert.KernelIdeal.Gen Idealize.ShloMosaic Idealize.ShloMosaic.ValueIdx SageLaw

/-- Entry (r, q) of what layer 2's body stores. -/
theorem pay1_at (x0 x1 : FVec Ideal S5000x128 .f32) (x2 x3 : FVec Ideal S128x128 .f32) (x4 : FVec Ideal S1x128 .f32)
    (r : Fin 5000) (q : Fin 128) :
    k1_pay1 (F := Ideal) x0 x1 x2 x3 x4 (ix2 r q) = sageAt x0 x1 x2 x3 (fun q' => x4 (ix2 (0 : Fin 1) q')) r q := by
  unfold k1_pay1 sageAt
  show max ((matmul _ none _ _ _ (ix2 r q) + matmul _ none _ _ _ (ix2 r q)) + broadcastTo S5000x128 _ _ (ix2 r q)) _ = _
  rw [prod_at, prod_at, bias_at]
  rfl

/-- Entry (r, q) of what layer 3's body stores. -/
theorem pay2_at (x0 x1 : FVec Ideal S5000x128 .f32) (x2 x3 : FVec Ideal S128x128 .f32) (x4 : FVec Ideal S1x128 .f32)
    (r : Fin 5000) (q : Fin 128) :
    k2_pay1 (F := Ideal) x0 x1 x2 x3 x4 (ix2 r q) = sageAt x0 x1 x2 x3 (fun q' => x4 (ix2 (0 : Fin 1) q')) r q := by
  unfold k2_pay1 sageAt
  show max ((matmul _ none _ _ _ (ix2 r q) + matmul _ none _ _ _ (ix2 r q)) + broadcastTo S5000x128 _ _ (ix2 r q)) _ = _
  rw [prod_at, prod_at, bias_at]
  rfl

/-- Entry (r, q) of what layer 4's body stores. -/
theorem pay3_at (x0 x1 : FVec Ideal S5000x128 .f32) (x2 x3 : FVec Ideal S128x128 .f32) (x4 : FVec Ideal S1x128 .f32)
    (r : Fin 5000) (q : Fin 128) :
    k3_pay1 (F := Ideal) x0 x1 x2 x3 x4 (ix2 r q) = sageAt x0 x1 x2 x3 (fun q' => x4 (ix2 (0 : Fin 1) q')) r q := by
  unfold k3_pay1 sageAt
  show max ((matmul _ none _ _ _ (ix2 r q) + matmul _ none _ _ _ (ix2 r q)) + broadcastTo S5000x128 _ _ (ix2 r q)) _ = _
  rw [prod_at, prod_at, bias_at]
  rfl

/-- Entry (r, q) of what the last body stores. -/
theorem pay4_at (x0 : FVec Ideal S5000x128 .f32) (x1 : FVec Ideal S128x128 .f32) (x2 : FVec Ideal S1x128 .f32)
    (r : Fin 5000) (q : Fin 128) :
    k4_pay1 (F := Ideal) x0 x1 x2 (ix2 r q) = fcAt x0 x1 (fun q' => x2 (ix2 (0 : Fin 1) q')) r q := by
  unfold k4_pay1 fcAt
  show matmul _ none _ _ _ (ix2 r q) + broadcastTo S5000x128 _ _ (ix2 r q) = _
  rw [prod_at, bias_at]

end Cert.KernelIdeal.Body

end
-- ==== Proof.KernelBlocks1.lean ====
/-
  Region 1's output array after its ten grid points, as one function of the arrays the region finds. Point t takes
  rows 5000·t … 5000·t + 4999 of the mean and of the features, the two whole weight matrices and the bias row, and
  writes back rows 5000·t … 5000·t + 4999 of the output; the ten blocks tile the 50000 rows. Entry (r, q) of a
  block's result depends on row r of the two row blocks only, so block t of the result is block t of the layer
  applied to the whole arrays, and the output array ends as that layer.
-/
import proofs.«105406_j64759516889909_1_alg».proof.Proof.Gen.KernelIdeal.Frame
import proofs.«105406_j64759516889909_1_alg».proof.Proof.KernelBodyRest
import proofs.«105406_j64759516889909_1_alg».proof.Proof.SageLaw
import Idealize.ShloMosaic.Lib.Pipeline.Value
import Idealize.ShloMosaic.Lib.ValueIdx

set_option maxRecDepth 16384

noncomputable section

open scoped BigOperators

namespace Cert.KernelIdeal.Blocks1

open Cert.KernelIdeal Cert.KernelIdeal.Gen Idealize.ShloMosaic Idealize.ShloMosaic.TcCoe Idealize.ShloMosaic.ValueIdx SageLaw
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The layer of the arrays the region finds: window 0 the mean, window 1 the features, windows 2 and 3 the weights,
    window 4 the bias row. -/
def G (c : Dev nD) : S50000x128.Idx → EReal :=
  sage (V c (Pipeline.arrRef spec1 0)) (V c (Pipeline.arrRef spec1 1)) (V c (Pipeline.arrRef spec1 2)) (V c (Pipeline.arrRef spec1 3))
    (fun q => V c (Pipeline.arrRef spec1 4) (ix2 (0 : Fin 1) q))

/-- The index maps over the grid: the row windows sit at block row t, the others at the origin. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem t_lt (t : Fin cfg1.N) : t.val < 10 := lt_of_lt_of_eq t.isLt N_1

/-- A row block read at an entry is the array at row 5000·t + r. -/
theorem rows0_at (c : Dev nD) (t : Fin cfg1.N) (r : Fin 5000) (k : Fin 128) (h : t.val * 5000 + r.val < 50000) :
    iblk1 V c 0 t (ix2 r k) = V c (Pipeline.arrRef spec1 0) (ix2 ⟨t.val * 5000 + r.val, h⟩ k) := by
  obtain ⟨e00, e01, -⟩ := idx_facts t
  show V c (Pipeline.arrRef spec1 0) (((cfg1.win 0).blk t).view.emb (ix2 r k)) = _
  refine congrArg (V c (Pipeline.arrRef spec1 0)) (funext fun a => Fin.ext ?_)
  match a with
  | ⟨0, _⟩ => show win1_0.index t (0 : Fin 2) * 5000 + 1 * r.val = t.val * 5000 + r.val; omega
  | ⟨1, _⟩ => show win1_0.index t (1 : Fin 2) * 128 + 1 * k.val = k.val; omega

theorem rows1_at (c : Dev nD) (t : Fin cfg1.N) (r : Fin 5000) (k : Fin 128) (h : t.val * 5000 + r.val < 50000) :
    iblk1 V c 1 t (ix2 r k) = V c (Pipeline.arrRef spec1 1) (ix2 ⟨t.val * 5000 + r.val, h⟩ k) := by
  obtain ⟨-, -, e10, e11, -⟩ := idx_facts t
  show V c (Pipeline.arrRef spec1 1) (((cfg1.win 1).blk t).view.emb (ix2 r k)) = _
  refine congrArg (V c (Pipeline.arrRef spec1 1)) (funext fun a => Fin.ext ?_)
  match a with
  | ⟨0, _⟩ => show win1_1.index t (0 : Fin 2) * 5000 + 1 * r.val = t.val * 5000 + r.val; omega
  | ⟨1, _⟩ => show win1_1.index t (1 : Fin 2) * 128 + 1 * k.val = k.val; omega

/-- A weight block is the whole weight matrix. -/
theorem wt2_at (c : Dev nD) (t : Fin cfg1.N) (k : Fin 128) (q : Fin 128) :
    iblk1 V c 2 t (ix2 k q) = V c (Pipeline.arrRef spec1 2) (ix2 k q) := by
  obtain ⟨-, -, -, -, e20, e21, -⟩ := idx_facts t
  show V c (Pipeline.arrRef spec1 2) (((cfg1.win 2).blk t).view.emb (ix2 k q)) = _
  refine congrArg (V c (Pipeline.arrRef spec1 2)) (funext fun a => Fin.ext ?_)
  match a with
  | ⟨0, _⟩ => show win1_2.index t (0 : Fin 2) * 128 + 1 * k.val = k.val; omega
  | ⟨1, _⟩ => show win1_2.index t (1 : Fin 2) * 128 + 1 * q.val = q.val; omega

theorem wt3_at (c : Dev nD) (t : Fin cfg1.N) (k : Fin 128) (q : Fin 128) :
    iblk1 V c 3 t (ix2 k q) = V c (Pipeline.arrRef spec1 3) (ix2 k q) := by
  obtain ⟨-, -, -, -, -, -, e30, e31, -⟩ := idx_facts t
  show V c (Pipeline.arrRef spec1 3) (((cfg1.win 3).blk t).view.emb (ix2 k q)) = _
  refine congrArg (V c (Pipeline.arrRef spec1 3)) (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega

/-- The bias block is the whole bias row. -/
theorem bias_at (c : Dev nD) (t : Fin cfg1.N) (q : Fin 128) :
    iblk1 V c 4 t (ix2 (0 : Fin 1) q) = V c (Pipeline.arrRef spec1 4) (ix2 (0 : Fin 1) q) := by
  obtain ⟨-, -, -, -, -, -, -, -, e40, e41, -⟩ := idx_facts t
  show V c (Pipeline.arrRef spec1 4) (((cfg1.win 4).blk t).view.emb (ix2 (0 : Fin 1) q)) = _
  refine congrArg (V c (Pipeline.arrRef spec1 4)) (funext fun a => Fin.ext ?_)
  match a with
  | ⟨0, _⟩ => show win1_4.index t (0 : Fin 2) * 1 + 1 * 0 = 0; omega
  | ⟨1, _⟩ => show win1_4.index t (1 : Fin 2) * 128 + 1 * q.val = q.val; omega

/-- WHAT POINT t WRITES BACK is block t of the layer of the whole arrays. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  obtain ⟨-, -, -, -, -, -, -, -, -, -, e50, e51⟩ := idx_facts t
  have ht := t_lt t
  funext j
  obtain ⟨r, q, rfl⟩ : ∃ (r : Fin 5000) (q : Fin 128), j = ix2 r q := ⟨j 0, j 1, eq_ix2 j⟩
  have hrow : t.val * 5000 + r.val < 50000 := by have := r.isLt; omega
  have hi : ((cfg1.win 5).blk t).view.emb (ix2 r q) = ix2 ⟨t.val * 5000 + r.val, hrow⟩ q := by
    funext a; apply Fin.ext
    match a with
    | ⟨0, _⟩ => show win1_5.index t (0 : Fin 2) * 5000 + 1 * r.val = t.val * 5000 + r.val; omega
    | ⟨1, _⟩ => show win1_5.index t (1 : Fin 2) * 128 + 1 * q.val = q.val; omega
  show k1_pay1 (iblk1 V c 0 t) (iblk1 V c 1 t) (iblk1 V c 2 t) (iblk1 V c 3 t) (iblk1 V c 4 t) (ix2 r q)
      = G V c (((cfg1.win 5).blk t).view.emb (ix2 r q))
  rw [hi]
  refine (Body.pay1_at (iblk1 V c 0 t) (iblk1 V c 1 t) (iblk1 V c 2 t) (iblk1 V c 3 t) (iblk1 V c 4 t) r q).trans ?_
  unfold G
  rw [sage_ix2]
  exact sageAt_congr (n := 5000) (d := 128) (e := 128) (n' := 50000)
    (iblk1 V c 0 t) (iblk1 V c 1 t) (V c (Pipeline.arrRef spec1 0)) (V c (Pipeline.arrRef spec1 1))
    (iblk1 V c 2 t) (iblk1 V c 3 t) (V c (Pipeline.arrRef spec1 2)) (V c (Pipeline.arrRef spec1 3))
    (fun q' => iblk1 V c 4 t (ix2 (0 : Fin 1) q')) (fun q' => V c (Pipeline.arrRef spec1 4) (ix2 (0 : Fin 1) q'))
    r ⟨t.val * 5000 + r.val, hrow⟩ q
    (fun k => rows0_at V c t r k hrow) (fun k => rows1_at V c t r k hrow)
    (fun k => wt2_at V c t k q) (fun k => wt3_at V c t k q) (bias_at V c t q)

/-- An index of the array is in point t's block iff each coordinate is in the block's range on its axis. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole (Pipeline.arrRef spec1 5)).slice (win1_5.rect t)).set ↔ _
  rw [View.set_slice_whole, Rect.mem_set_unit]
  exact Iff.rfl

/-- Every row is in some point's block: row i is in block i / 5000. -/
theorem cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := N_1
  have hlt : (i 0).val / 5000 < cfg1.N := by rw [hN]; omega
  obtain ⟨-, -, -, -, -, -, -, -, -, -, e50, e51⟩ := idx_facts ⟨(i 0).val / 5000, hlt⟩
  refine ⟨⟨(i 0).val / 5000, hlt⟩, flush1_5 _, ?_⟩
  rw [mem_blk]
  intro a
  match a with
  | ⟨0, _⟩ =>
    show win1_5.index ⟨(i 0).val / 5000, hlt⟩ (0 : Fin 2) * 5000 ≤ (i 0).val ∧ (i 0).val < win1_5.index ⟨(i 0).val / 5000, hlt⟩ (0 : Fin 2) * 5000 + 5000
    have e : win1_5.index ⟨(i 0).val / 5000, hlt⟩ (0 : Fin 2) = (i 0).val / 5000 := e50
    omega
  | ⟨1, _⟩ =>
    show win1_5.index ⟨(i 0).val / 5000, hlt⟩ (1 : Fin 2) * 128 ≤ (i 1).val ∧ (i 1).val < win1_5.index ⟨(i 0).val / 5000, hlt⟩ (1 : Fin 2) * 128 + 128
    omega

/-- THE ARRAY after the region: the layer of the arrays it found. -/
theorem final (c : Dev nD) : (dat1 V c).arrAt 5 cfg1.N = G V c :=
  (dat1 V c).arrAt_eq_of_cover 5 (G V c) (fun t _ => flushed_eq V c t) (cover)

end Cert.KernelIdeal.Blocks1

end
-- ==== Proof.KernelBlocks2.lean ====
/-
  Region 2's output array after its ten grid points, as one function of the arrays the region finds. Point t takes
  rows 5000·t … 5000·t + 4999 of the mean and of the features, the two whole weight matrices and the bias row, and
  writes back rows 5000·t … 5000·t + 4999 of the output; the ten blocks tile the 50000 rows. Entry (r, q) of a
  block's result depends on row r of the two row blocks only, so block t of the result is block t of the layer
  applied to the whole arrays, and the output array ends as that layer.
-/
import proofs.«105406_j64759516889909_1_alg».proof.Proof.Gen.KernelIdeal.Frame
import proofs.«105406_j64759516889909_1_alg».proof.Proof.KernelBodyRest
import proofs.«105406_j64759516889909_1_alg».proof.Proof.SageLaw
import Idealize.ShloMosaic.Lib.Pipeline.Value
import Idealize.ShloMosaic.Lib.ValueIdx

set_option maxRecDepth 16384

noncomputable section

open scoped BigOperators

namespace Cert.KernelIdeal.Blocks2

open Cert.KernelIdeal Cert.KernelIdeal.Gen Idealize.ShloMosaic Idealize.ShloMosaic.TcCoe Idealize.ShloMosaic.ValueIdx SageLaw
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The layer of the arrays the region finds: window 0 the mean, window 1 the features, windows 2 and 3 the weights,
    window 4 the bias row. -/
def G (c : Dev nD) : S50000x128.Idx → EReal :=
  sage (V c (Pipeline.arrRef spec2 0)) (V c (Pipeline.arrRef spec2 1)) (V c (Pipeline.arrRef spec2 2)) (V c (Pipeline.arrRef spec2 3))
    (fun q => V c (Pipeline.arrRef spec2 4) (ix2 (0 : Fin 1) q))

/-- The index maps over the grid: the row windows sit at block row t, the others at the origin. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem t_lt (t : Fin cfg2.N) : t.val < 10 := lt_of_lt_of_eq t.isLt N_2

/-- A row block read at an entry is the array at row 5000·t + r. -/
theorem rows0_at (c : Dev nD) (t : Fin cfg2.N) (r : Fin 5000) (k : Fin 128) (h : t.val * 5000 + r.val < 50000) :
    iblk2 V c 0 t (ix2 r k) = V c (Pipeline.arrRef spec2 0) (ix2 ⟨t.val * 5000 + r.val, h⟩ k) := by
  obtain ⟨e00, e01, -⟩ := idx_facts t
  show V c (Pipeline.arrRef spec2 0) (((cfg2.win 0).blk t).view.emb (ix2 r k)) = _
  refine congrArg (V c (Pipeline.arrRef spec2 0)) (funext fun a => Fin.ext ?_)
  match a with
  | ⟨0, _⟩ => show win2_0.index t (0 : Fin 2) * 5000 + 1 * r.val = t.val * 5000 + r.val; omega
  | ⟨1, _⟩ => show win2_0.index t (1 : Fin 2) * 128 + 1 * k.val = k.val; omega

theorem rows1_at (c : Dev nD) (t : Fin cfg2.N) (r : Fin 5000) (k : Fin 128) (h : t.val * 5000 + r.val < 50000) :
    iblk2 V c 1 t (ix2 r k) = V c (Pipeline.arrRef spec2 1) (ix2 ⟨t.val * 5000 + r.val, h⟩ k) := by
  obtain ⟨-, -, e10, e11, -⟩ := idx_facts t
  show V c (Pipeline.arrRef spec2 1) (((cfg2.win 1).blk t).view.emb (ix2 r k)) = _
  refine congrArg (V c (Pipeline.arrRef spec2 1)) (funext fun a => Fin.ext ?_)
  match a with
  | ⟨0, _⟩ => show win2_1.index t (0 : Fin 2) * 5000 + 1 * r.val = t.val * 5000 + r.val; omega
  | ⟨1, _⟩ => show win2_1.index t (1 : Fin 2) * 128 + 1 * k.val = k.val; omega

/-- A weight block is the whole weight matrix. -/
theorem wt2_at (c : Dev nD) (t : Fin cfg2.N) (k : Fin 128) (q : Fin 128) :
    iblk2 V c 2 t (ix2 k q) = V c (Pipeline.arrRef spec2 2) (ix2 k q) := by
  obtain ⟨-, -, -, -, e20, e21, -⟩ := idx_facts t
  show V c (Pipeline.arrRef spec2 2) (((cfg2.win 2).blk t).view.emb (ix2 k q)) = _
  refine congrArg (V c (Pipeline.arrRef spec2 2)) (funext fun a => Fin.ext ?_)
  match a with
  | ⟨0, _⟩ => show win2_2.index t (0 : Fin 2) * 128 + 1 * k.val = k.val; omega
  | ⟨1, _⟩ => show win2_2.index t (1 : Fin 2) * 128 + 1 * q.val = q.val; omega

theorem wt3_at (c : Dev nD) (t : Fin cfg2.N) (k : Fin 128) (q : Fin 128) :
    iblk2 V c 3 t (ix2 k q) = V c (Pipeline.arrRef spec2 3) (ix2 k q) := by
  obtain ⟨-, -, -, -, -, -, e30, e31, -⟩ := idx_facts t
  show V c (Pipeline.arrRef spec2 3) (((cfg2.win 3).blk t).view.emb (ix2 k q)) = _
  refine congrArg (V c (Pipeline.arrRef spec2 3)) (funext fun a => Fin.ext ?_)
  match a with
  | ⟨0, _⟩ => show win2_3.index t (0 : Fin 2) * 128 + 1 * k.val = k.val; omega
  | ⟨1, _⟩ => show win2_3.index t (1 : Fin 2) * 128 + 1 * q.val = q.val; omega

/-- The bias block is the whole bias row. -/
theorem bias_at (c : Dev nD) (t : Fin cfg2.N) (q : Fin 128) :
    iblk2 V c 4 t (ix2 (0 : Fin 1) q) = V c (Pipeline.arrRef spec2 4) (ix2 (0 : Fin 1) q) := by
  obtain ⟨-, -, -, -, -, -, -, -, e40, e41, -⟩ := idx_facts t
  show V c (Pipeline.arrRef spec2 4) (((cfg2.win 4).blk t).view.emb (ix2 (0 : Fin 1) q)) = _
  refine congrArg (V c (Pipeline.arrRef spec2 4)) (funext fun a => Fin.ext ?_)
  match a with
  | ⟨0, _⟩ => show win2_4.index t (0 : Fin 2) * 1 + 1 * 0 = 0; omega
  | ⟨1, _⟩ => show win2_4.index t (1 : Fin 2) * 128 + 1 * q.val = q.val; omega

/-- WHAT POINT t WRITES BACK is block t of the layer of the whole arrays. -/
theorem flushed_eq (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x128) hz, View.ld_unit_zero (S := S1x128) hz]
  obtain ⟨-, -, -, -, -, -, -, -, -, -, e50, e51⟩ := idx_facts t
  have ht := t_lt t
  funext j
  obtain ⟨r, q, rfl⟩ : ∃ (r : Fin 5000) (q : Fin 128), j = ix2 r q := ⟨j 0, j 1, eq_ix2 j⟩
  have hrow : t.val * 5000 + r.val < 50000 := by have := r.isLt; omega
  have hi : ((cfg2.win 5).blk t).view.emb (ix2 r q) = ix2 ⟨t.val * 5000 + r.val, hrow⟩ q := by
    funext a; apply Fin.ext
    match a with
    | ⟨0, _⟩ => show win2_5.index t (0 : Fin 2) * 5000 + 1 * r.val = t.val * 5000 + r.val; omega
    | ⟨1, _⟩ => show win2_5.index t (1 : Fin 2) * 128 + 1 * q.val = q.val; omega
  show k2_pay1 (iblk2 V c 0 t) (iblk2 V c 1 t) (iblk2 V c 2 t) (iblk2 V c 3 t) (iblk2 V c 4 t) (ix2 r q)
      = G V c (((cfg2.win 5).blk t).view.emb (ix2 r q))
  rw [hi]
  refine (Body.pay2_at (iblk2 V c 0 t) (iblk2 V c 1 t) (iblk2 V c 2 t) (iblk2 V c 3 t) (iblk2 V c 4 t) r q).trans ?_
  unfold G
  rw [sage_ix2]
  exact sageAt_congr (n := 5000) (d := 128) (e := 128) (n' := 50000)
    (iblk2 V c 0 t) (iblk2 V c 1 t) (V c (Pipeline.arrRef spec2 0)) (V c (Pipeline.arrRef spec2 1))
    (iblk2 V c 2 t) (iblk2 V c 3 t) (V c (Pipeline.arrRef spec2 2)) (V c (Pipeline.arrRef spec2 3))
    (fun q' => iblk2 V c 4 t (ix2 (0 : Fin 1) q')) (fun q' => V c (Pipeline.arrRef spec2 4) (ix2 (0 : Fin 1) q'))
    r ⟨t.val * 5000 + r.val, hrow⟩ q
    (fun k => rows0_at V c t r k hrow) (fun k => rows1_at V c t r k hrow)
    (fun k => wt2_at V c t k q) (fun k => wt3_at V c t k q) (bias_at V c t q)

/-- An index of the array is in point t's block iff each coordinate is in the block's range on its axis. -/
theorem mem_blk (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole (Pipeline.arrRef spec2 5)).slice (win2_5.rect t)).set ↔ _
  rw [View.set_slice_whole, Rect.mem_set_unit]
  exact Iff.rfl

/-- Every row is in some point's block: row i is in block i / 5000. -/
theorem cover (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 10 := N_2
  have hlt : (i 0).val / 5000 < cfg2.N := by rw [hN]; omega
  obtain ⟨-, -, -, -, -, -, -, -, -, -, e50, e51⟩ := idx_facts ⟨(i 0).val / 5000, hlt⟩
  refine ⟨⟨(i 0).val / 5000, hlt⟩, flush2_5 _, ?_⟩
  rw [mem_blk]
  intro a
  match a with
  | ⟨0, _⟩ =>
    show win2_5.index ⟨(i 0).val / 5000, hlt⟩ (0 : Fin 2) * 5000 ≤ (i 0).val ∧ (i 0).val < win2_5.index ⟨(i 0).val / 5000, hlt⟩ (0 : Fin 2) * 5000 + 5000
    have e : win2_5.index ⟨(i 0).val / 5000, hlt⟩ (0 : Fin 2) = (i 0).val / 5000 := e50
    omega
  | ⟨1, _⟩ =>
    show win2_5.index ⟨(i 0).val / 5000, hlt⟩ (1 : Fin 2) * 128 ≤ (i 1).val ∧ (i 1).val < win2_5.index ⟨(i 0).val / 5000, hlt⟩ (1 : Fin 2) * 128 + 128
    omega

/-- THE ARRAY after the region: the layer of the arrays it found. -/
theorem final (c : Dev nD) : (dat2 V c).arrAt 5 cfg2.N = G V c :=
  (dat2 V c).arrAt_eq_of_cover 5 (G V c) (fun t _ => flushed_eq V c t) (cover)

end Cert.KernelIdeal.Blocks2

end
-- ==== Proof.KernelBlocks3.lean ====
/-
  Region 3's output array after its ten grid points, as one function of the arrays the region finds. Point t takes
  rows 5000·t … 5000·t + 4999 of the mean and of the features, the two whole weight matrices and the bias row, and
  writes back rows 5000·t … 5000·t + 4999 of the output; the ten blocks tile the 50000 rows. Entry (r, q) of a
  block's result depends on row r of the two row blocks only, so block t of the result is block t of the layer
  applied to the whole arrays, and the output array ends as that layer.
-/
import proofs.«105406_j64759516889909_1_alg».proof.Proof.Gen.KernelIdeal.Frame
import proofs.«105406_j64759516889909_1_alg».proof.Proof.KernelBodyRest
import proofs.«105406_j64759516889909_1_alg».proof.Proof.SageLaw
import Idealize.ShloMosaic.Lib.Pipeline.Value
import Idealize.ShloMosaic.Lib.ValueIdx

set_option maxRecDepth 16384

noncomputable section

open scoped BigOperators

namespace Cert.KernelIdeal.Blocks3

open Cert.KernelIdeal Cert.KernelIdeal.Gen Idealize.ShloMosaic Idealize.ShloMosaic.TcCoe Idealize.ShloMosaic.ValueIdx SageLaw
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The layer of the arrays the region finds: window 0 the mean, window 1 the features, windows 2 and 3 the weights,
    window 4 the bias row. -/
def G (c : Dev nD) : S50000x128.Idx → EReal :=
  sage (V c (Pipeline.arrRef spec3 0)) (V c (Pipeline.arrRef spec3 1)) (V c (Pipeline.arrRef spec3 2)) (V c (Pipeline.arrRef spec3 3))
    (fun q => V c (Pipeline.arrRef spec3 4) (ix2 (0 : Fin 1) q))

/-- The index maps over the grid: the row windows sit at block row t, the others at the origin. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

theorem t_lt (t : Fin cfg3.N) : t.val < 10 := lt_of_lt_of_eq t.isLt N_3

/-- A row block read at an entry is the array at row 5000·t + r. -/
theorem rows0_at (c : Dev nD) (t : Fin cfg3.N) (r : Fin 5000) (k : Fin 128) (h : t.val * 5000 + r.val < 50000) :
    iblk3 V c 0 t (ix2 r k) = V c (Pipeline.arrRef spec3 0) (ix2 ⟨t.val * 5000 + r.val, h⟩ k) := by
  obtain ⟨e00, e01, -⟩ := idx_facts t
  show V c (Pipeline.arrRef spec3 0) (((cfg3.win 0).blk t).view.emb (ix2 r k)) = _
  refine congrArg (V c (Pipeline.arrRef spec3 0)) (funext fun a => Fin.ext ?_)
  match a with
  | ⟨0, _⟩ => show win3_0.index t (0 : Fin 2) * 5000 + 1 * r.val = t.val * 5000 + r.val; omega
  | ⟨1, _⟩ => show win3_0.index t (1 : Fin 2) * 128 + 1 * k.val = k.val; omega

theorem rows1_at (c : Dev nD) (t : Fin cfg3.N) (r : Fin 5000) (k : Fin 128) (h : t.val * 5000 + r.val < 50000) :
    iblk3 V c 1 t (ix2 r k) = V c (Pipeline.arrRef spec3 1) (ix2 ⟨t.val * 5000 + r.val, h⟩ k) := by
  obtain ⟨-, -, e10, e11, -⟩ := idx_facts t
  show V c (Pipeline.arrRef spec3 1) (((cfg3.win 1).blk t).view.emb (ix2 r k)) = _
  refine congrArg (V c (Pipeline.arrRef spec3 1)) (funext fun a => Fin.ext ?_)
  match a with
  | ⟨0, _⟩ => show win3_1.index t (0 : Fin 2) * 5000 + 1 * r.val = t.val * 5000 + r.val; omega
  | ⟨1, _⟩ => show win3_1.index t (1 : Fin 2) * 128 + 1 * k.val = k.val; omega

/-- A weight block is the whole weight matrix. -/
theorem wt2_at (c : Dev nD) (t : Fin cfg3.N) (k : Fin 128) (q : Fin 128) :
    iblk3 V c 2 t (ix2 k q) = V c (Pipeline.arrRef spec3 2) (ix2 k q) := by
  obtain ⟨-, -, -, -, e20, e21, -⟩ := idx_facts t
  show V c (Pipeline.arrRef spec3 2) (((cfg3.win 2).blk t).view.emb (ix2 k q)) = _
  refine congrArg (V c (Pipeline.arrRef spec3 2)) (funext fun a => Fin.ext ?_)
  match a with
  | ⟨0, _⟩ => show win3_2.index t (0 : Fin 2) * 128 + 1 * k.val = k.val; omega
  | ⟨1, _⟩ => show win3_2.index t (1 : Fin 2) * 128 + 1 * q.val = q.val; omega

theorem wt3_at (c : Dev nD) (t : Fin cfg3.N) (k : Fin 128) (q : Fin 128) :
    iblk3 V c 3 t (ix2 k q) = V c (Pipeline.arrRef spec3 3) (ix2 k q) := by
  obtain ⟨-, -, -, -, -, -, e30, e31, -⟩ := idx_facts t
  show V c (Pipeline.arrRef spec3 3) (((cfg3.win 3).blk t).view.emb (ix2 k q)) = _
  refine congrArg (V c (Pipeline.arrRef spec3 3)) (funext fun a => Fin.ext ?_)
  match a with
  | ⟨0, _⟩ => show win3_3.index t (0 : Fin 2) * 128 + 1 * k.val = k.val; omega
  | ⟨1, _⟩ => show win3_3.index t (1 : Fin 2) * 128 + 1 * q.val = q.val; omega

/-- The bias block is the whole bias row. -/
theorem bias_at (c : Dev nD) (t : Fin cfg3.N) (q : Fin 128) :
    iblk3 V c 4 t (ix2 (0 : Fin 1) q) = V c (Pipeline.arrRef spec3 4) (ix2 (0 : Fin 1) q) := by
  obtain ⟨-, -, -, -, -, -, -, -, e40, e41, -⟩ := idx_facts t
  show V c (Pipeline.arrRef spec3 4) (((cfg3.win 4).blk t).view.emb (ix2 (0 : Fin 1) q)) = _
  refine congrArg (V c (Pipeline.arrRef spec3 4)) (funext fun a => Fin.ext ?_)
  match a with
  | ⟨0, _⟩ => show win3_4.index t (0 : Fin 2) * 1 + 1 * 0 = 0; omega
  | ⟨1, _⟩ => show win3_4.index t (1 : Fin 2) * 128 + 1 * q.val = q.val; omega

/-- WHAT POINT t WRITES BACK is block t of the layer of the whole arrays. -/
theorem flushed_eq (c : Dev nD) (t : Fin cfg3.N) :
    (dat3 V c).flushed 5 t = ((cfg3.win 5).blk t).view.read (Elt Ideal) (G V c) := by
  show (cfg3.win 5).cut (grid3.coords t) ((dat3 V c).after 5 t) = _
  rw [after3_5]
  unfold out3_5
  rw [View.canon_unit_zero hz]
  simp only [View.ld_unit_zero (S := S5000x128) hz, View.ld_unit_zero (S := S128x128) hz, View.ld_unit_zero (S := S1x128) hz]
  obtain ⟨-, -, -, -, -, -, -, -, -, -, e50, e51⟩ := idx_facts t
  have ht := t_lt t
  funext j
  obtain ⟨r, q, rfl⟩ : ∃ (r : Fin 5000) (q : Fin 128), j = ix2 r q := ⟨j 0, j 1, eq_ix2 j⟩
  have hrow : t.val * 5000 + r.val < 50000 := by have := r.isLt; omega
  have hi : ((cfg3.win 5).blk t).view.emb (ix2 r q) = ix2 ⟨t.val * 5000 + r.val, hrow⟩ q := by
    funext a; apply Fin.ext
    match a with
    | ⟨0, _⟩ => show win3_5.index t (0 : Fin 2) * 5000 + 1 * r.val = t.val * 5000 + r.val; omega
    | ⟨1, _⟩ => show win3_5.index t (1 : Fin 2) * 128 + 1 * q.val = q.val; omega
  show k3_pay1 (iblk3 V c 0 t) (iblk3 V c 1 t) (iblk3 V c 2 t) (iblk3 V c 3 t) (iblk3 V c 4 t) (ix2 r q)
      = G V c (((cfg3.win 5).blk t).view.emb (ix2 r q))
  rw [hi]
  refine (Body.pay3_at (iblk3 V c 0 t) (iblk3 V c 1 t) (iblk3 V c 2 t) (iblk3 V c 3 t) (iblk3 V c 4 t) r q).trans ?_
  unfold G
  rw [sage_ix2]
  exact sageAt_congr (n := 5000) (d := 128) (e := 128) (n' := 50000)
    (iblk3 V c 0 t) (iblk3 V c 1 t) (V c (Pipeline.arrRef spec3 0)) (V c (Pipeline.arrRef spec3 1))
    (iblk3 V c 2 t) (iblk3 V c 3 t) (V c (Pipeline.arrRef spec3 2)) (V c (Pipeline.arrRef spec3 3))
    (fun q' => iblk3 V c 4 t (ix2 (0 : Fin 1) q')) (fun q' => V c (Pipeline.arrRef spec3 4) (ix2 (0 : Fin 1) q'))
    r ⟨t.val * 5000 + r.val, hrow⟩ q
    (fun k => rows0_at V c t r k hrow) (fun k => rows1_at V c t r k hrow)
    (fun k => wt2_at V c t k q) (fun k => wt3_at V c t k q) (bias_at V c t q)

/-- An index of the array is in point t's block iff each coordinate is in the block's range on its axis. -/
theorem mem_blk (t : Fin cfg3.N) (i : S50000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole (Pipeline.arrRef spec3 5)).slice (win3_5.rect t)).set ↔ _
  rw [View.set_slice_whole, Rect.mem_set_unit]
  exact Iff.rfl

/-- Every row is in some point's block: row i is in block i / 5000. -/
theorem cover (i : S50000x128.Idx) :
    ∃ t : Fin cfg3.N, (cfg3.win 5).flush t = true ∧ i ∈ ((cfg3.win 5).blk t).view.set := by
  have hi0 : (i 0).val < 50000 := (i 0).isLt
  have hi1 : (i 1).val < 128 := (i 1).isLt
  have hN : cfg3.N = 10 := N_3
  have hlt : (i 0).val / 5000 < cfg3.N := by rw [hN]; omega
  obtain ⟨-, -, -, -, -, -, -, -, -, -, e50, e51⟩ := idx_facts ⟨(i 0).val / 5000, hlt⟩
  refine ⟨⟨(i 0).val / 5000, hlt⟩, flush3_5 _, ?_⟩
  rw [mem_blk]
  intro a
  match a with
  | ⟨0, _⟩ =>
    show win3_5.index ⟨(i 0).val / 5000, hlt⟩ (0 : Fin 2) * 5000 ≤ (i 0).val ∧ (i 0).val < win3_5.index ⟨(i 0).val / 5000, hlt⟩ (0 : Fin 2) * 5000 + 5000
    have e : win3_5.index ⟨(i 0).val / 5000, hlt⟩ (0 : Fin 2) = (i 0).val / 5000 := e50
    omega
  | ⟨1, _⟩ =>
    show win3_5.index ⟨(i 0).val / 5000, hlt⟩ (1 : Fin 2) * 128 ≤ (i 1).val ∧ (i 1).val < win3_5.index ⟨(i 0).val / 5000, hlt⟩ (1 : Fin 2) * 128 + 128
    omega

/-- THE ARRAY after the region: the layer of the arrays it found. -/
theorem final (c : Dev nD) : (dat3 V c).arrAt 5 cfg3.N = G V c :=
  (dat3 V c).arrAt_eq_of_cover 5 (G V c) (fun t _ => flushed_eq V c t) (cover)

end Cert.KernelIdeal.Blocks3

end
-- ==== Proof.KernelBlocks4.lean ====
/-
  The last region's output array after its ten grid points, as one function of the arrays the region finds. Point t
  takes rows 5000·t … 5000·t + 4999 of the features, the whole weight matrix and the bias row, and writes back rows
  5000·t … 5000·t + 4999 of x·WT + bias; the ten blocks tile the 50000 rows, so the output array ends as the linear
  map of the whole arrays.
-/
import proofs.«105406_j64759516889909_1_alg».proof.Proof.Gen.KernelIdeal.Frame
import proofs.«105406_j64759516889909_1_alg».proof.Proof.KernelBodyRest
import proofs.«105406_j64759516889909_1_alg».proof.Proof.SageLaw
import Idealize.ShloMosaic.Lib.Pipeline.Value
import Idealize.ShloMosaic.Lib.ValueIdx

set_option maxRecDepth 16384

noncomputable section

open scoped BigOperators

namespace Cert.KernelIdeal.Blocks4

open Cert.KernelIdeal Cert.KernelIdeal.Gen Idealize.ShloMosaic Idealize.ShloMosaic.TcCoe Idealize.ShloMosaic.ValueIdx SageLaw
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The linear map of the arrays the region finds: window 0 the features, window 1 the weight, window 2 the bias row. -/
def G (c : Dev nD) : S50000x128.Idx → EReal :=
  fc (V c (Pipeline.arrRef spec4 0)) (V c (Pipeline.arrRef spec4 1)) (fun q => V c (Pipeline.arrRef spec4 2) (ix2 (0 : Fin 1) q))

/-- The index maps over the grid: the row windows sit at block row t, the others at the origin. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

theorem t_lt (t : Fin cfg4.N) : t.val < 10 := lt_of_lt_of_eq t.isLt N_4

/-- A row block read at an entry is the array at row 5000·t + r. -/
theorem rows0_at (c : Dev nD) (t : Fin cfg4.N) (r : Fin 5000) (k : Fin 128) (h : t.val * 5000 + r.val < 50000) :
    iblk4 V c 0 t (ix2 r k) = V c (Pipeline.arrRef spec4 0) (ix2 ⟨t.val * 5000 + r.val, h⟩ k) := by
  obtain ⟨e00, e01, -⟩ := idx_facts t
  show V c (Pipeline.arrRef spec4 0) (((cfg4.win 0).blk t).view.emb (ix2 r k)) = _
  refine congrArg (V c (Pipeline.arrRef spec4 0)) (funext fun a => Fin.ext ?_)
  match a with
  | ⟨0, _⟩ => show win4_0.index t (0 : Fin 2) * 5000 + 1 * r.val = t.val * 5000 + r.val; omega
  | ⟨1, _⟩ => show win4_0.index t (1 : Fin 2) * 128 + 1 * k.val = k.val; omega

/-- The weight block is the whole weight matrix. -/
theorem wt1_at (c : Dev nD) (t : Fin cfg4.N) (k : Fin 128) (q : Fin 128) :
    iblk4 V c 1 t (ix2 k q) = V c (Pipeline.arrRef spec4 1) (ix2 k q) := by
  obtain ⟨-, -, e10, e11, -⟩ := idx_facts t
  show V c (Pipeline.arrRef spec4 1) (((cfg4.win 1).blk t).view.emb (ix2 k q)) = _
  refine congrArg (V c (Pipeline.arrRef spec4 1)) (funext fun a => Fin.ext ?_)
  match a with
  | ⟨0, _⟩ => show win4_1.index t (0 : Fin 2) * 128 + 1 * k.val = k.val; omega
  | ⟨1, _⟩ => show win4_1.index t (1 : Fin 2) * 128 + 1 * q.val = q.val; omega

/-- The bias block is the whole bias row. -/
theorem bias_at (c : Dev nD) (t : Fin cfg4.N) (q : Fin 128) :
    iblk4 V c 2 t (ix2 (0 : Fin 1) q) = V c (Pipeline.arrRef spec4 2) (ix2 (0 : Fin 1) q) := by
  obtain ⟨-, -, -, -, e20, e21, -⟩ := idx_facts t
  show V c (Pipeline.arrRef spec4 2) (((cfg4.win 2).blk t).view.emb (ix2 (0 : Fin 1) q)) = _
  refine congrArg (V c (Pipeline.arrRef spec4 2)) (funext fun a => Fin.ext ?_)
  match a with
  | ⟨0, _⟩ => show win4_2.index t (0 : Fin 2) * 1 + 1 * 0 = 0; omega
  | ⟨1, _⟩ => show win4_2.index t (1 : Fin 2) * 128 + 1 * q.val = q.val; omega

/-- WHAT POINT t WRITES BACK is block t of the linear map of the whole arrays. -/
theorem flushed_eq (c : Dev nD) (t : Fin cfg4.N) :
    (dat4 V c).flushed 3 t = ((cfg4.win 3).blk t).view.read (Elt Ideal) (G V c) := by
  show (cfg4.win 3).cut (grid4.coords t) ((dat4 V c).after 3 t) = _
  rw [after4_3]
  unfold out4_3
  rw [View.canon_unit_zero hz]
  simp only [View.ld_unit_zero (S := S5000x128) hz, View.ld_unit_zero (S := S128x128) hz, View.ld_unit_zero (S := S1x128) hz]
  obtain ⟨-, -, -, -, -, -, e30, e31⟩ := idx_facts t
  have ht := t_lt t
  funext j
  obtain ⟨r, q, rfl⟩ : ∃ (r : Fin 5000) (q : Fin 128), j = ix2 r q := ⟨j 0, j 1, eq_ix2 j⟩
  have hrow : t.val * 5000 + r.val < 50000 := by have := r.isLt; omega
  have hi : ((cfg4.win 3).blk t).view.emb (ix2 r q) = ix2 ⟨t.val * 5000 + r.val, hrow⟩ q := by
    funext a; apply Fin.ext
    match a with
    | ⟨0, _⟩ => show win4_3.index t (0 : Fin 2) * 5000 + 1 * r.val = t.val * 5000 + r.val; omega
    | ⟨1, _⟩ => show win4_3.index t (1 : Fin 2) * 128 + 1 * q.val = q.val; omega
  show k4_pay1 (iblk4 V c 0 t) (iblk4 V c 1 t) (iblk4 V c 2 t) (ix2 r q)
      = G V c (((cfg4.win 3).blk t).view.emb (ix2 r q))
  rw [hi]
  refine (Body.pay4_at (iblk4 V c 0 t) (iblk4 V c 1 t) (iblk4 V c 2 t) r q).trans ?_
  unfold G
  rw [fc_ix2]
  exact fcAt_congr (n := 5000) (d := 128) (e := 128) (n' := 50000)
    (iblk4 V c 0 t) (V c (Pipeline.arrRef spec4 0)) (iblk4 V c 1 t) (V c (Pipeline.arrRef spec4 1))
    (fun q' => iblk4 V c 2 t (ix2 (0 : Fin 1) q')) (fun q' => V c (Pipeline.arrRef spec4 2) (ix2 (0 : Fin 1) q'))
    r ⟨t.val * 5000 + r.val, hrow⟩ q
    (fun k => rows0_at V c t r k hrow) (fun k => wt1_at V c t k q) (bias_at V c t q)

/-- An index of the array is in point t's block iff each coordinate is in the block's range on its axis. -/
theorem mem_blk (t : Fin cfg4.N) (i : S50000x128.Idx) :
    i ∈ ((cfg4.win 3).blk t).view.set ↔ ∀ a : Fin 2, win4_3.index t a * S5000x128.size a ≤ (i a).val ∧ (i a).val < win4_3.index t a * S5000x128.size a + S5000x128.size a := by
  show i ∈ ((View.whole (Pipeline.arrRef spec4 3)).slice (win4_3.rect t)).set ↔ _
  rw [View.set_slice_whole, Rect.mem_set_unit]
  exact Iff.rfl

/-- Every row is in some point's block: row i is in block i / 5000. -/
theorem cover (i : S50000x128.Idx) :
    ∃ t : Fin cfg4.N, (cfg4.win 3).flush t = true ∧ i ∈ ((cfg4.win 3).blk t).view.set := by
  have hi0 : (i 0).val < 50000 := (i 0).isLt
  have hi1 : (i 1).val < 128 := (i 1).isLt
  have hN : cfg4.N = 10 := N_4
  have hlt : (i 0).val / 5000 < cfg4.N := by rw [hN]; omega
  obtain ⟨-, -, -, -, -, -, e30, e31⟩ := idx_facts ⟨(i 0).val / 5000, hlt⟩
  refine ⟨⟨(i 0).val / 5000, hlt⟩, flush4_3 _, ?_⟩
  rw [mem_blk]
  intro a
  match a with
  | ⟨0, _⟩ =>
    show win4_3.index ⟨(i 0).val / 5000, hlt⟩ (0 : Fin 2) * 5000 ≤ (i 0).val ∧ (i 0).val < win4_3.index ⟨(i 0).val / 5000, hlt⟩ (0 : Fin 2) * 5000 + 5000
    have e : win4_3.index ⟨(i 0).val / 5000, hlt⟩ (0 : Fin 2) = (i 0).val / 5000 := e30
    omega
  | ⟨1, _⟩ =>
    show win4_3.index ⟨(i 0).val / 5000, hlt⟩ (1 : Fin 2) * 128 ≤ (i 1).val ∧ (i 1).val < win4_3.index ⟨(i 0).val / 5000, hlt⟩ (1 : Fin 2) * 128 + 128
    omega

/-- THE ARRAY after the region: the linear map of the arrays it found. -/
theorem final (c : Dev nD) : (dat4 V c).arrAt 3 cfg4.N = G V c :=
  (dat4 V c).arrAt_eq_of_cover 3 (G V c) (fun t _ => flushed_eq V c t) (cover)

end Cert.KernelIdeal.Blocks4

end
-- ==== Proof.KernelValue.lean ====
/-
  The idealized kernel's result as a function of the launch memory. Region by region: the first region's output is
  layer 1 of the input features; each later stretch of host operations forms the next mean from the previous output
  and the same edge vectors and reciprocal column, and the next region's output is the next layer of the previous
  output; the last region's output is the last linear map of layer 4's output. The edge vectors, the column, the
  transposed weights and the biases are carried unchanged from the first stretch to where they are read: no later
  stretch writes them and no region has them among the arrays it writes.
-/
import proofs.«105406_j64759516889909_1_alg».proof.Proof.Gen.KernelIdeal.Frame
import proofs.«105406_j64759516889909_1_alg».proof.Proof.SageTerms
import proofs.«105406_j64759516889909_1_alg».proof.Proof.KernelHost0
import proofs.«105406_j64759516889909_1_alg».proof.Proof.KernelHostA
import proofs.«105406_j64759516889909_1_alg».proof.Proof.KernelBlocks0
import proofs.«105406_j64759516889909_1_alg».proof.Proof.KernelBlocks1
import proofs.«105406_j64759516889909_1_alg».proof.Proof.KernelBlocks2
import proofs.«105406_j64759516889909_1_alg».proof.Proof.KernelBlocks3
import proofs.«105406_j64759516889909_1_alg».proof.Proof.KernelBlocks4

set_option maxRecDepth 16384

noncomputable section

namespace Cert.KernelIdeal.Host

open Cert.KernelIdeal Cert.KernelIdeal.Gen Cert.KernelIdeal.Terms
open Idealize.ShloMosaic Idealize.ShloMosaic.TcCoe Idealize.ShloMosaic.ValueIdx Idealize.SL.Sem SageLaw

variable (m : (ℓ : Loc nD τ sig) → Buf (Elt Ideal) ℓ) (ρ : Dev nD → PrngReg) (c : Dev nD)

/-- The features after layer 1. -/
def H1 : Feat := layerOf (m ((c : Thread nD τ).loc main_arg0)) (srcM m c) (dstM m c) (icolM m c) (trOf (m ((c : Thread nD τ).loc main_arg2))) (trOf (m ((c : Thread nD τ).loc main_arg3))) (rowOf (m ((c : Thread nD τ).loc main_arg4)))
/-- The features after layer 2. -/
def H2 : Feat := layerOf (H1 m c) (srcM m c) (dstM m c) (icolM m c) (trOf (m ((c : Thread nD τ).loc main_arg5))) (trOf (m ((c : Thread nD τ).loc main_arg6))) (rowOf (m ((c : Thread nD τ).loc main_arg7)))
/-- The features after layer 3. -/
def H3 : Feat := layerOf (H2 m c) (srcM m c) (dstM m c) (icolM m c) (trOf (m ((c : Thread nD τ).loc main_arg8))) (trOf (m ((c : Thread nD τ).loc main_arg9))) (rowOf (m ((c : Thread nD τ).loc main_arg10)))
/-- The features after layer 4. -/
def H4 : Feat := layerOf (H3 m c) (srcM m c) (dstM m c) (icolM m c) (trOf (m ((c : Thread nD τ).loc main_arg11))) (trOf (m ((c : Thread nD τ).loc main_arg12))) (rowOf (m ((c : Thread nD τ).loc main_arg13)))
/-- The program's result. -/
def OutK : Feat := lastOf (H4 m c) (trOf (m ((c : Thread nD τ).loc main_arg14))) (rowOf (m ((c : Thread nD τ).loc main_arg15)))

/-! ## The carried buffers at each boundary -/

theorem e2_v1 : (W2 m ρ c (Proc.devRef .tc main_v1) : EdgeVec) = srcM m c := (W2_of_ne m ρ c main_v1 (by decide)).trans (w1_v1 m ρ c)
theorem e2_v3 : (W2 m ρ c (Proc.devRef .tc main_v3) : EdgeVec) = dstM m c := (W2_of_ne m ρ c main_v3 (by decide)).trans (w1_v3 m ρ c)
theorem e2_v12 : (W2 m ρ c (Proc.devRef .tc main_v12) : Col) = icolM m c := (W2_of_ne m ρ c main_v12 (by decide)).trans (w1_v12 m ρ c)
theorem e2_v15 : (W2 m ρ c (Proc.devRef .tc main_v15) : Wt) = trOf (m ((c : Thread nD τ).loc main_arg5)) := (W2_of_ne m ρ c main_v15 (by decide)).trans (w1_v15 m ρ c)
theorem e2_v16 : (W2 m ρ c (Proc.devRef .tc main_v16) : Wt) = trOf (m ((c : Thread nD τ).loc main_arg6)) := (W2_of_ne m ρ c main_v16 (by decide)).trans (w1_v16 m ρ c)
theorem e2_v17 : (W2 m ρ c (Proc.devRef .tc main_v17) : Wt) = trOf (m ((c : Thread nD τ).loc main_arg8)) := (W2_of_ne m ρ c main_v17 (by decide)).trans (w1_v17 m ρ c)
theorem e2_v18 : (W2 m ρ c (Proc.devRef .tc main_v18) : Wt) = trOf (m ((c : Thread nD τ).loc main_arg9)) := (W2_of_ne m ρ c main_v18 (by decide)).trans (w1_v18 m ρ c)
theorem e2_v19 : (W2 m ρ c (Proc.devRef .tc main_v19) : Wt) = trOf (m ((c : Thread nD τ).loc main_arg11)) := (W2_of_ne m ρ c main_v19 (by decide)).trans (w1_v19 m ρ c)
theorem e2_v20 : (W2 m ρ c (Proc.devRef .tc main_v20) : Wt) = trOf (m ((c : Thread nD τ).loc main_arg12)) := (W2_of_ne m ρ c main_v20 (by decide)).trans (w1_v20 m ρ c)
theorem e2_v21 : (W2 m ρ c (Proc.devRef .tc main_v21) : Wt) = trOf (m ((c : Thread nD τ).loc main_arg14)) := (W2_of_ne m ρ c main_v21 (by decide)).trans (w1_v21 m ρ c)
theorem e2_arg7 : (W2 m ρ c (Proc.devRef .tc main_arg7) : Bias) = (m ((c : Thread nD τ).loc main_arg7)) := (W2_of_ne m ρ c main_arg7 (by decide)).trans (w1_arg7 m ρ c)
theorem e2_arg10 : (W2 m ρ c (Proc.devRef .tc main_arg10) : Bias) = (m ((c : Thread nD τ).loc main_arg10)) := (W2_of_ne m ρ c main_arg10 (by decide)).trans (w1_arg10 m ρ c)
theorem e2_arg13 : (W2 m ρ c (Proc.devRef .tc main_arg13) : Bias) = (m ((c : Thread nD τ).loc main_arg13)) := (W2_of_ne m ρ c main_arg13 (by decide)).trans (w1_arg13 m ρ c)
theorem e2_arg15 : (W2 m ρ c (Proc.devRef .tc main_arg15) : Bias) = (m ((c : Thread nD τ).loc main_arg15)) := (W2_of_ne m ρ c main_arg15 (by decide)).trans (w1_arg15 m ρ c)

theorem e3_v1 : (W3 m ρ c (Proc.devRef .tc main_v1) : EdgeVec) = srcM m c := (w3_keep_v1 m ρ c).trans (e2_v1 m ρ c)
theorem e3_v3 : (W3 m ρ c (Proc.devRef .tc main_v3) : EdgeVec) = dstM m c := (w3_keep_v3 m ρ c).trans (e2_v3 m ρ c)
theorem e3_v12 : (W3 m ρ c (Proc.devRef .tc main_v12) : Col) = icolM m c := (w3_keep_v12 m ρ c).trans (e2_v12 m ρ c)
theorem e3_v15 : (W3 m ρ c (Proc.devRef .tc main_v15) : Wt) = trOf (m ((c : Thread nD τ).loc main_arg5)) := (w3_keep_v15 m ρ c).trans (e2_v15 m ρ c)
theorem e3_v16 : (W3 m ρ c (Proc.devRef .tc main_v16) : Wt) = trOf (m ((c : Thread nD τ).loc main_arg6)) := (w3_keep_v16 m ρ c).trans (e2_v16 m ρ c)
theorem e3_v17 : (W3 m ρ c (Proc.devRef .tc main_v17) : Wt) = trOf (m ((c : Thread nD τ).loc main_arg8)) := (w3_keep_v17 m ρ c).trans (e2_v17 m ρ c)
theorem e3_v18 : (W3 m ρ c (Proc.devRef .tc main_v18) : Wt) = trOf (m ((c : Thread nD τ).loc main_arg9)) := (w3_keep_v18 m ρ c).trans (e2_v18 m ρ c)
theorem e3_v19 : (W3 m ρ c (Proc.devRef .tc main_v19) : Wt) = trOf (m ((c : Thread nD τ).loc main_arg11)) := (w3_keep_v19 m ρ c).trans (e2_v19 m ρ c)
theorem e3_v20 : (W3 m ρ c (Proc.devRef .tc main_v20) : Wt) = trOf (m ((c : Thread nD τ).loc main_arg12)) := (w3_keep_v20 m ρ c).trans (e2_v20 m ρ c)
theorem e3_v21 : (W3 m ρ c (Proc.devRef .tc main_v21) : Wt) = trOf (m ((c : Thread nD τ).loc main_arg14)) := (w3_keep_v21 m ρ c).trans (e2_v21 m ρ c)
theorem e3_arg10 : (W3 m ρ c (Proc.devRef .tc main_arg10) : Bias) = (m ((c : Thread nD τ).loc main_arg10)) := (w3_keep_arg10 m ρ c).trans (e2_arg10 m ρ c)
theorem e3_arg13 : (W3 m ρ c (Proc.devRef .tc main_arg13) : Bias) = (m ((c : Thread nD τ).loc main_arg13)) := (w3_keep_arg13 m ρ c).trans (e2_arg13 m ρ c)
theorem e3_arg15 : (W3 m ρ c (Proc.devRef .tc main_arg15) : Bias) = (m ((c : Thread nD τ).loc main_arg15)) := (w3_keep_arg15 m ρ c).trans (e2_arg15 m ρ c)

theorem e4_v1 : (W4 m ρ c (Proc.devRef .tc main_v1) : EdgeVec) = srcM m c := (W4_of_ne m ρ c main_v1 (by decide)).trans (e3_v1 m ρ c)
theorem e4_v3 : (W4 m ρ c (Proc.devRef .tc main_v3) : EdgeVec) = dstM m c := (W4_of_ne m ρ c main_v3 (by decide)).trans (e3_v3 m ρ c)
theorem e4_v12 : (W4 m ρ c (Proc.devRef .tc main_v12) : Col) = icolM m c := (W4_of_ne m ρ c main_v12 (by decide)).trans (e3_v12 m ρ c)
theorem e4_v17 : (W4 m ρ c (Proc.devRef .tc main_v17) : Wt) = trOf (m ((c : Thread nD τ).loc main_arg8)) := (W4_of_ne m ρ c main_v17 (by decide)).trans (e3_v17 m ρ c)
theorem e4_v18 : (W4 m ρ c (Proc.devRef .tc main_v18) : Wt) = trOf (m ((c : Thread nD τ).loc main_arg9)) := (W4_of_ne m ρ c main_v18 (by decide)).trans (e3_v18 m ρ c)
theorem e4_v19 : (W4 m ρ c (Proc.devRef .tc main_v19) : Wt) = trOf (m ((c : Thread nD τ).loc main_arg11)) := (W4_of_ne m ρ c main_v19 (by decide)).trans (e3_v19 m ρ c)
theorem e4_v20 : (W4 m ρ c (Proc.devRef .tc main_v20) : Wt) = trOf (m ((c : Thread nD τ).loc main_arg12)) := (W4_of_ne m ρ c main_v20 (by decide)).trans (e3_v20 m ρ c)
theorem e4_v21 : (W4 m ρ c (Proc.devRef .tc main_v21) : Wt) = trOf (m ((c : Thread nD τ).loc main_arg14)) := (W4_of_ne m ρ c main_v21 (by decide)).trans (e3_v21 m ρ c)
theorem e4_arg10 : (W4 m ρ c (Proc.devRef .tc main_arg10) : Bias) = (m ((c : Thread nD τ).loc main_arg10)) := (W4_of_ne m ρ c main_arg10 (by decide)).trans (e3_arg10 m ρ c)
theorem e4_arg13 : (W4 m ρ c (Proc.devRef .tc main_arg13) : Bias) = (m ((c : Thread nD τ).loc main_arg13)) := (W4_of_ne m ρ c main_arg13 (by decide)).trans (e3_arg13 m ρ c)
theorem e4_arg15 : (W4 m ρ c (Proc.devRef .tc main_arg15) : Bias) = (m ((c : Thread nD τ).loc main_arg15)) := (W4_of_ne m ρ c main_arg15 (by decide)).trans (e3_arg15 m ρ c)

theorem e5_v1 : (W5 m ρ c (Proc.devRef .tc main_v1) : EdgeVec) = srcM m c := (w5_keep_v1 m ρ c).trans (e4_v1 m ρ c)
theorem e5_v3 : (W5 m ρ c (Proc.devRef .tc main_v3) : EdgeVec) = dstM m c := (w5_keep_v3 m ρ c).trans (e4_v3 m ρ c)
theorem e5_v12 : (W5 m ρ c (Proc.devRef .tc main_v12) : Col) = icolM m c := (w5_keep_v12 m ρ c).trans (e4_v12 m ρ c)
theorem e5_v17 : (W5 m ρ c (Proc.devRef .tc main_v17) : Wt) = trOf (m ((c : Thread nD τ).loc main_arg8)) := (w5_keep_v17 m ρ c).trans (e4_v17 m ρ c)
theorem e5_v18 : (W5 m ρ c (Proc.devRef .tc main_v18) : Wt) = trOf (m ((c : Thread nD τ).loc main_arg9)) := (w5_keep_v18 m ρ c).trans (e4_v18 m ρ c)
theorem e5_v19 : (W5 m ρ c (Proc.devRef .tc main_v19) : Wt) = trOf (m ((c : Thread nD τ).loc main_arg11)) := (w5_keep_v19 m ρ c).trans (e4_v19 m ρ c)
theorem e5_v20 : (W5 m ρ c (Proc.devRef .tc main_v20) : Wt) = trOf (m ((c : Thread nD τ).loc main_arg12)) := (w5_keep_v20 m ρ c).trans (e4_v20 m ρ c)
theorem e5_v21 : (W5 m ρ c (Proc.devRef .tc main_v21) : Wt) = trOf (m ((c : Thread nD τ).loc main_arg14)) := (w5_keep_v21 m ρ c).trans (e4_v21 m ρ c)
theorem e5_arg13 : (W5 m ρ c (Proc.devRef .tc main_arg13) : Bias) = (m ((c : Thread nD τ).loc main_arg13)) := (w5_keep_arg13 m ρ c).trans (e4_arg13 m ρ c)
theorem e5_arg15 : (W5 m ρ c (Proc.devRef .tc main_arg15) : Bias) = (m ((c : Thread nD τ).loc main_arg15)) := (w5_keep_arg15 m ρ c).trans (e4_arg15 m ρ c)

theorem e6_v1 : (W6 m ρ c (Proc.devRef .tc main_v1) : EdgeVec) = srcM m c := (W6_of_ne m ρ c main_v1 (by decide)).trans (e5_v1 m ρ c)
theorem e6_v3 : (W6 m ρ c (Proc.devRef .tc main_v3) : EdgeVec) = dstM m c := (W6_of_ne m ρ c main_v3 (by decide)).trans (e5_v3 m ρ c)
theorem e6_v12 : (W6 m ρ c (Proc.devRef .tc main_v12) : Col) = icolM m c := (W6_of_ne m ρ c main_v12 (by decide)).trans (e5_v12 m ρ c)
theorem e6_v19 : (W6 m ρ c (Proc.devRef .tc main_v19) : Wt) = trOf (m ((c : Thread nD τ).loc main_arg11)) := (W6_of_ne m ρ c main_v19 (by decide)).trans (e5_v19 m ρ c)
theorem e6_v20 : (W6 m ρ c (Proc.devRef .tc main_v20) : Wt) = trOf (m ((c : Thread nD τ).loc main_arg12)) := (W6_of_ne m ρ c main_v20 (by decide)).trans (e5_v20 m ρ c)
theorem e6_v21 : (W6 m ρ c (Proc.devRef .tc main_v21) : Wt) = trOf (m ((c : Thread nD τ).loc main_arg14)) := (W6_of_ne m ρ c main_v21 (by decide)).trans (e5_v21 m ρ c)
theorem e6_arg13 : (W6 m ρ c (Proc.devRef .tc main_arg13) : Bias) = (m ((c : Thread nD τ).loc main_arg13)) := (W6_of_ne m ρ c main_arg13 (by decide)).trans (e5_arg13 m ρ c)
theorem e6_arg15 : (W6 m ρ c (Proc.devRef .tc main_arg15) : Bias) = (m ((c : Thread nD τ).loc main_arg15)) := (W6_of_ne m ρ c main_arg15 (by decide)).trans (e5_arg15 m ρ c)

theorem e7_v19 : (W7 m ρ c (Proc.devRef .tc main_v19) : Wt) = trOf (m ((c : Thread nD τ).loc main_arg11)) := (w7_keep_v19 m ρ c).trans (e6_v19 m ρ c)
theorem e7_v20 : (W7 m ρ c (Proc.devRef .tc main_v20) : Wt) = trOf (m ((c : Thread nD τ).loc main_arg12)) := (w7_keep_v20 m ρ c).trans (e6_v20 m ρ c)
theorem e7_v21 : (W7 m ρ c (Proc.devRef .tc main_v21) : Wt) = trOf (m ((c : Thread nD τ).loc main_arg14)) := (w7_keep_v21 m ρ c).trans (e6_v21 m ρ c)
theorem e7_arg15 : (W7 m ρ c (Proc.devRef .tc main_arg15) : Bias) = (m ((c : Thread nD τ).loc main_arg15)) := (w7_keep_arg15 m ρ c).trans (e6_arg15 m ρ c)

theorem e8_v21 : (W8 m ρ c (Proc.devRef .tc main_v21) : Wt) = trOf (m ((c : Thread nD τ).loc main_arg14)) := (W8_of_ne m ρ c main_v21 (by decide)).trans (e7_v21 m ρ c)
theorem e8_arg15 : (W8 m ρ c (Proc.devRef .tc main_arg15) : Bias) = (m ((c : Thread nD τ).loc main_arg15)) := (W8_of_ne m ρ c main_arg15 (by decide)).trans (e7_arg15 m ρ c)

theorem e9_v21 : (W9 m ρ c (Proc.devRef .tc main_v21) : Wt) = trOf (m ((c : Thread nD τ).loc main_arg14)) := (w9_keep_v21 m ρ c).trans (e8_v21 m ρ c)

/-! ## The layers -/

/-- Region 0's output is layer 1. -/
theorem f2 : (W2 m ρ c (Proc.devRef .tc main_v35) : Feat) = H1 m c := by
  refine (W2_arr m ρ c 5).trans ((Blocks0.final (V1 m ρ) c).trans ?_)
  unfold Blocks0.G H1 layerOf
  show sage (W1 m ρ c (Proc.devRef .tc main_v33)) (W1 m ρ c (Proc.devRef .tc main_arg0)) (W1 m ρ c (Proc.devRef .tc main_v13)) (W1 m ρ c (Proc.devRef .tc main_v14))
      (fun q => W1 m ρ c (Proc.devRef .tc main_v34) (ix2 (0 : Fin 1) q)) = _
  rw [w1_v33, w1_arg0, w1_v13, w1_v14, w1_v34]

/-- The mean entering layer 2. -/
theorem g3 : (W3 m ρ c (Proc.devRef .tc main_v47) : Feat) = meanOf (H1 m c) (srcM m c) (dstM m c) (icolM m c) := by
  rw [w3_v47, f2, e2_v1, e2_v3, e2_v12]
/-- The previous features entering layer 2. -/
theorem p3 : (W3 m ρ c (Proc.devRef .tc main_v35) : Feat) = H1 m c := (w3_keep_v35 m ρ c).trans (f2 m ρ c)
/-- The bias row entering layer 2. -/
theorem r3 : (W3 m ρ c (Proc.devRef .tc main_v48) : Row) = rowOf (m ((c : Thread nD τ).loc main_arg7)) := by
  rw [w3_v48, e2_arg7]
/-- Region 1's output is layer 2. -/
theorem f4 : (W4 m ρ c (Proc.devRef .tc main_v49) : Feat) = H2 m c := by
  refine (W4_arr m ρ c 5).trans ((Blocks1.final (V3 m ρ) c).trans ?_)
  unfold Blocks1.G H2 layerOf
  show sage (W3 m ρ c (Proc.devRef .tc main_v47)) (W3 m ρ c (Proc.devRef .tc main_v35)) (W3 m ρ c (Proc.devRef .tc main_v15)) (W3 m ρ c (Proc.devRef .tc main_v16))
      (fun q => W3 m ρ c (Proc.devRef .tc main_v48) (ix2 (0 : Fin 1) q)) = _
  rw [g3, p3, e3_v15, e3_v16, r3]

/-- The mean entering layer 3. -/
theorem g5 : (W5 m ρ c (Proc.devRef .tc main_v61) : Feat) = meanOf (H2 m c) (srcM m c) (dstM m c) (icolM m c) := by
  rw [w5_v61, f4, e4_v1, e4_v3, e4_v12]
/-- The previous features entering layer 3. -/
theorem p5 : (W5 m ρ c (Proc.devRef .tc main_v49) : Feat) = H2 m c := (w5_keep_v49 m ρ c).trans (f4 m ρ c)
/-- The bias row entering layer 3. -/
theorem r5 : (W5 m ρ c (Proc.devRef .tc main_v62) : Row) = rowOf (m ((c : Thread nD τ).loc main_arg10)) := by
  rw [w5_v62, e4_arg10]
/-- Region 2's output is layer 3. -/
theorem f6 : (W6 m ρ c (Proc.devRef .tc main_v63) : Feat) = H3 m c := by
  refine (W6_arr m ρ c 5).trans ((Blocks2.final (V5 m ρ) c).trans ?_)
  unfold Blocks2.G H3 layerOf
  show sage (W5 m ρ c (Proc.devRef .tc main_v61)) (W5 m ρ c (Proc.devRef .tc main_v49)) (W5 m ρ c (Proc.devRef .tc main_v17)) (W5 m ρ c (Proc.devRef .tc main_v18))
      (fun q => W5 m ρ c (Proc.devRef .tc main_v62) (ix2 (0 : Fin 1) q)) = _
  rw [g5, p5, e5_v17, e5_v18, r5]

/-- The mean entering layer 4. -/
theorem g7 : (W7 m ρ c (Proc.devRef .tc main_v75) : Feat) = meanOf (H3 m c) (srcM m c) (dstM m c) (icolM m c) := by
  rw [w7_v75, f6, e6_v1, e6_v3, e6_v12]
/-- The previous features entering layer 4. -/
theorem p7 : (W7 m ρ c (Proc.devRef .tc main_v63) : Feat) = H3 m c := (w7_keep_v63 m ρ c).trans (f6 m ρ c)
/-- The bias row entering layer 4. -/
theorem r7 : (W7 m ρ c (Proc.devRef .tc main_v76) : Row) = rowOf (m ((c : Thread nD τ).loc main_arg13)) := by
  rw [w7_v76, e6_arg13]
/-- Region 3's output is layer 4. -/
theorem f8 : (W8 m ρ c (Proc.devRef .tc main_v77) : Feat) = H4 m c := by
  refine (W8_arr m ρ c 5).trans ((Blocks3.final (V7 m ρ) c).trans ?_)
  unfold Blocks3.G H4 layerOf
  show sage (W7 m ρ c (Proc.devRef .tc main_v75)) (W7 m ρ c (Proc.devRef .tc main_v63)) (W7 m ρ c (Proc.devRef .tc main_v19)) (W7 m ρ c (Proc.devRef .tc main_v20))
      (fun q => W7 m ρ c (Proc.devRef .tc main_v76) (ix2 (0 : Fin 1) q)) = _
  rw [g7, p7, e7_v19, e7_v20, r7]

/-- The features entering the last region. -/
theorem p9 : (W9 m ρ c (Proc.devRef .tc main_v77) : Feat) = H4 m c := (w9_keep_v77 m ρ c).trans (f8 m ρ c)
/-- The bias row entering the last region. -/
theorem r9 : (W9 m ρ c (Proc.devRef .tc main_v78) : Row) = rowOf (m ((c : Thread nD τ).loc main_arg15)) := by
  rw [w9_v78, e8_arg15]
/-- THE RESULT: the last boundary's result buffer is the last linear map of layer 4. -/
theorem result_eq : (W10 m ρ c (Proc.devRef .tc main_v79) : Feat) = OutK m c := by
  refine (W10_arr m ρ c 3).trans ((Blocks4.final (V9 m ρ) c).trans ?_)
  unfold Blocks4.G OutK lastOf
  show fc (W9 m ρ c (Proc.devRef .tc main_v77)) (W9 m ρ c (Proc.devRef .tc main_v21)) (fun q => W9 m ρ c (Proc.devRef .tc main_v78) (ix2 (0 : Fin 1) q)) = _
  rw [p9, e9_v21, r9]

end Cert.KernelIdeal.Host

end
-- ==== Proof.LibGcnLayout.lean ====
/-
  Layout operations of ranks one and two read at an index, for any extents: a column [a, 1] read as a vector [a] and a
  row [1, b] as a vector [b]; a vector [b] made a row [1, b]; a column [a, 1] and a row [1, b] spread over [a, b]; a
  contiguous piece of a vector. Each result element is one operand element, named by its coordinates.
-/
import Idealize.ShloMosaic.Lib.Pipeline.Value
import Idealize.ShloMosaic.Lib.ValueIdx

noncomputable section

namespace GcnLayout

open Idealize.ShloMosaic Idealize.ShloMosaic.ValueIdx

variable {α : Type}

/-- A column [a, 1] read as a vector: entry p is entry (p, 0). -/
theorem col_cast_apply {a : Nat} (h : (⟨2, ![a, 1]⟩ : Shape).ShapeCasts ⟨1, ![a]⟩)
    (v : (⟨2, ![a, 1]⟩ : Shape).Idx → α) (p : Fin a) :
    shapeCast ⟨1, ![a]⟩ v h (ix1 p) = v (ix2 p (0 : Fin 1)) := by
  refine shapeCast_apply v h (ix1 p) (ix2 p (0 : Fin 1)) ?_
  rw [Shape.rowMajor_val_one, Shape.rowMajor_val_two]
  show p.val * 1 + 0 = p.val
  omega

/-- A row [1, b] read as a vector: entry q is entry (0, q). -/
theorem row_uncast_apply {b : Nat} (h : (⟨2, ![1, b]⟩ : Shape).ShapeCasts ⟨1, ![b]⟩)
    (v : (⟨2, ![1, b]⟩ : Shape).Idx → α) (q : Fin b) :
    shapeCast ⟨1, ![b]⟩ v h (ix1 q) = v (ix2 (0 : Fin 1) q) := by
  refine shapeCast_apply v h (ix1 q) (ix2 (0 : Fin 1) q) ?_
  rw [Shape.rowMajor_val_one, Shape.rowMajor_val_two]
  show 0 * b + q.val = q.val
  omega

/-- A vector [b] made a row [1, b]: entry (0, q) is entry q. -/
theorem row_bcast_apply {b : Nat} (h : (⟨1, ![b]⟩ : Shape).BroadcastsInDim ⟨2, ![1, b]⟩ (![1] : Fin 1 → Fin 2))
    (v : (⟨1, ![b]⟩ : Shape).Idx → α) (z : Fin 1) (q : Fin b) :
    broadcastInDim ⟨2, ![1, b]⟩ ![1] h v (ix2 z q) = v (ix1 q) :=
  broadcastInDim_apply _ h v (ix2 z q) (ix1 q) (fun ax => match ax with
    | ⟨0, _⟩ => by
      show q.val = if b = 1 then 0 else q.val
      split
      · have := q.isLt; omega
      · rfl)

/-- A column [a, 1] spread over [a, b]: entry (p, q) is entry (p, 0). -/
theorem col_spread_apply {a b : Nat}
    (h : (⟨2, ![a, 1]⟩ : Shape).BroadcastsInDim ⟨2, ![a, b]⟩ (![0, 1] : Fin 2 → Fin 2))
    (v : (⟨2, ![a, 1]⟩ : Shape).Idx → α) (p : Fin a) (q : Fin b) :
    broadcastInDim ⟨2, ![a, b]⟩ ![0, 1] h v (ix2 p q) = v (ix2 p (0 : Fin 1)) :=
  broadcastInDim_apply _ h v (ix2 p q) (ix2 p (0 : Fin 1)) (fun ax => match ax with
    | ⟨0, _⟩ => by
      show p.val = if a = 1 then 0 else p.val
      split
      · have := p.isLt; omega
      · rfl
    | ⟨1, _⟩ => by
      show (0 : Nat) = if (1 : Nat) = 1 then 0 else q.val
      rfl)

/-- A row [1, b] spread over [a, b]: entry (p, q) is entry (0, q). -/
theorem row_spread_apply {a b : Nat}
    (h : (⟨2, ![1, b]⟩ : Shape).BroadcastsInDim ⟨2, ![a, b]⟩ (![0, 1] : Fin 2 → Fin 2))
    (v : (⟨2, ![1, b]⟩ : Shape).Idx → α) (p : Fin a) (q : Fin b) :
    broadcastInDim ⟨2, ![a, b]⟩ ![0, 1] h v (ix2 p q) = v (ix2 (0 : Fin 1) q) :=
  broadcastInDim_apply _ h v (ix2 p q) (ix2 (0 : Fin 1) q) (fun ax => match ax with
    | ⟨0, _⟩ => by
      show (0 : Nat) = if (1 : Nat) = 1 then 0 else p.val
      rfl
    | ⟨1, _⟩ => by
      show q.val = if b = 1 then 0 else q.val
      split
      · have := q.isLt; omega
      · rfl)

/-- A contiguous piece of a vector: entry q of the piece starting at `off` is entry `off + q`. -/
theorem piece_apply {n m off : Nat} (h : (⟨1, ![n]⟩ : Shape).Slices ![off] ⟨1, ![m]⟩)
    (v : (⟨1, ![n]⟩ : Shape).Idx → α) (q : Fin m) (hq : off + q.val < n) :
    extractStridedSlice ⟨1, ![m]⟩ ![off] v h (ix1 q) = v (ix1 ⟨off + q.val, hq⟩) :=
  extractStridedSlice_apply ![off] v h (ix1 q) (ix1 ⟨off + q.val, hq⟩) (fun a => match a with
    | ⟨0, _⟩ => rfl)

end GcnLayout

end
-- ==== Proof.LayerLaw.lean ====
/-
  One layer of the kernel's program is one layer of the reference, as functions of the previous features, the edge
  list, the two weight matrices and the bias. Both are max(mean·WlT + h·WrT + bias, 0) at every entry, with the same
  transposed weights, the same bias entry, and the same neighbour aggregate (the same gather and accumulating scatter
  of the same arrays, which are never opened). They differ in the mean only: the kernel's program multiplies the
  aggregate by the column 1 / max(count, 1), the reference divides it by max(count, 1). The count is ones added at the
  destinations into zeros, a real number at every node, so the two means agree entry by entry.
-/
import proofs.«105406_j64759516889909_1_alg».proof.Proof.Gen.ReferenceIdeal.Read
import proofs.«105406_j64759516889909_1_alg».proof.Proof.SageTerms
import proofs.«105406_j64759516889909_1_alg».proof.Proof.SageLaw
import proofs.«105406_j64759516889909_1_alg».proof.Proof.LibRowOps
import proofs.«105406_j64759516889909_1_alg».proof.Proof.LibGcnLayout
import proofs.«105406_j64759516889909_1_alg».proof.Proof.LibSoftLayout
import proofs.«105406_j64759516889909_1_alg».proof.Proof.LibRealEntries2
import proofs.«105406_j64759516889909_1_alg».proof.Proof.LibIdealReal

noncomputable section

open scoped BigOperators

namespace Cert.Bridge

open Idealize.ShloMosaic Idealize.ShloMosaic.ValueIdx SageLaw RealEntries2
open Cert.KernelIdeal.Terms

/-- A scalar spread over a whole array, at an entry: the scalar. -/
theorem splat_apply {s : Shape} (w : (⟨0, ![]⟩ : Shape).BroadcastsInDim s ![]) (bits : BitVec 32) (i : s.Idx) :
    broadcastInDim s ![] w (constant (F := Ideal) ⟨0, ![]⟩ .f32 bits) i = Ideal.ofBits .f32 bits :=
  (broadcastInDim_apply _ w (constant (F := Ideal) ⟨0, ![]⟩ .f32 bits) i (fun a => a.elim0) (fun a => a.elim0)).trans rfl

/-- The two programs' aggregates are one array. -/
theorem agg_eq (h : Feat) (E : Edges) :
    aggOf h (srcOf E) (dstOf E) = Cert.ReferenceIdeal.Read.val_main_v13 (F := Ideal) h E := rfl

/-- The two programs' counts are one vector. -/
theorem cnt_eq (E : Edges) : cntOf (dstOf E) = Cert.ReferenceIdeal.Read.val_main_v17 (F := Ideal) E := rfl

/-- The count is a real number at every node: ones added into zeros. -/
theorem cnt_real (dst : EdgeVec) (p : Fin 50000) : IsReal (cntOf dst (ix1 p)) := by
  unfold cntOf
  refine hostScatterAdd_real _ _ _ _ (fun i => ?_) (fun j => ?_) (ix1 p)
  · rw [splat_apply]; exact ⟨0, Cert.IdealReal.ofBits_zero⟩
  · rw [splat_apply]; exact ⟨1, Cert.IdealReal.ofBits_one⟩

/-- A product with a count-indexed vector stood up as a column and spread over the features, at an entry. -/
theorem mul_col_at (A : FVec Ideal ⟨2, ![50000, 128]⟩ .f32) (v : FVec Ideal ⟨1, ![50000]⟩ .f32)
    (w1 : (⟨2, ![50000, 1]⟩ : Shape).BroadcastsInDim ⟨2, ![50000, 128]⟩ ![0, 1])
    (w0 : (⟨1, ![50000]⟩ : Shape).BroadcastsInDim ⟨2, ![50000, 1]⟩ ![0]) (p : Fin 50000) (k : Fin 128) :
    mulf A (broadcastInDim ⟨2, ![50000, 128]⟩ ![0, 1] w1 (broadcastInDim ⟨2, ![50000, 1]⟩ ![0] w0 v)) (ix2 p k)
      = A (ix2 p k) * v (ix1 p) := by
  simp only [mulf, Ideal.mulf_def]
  rw [GcnLayout.col_spread_apply, RowOps.vec_col_apply]

/-- A quotient by such a column, at an entry. -/
theorem div_col_at (A : FVec Ideal ⟨2, ![50000, 128]⟩ .f32) (v : FVec Ideal ⟨1, ![50000]⟩ .f32)
    (w1 : (⟨2, ![50000, 1]⟩ : Shape).BroadcastsInDim ⟨2, ![50000, 128]⟩ ![0, 1])
    (w0 : (⟨1, ![50000]⟩ : Shape).BroadcastsInDim ⟨2, ![50000, 1]⟩ ![0]) (p : Fin 50000) (k : Fin 128) :
    Host.divf A (broadcastInDim ⟨2, ![50000, 128]⟩ ![0, 1] w1 (broadcastInDim ⟨2, ![50000, 1]⟩ ![0] w0 v)) (ix2 p k)
      = Ideal.div (A (ix2 p k)) (v (ix1 p)) := by
  simp only [Host.divf, Ideal.hostDivf_def]
  rw [GcnLayout.col_spread_apply, RowOps.vec_col_apply]

/-- max(count, 1) at a node, for any count vector. -/
theorem max_one_at (cnt : FVec Ideal ⟨1, ![50000]⟩ .f32) (w : (⟨0, ![]⟩ : Shape).BroadcastsInDim ⟨1, ![50000]⟩ ![])
    (p : Fin 50000) :
    maximumf cnt (broadcastInDim ⟨1, ![50000]⟩ ![] w (constant (F := Ideal) ⟨0, ![]⟩ .f32 0x3F800000#32)) (ix1 p)
      = max (cnt (ix1 p)) (Ideal.ofBits .f32 0x3F800000#32) := by
  simp only [maximumf, Ideal.maximumf_def]
  rw [splat_apply]

/-- 1 / max(count, 1) at a node, for any count vector. -/
theorem recip_at (cnt : FVec Ideal ⟨1, ![50000]⟩ .f32) (w : (⟨0, ![]⟩ : Shape).BroadcastsInDim ⟨1, ![50000]⟩ ![])
    (p : Fin 50000) :
    Host.divf (F := Ideal) (broadcastInDim ⟨1, ![50000]⟩ ![] w (constant (F := Ideal) ⟨0, ![]⟩ .f32 0x3F800000#32))
        (maximumf cnt (broadcastInDim ⟨1, ![50000]⟩ ![] w (constant (F := Ideal) ⟨0, ![]⟩ .f32 0x3F800000#32))) (ix1 p)
      = Ideal.div (Ideal.ofBits .f32 0x3F800000#32) (max (cnt (ix1 p)) (Ideal.ofBits .f32 0x3F800000#32)) := by
  simp only [Host.divf, Ideal.hostDivf_def]
  rw [max_one_at, splat_apply]

/-- The kernel program's mean at an entry: the aggregate times 1 / max(count, 1). -/
theorem meanK_at (h : Feat) (src dst : EdgeVec) (p : Fin 50000) (k : Fin 128) :
    meanOf h src dst (invColOf dst) (ix2 p k)
      = aggOf h src dst (ix2 p k)
          * Ideal.div (Ideal.ofBits .f32 0x3F800000#32) (max (cntOf dst (ix1 p)) (Ideal.ofBits .f32 0x3F800000#32)) := by
  unfold meanOf invColOf degOf
  rw [mul_col_at, recip_at]

/-- The reference's mean at an entry: the aggregate divided by max(count, 1). -/
theorem meanR_at (h : Feat) (E : Edges) (p : Fin 50000) (k : Fin 128) :
    Cert.ReferenceIdeal.Read.val_main_v22 (F := Ideal) h E (ix2 p k)
      = Ideal.div (Cert.ReferenceIdeal.Read.val_main_v13 (F := Ideal) h E (ix2 p k))
          (max (Cert.ReferenceIdeal.Read.val_main_v17 (F := Ideal) E (ix1 p)) (Ideal.ofBits .f32 0x3F800000#32)) := by
  unfold Cert.ReferenceIdeal.Read.val_main_v22 Cert.ReferenceIdeal.Read.val_main_v21 Cert.ReferenceIdeal.Read.val_main_v20
    Cert.ReferenceIdeal.Read.val_main_v19 Cert.ReferenceIdeal.Read.val_main_v18 Cert.ReferenceIdeal.Read.val_main_cst_3
  rw [div_col_at, max_one_at]

/-- THE MEANS AGREE, entry by entry. -/
theorem mean_eq (h : Feat) (E : Edges) (p : Fin 50000) (k : Fin 128) :
    meanOf h (srcOf E) (dstOf E) (invColOf (dstOf E)) (ix2 p k)
      = Cert.ReferenceIdeal.Read.val_main_v22 (F := Ideal) h E (ix2 p k) := by
  rw [meanK_at, meanR_at, ← agg_eq, ← cnt_eq]
  exact scale_eq_div _ _ (cnt_real (dstOf E) p)

end Cert.Bridge

end
-- ==== Proof.RefLayers.lean ====
/-
  The reference as four applications of one layer and a last linear map. The stage that ends the first layer is a
  function of the input features, the edge list, two weight matrices and a bias; the stages that end the second,
  third and fourth layers are that same function of the previous layer's output (with the same edge list and their
  own weights and bias), and the result is the last linear map of the fourth layer's output.
-/
import proofs.«105406_j64759516889909_1_alg».proof.Proof.Gen.ReferenceIdeal.Read

set_option maxRecDepth 16384

noncomputable section

namespace Cert.ReferenceIdeal.Layers

open Cert.ReferenceIdeal Cert.ReferenceIdeal.Gen Cert.ReferenceIdeal.Read Idealize.ShloMosaic

/-- The last linear map of the reference, from the last features: h·WfcT + bias. -/
def lastR {F : FTy → Type} [FloatOps F] (h : (⟨S50000x128, .f32⟩ : BufTy).Contents (Elt F)) (W : (⟨S128x128, .f32⟩ : BufTy).Contents (Elt F)) (b : (⟨S128, .f32⟩ : BufTy).Contents (Elt F)) : (⟨S50000x128, .f32⟩ : BufTy).Contents (Elt F) :=
  addf (Host.dotGeneral dot_S50000x128_S128x128_S50000x128_1_0_0_1_n_n none h (val_main_v116 (F := F) W)) (val_main_v119 (F := F) b)

/-- The second layer is the layer of the first layer's output. -/
theorem layer2 (x0 : (⟨S50000x128, .f32⟩ : BufTy).Contents (Elt Ideal)) (x1 : (⟨S2x800000, .i32⟩ : BufTy).Contents (Elt Ideal)) (x2 x3 : (⟨S128x128, .f32⟩ : BufTy).Contents (Elt Ideal)) (x4 : (⟨S128, .f32⟩ : BufTy).Contents (Elt Ideal)) (x5 x6 : (⟨S128x128, .f32⟩ : BufTy).Contents (Elt Ideal)) (x7 : (⟨S128, .f32⟩ : BufTy).Contents (Elt Ideal)) :
    val_main_v59 (F := Ideal) x0 x1 x2 x3 x4 x5 x6 x7 = val_main_v31 (F := Ideal) (val_main_v31 (F := Ideal) x0 x1 x2 x3 x4) x1 x5 x6 x7 := rfl

/-- The third layer is the layer of the second layer's output. -/
theorem layer3 (x0 : (⟨S50000x128, .f32⟩ : BufTy).Contents (Elt Ideal)) (x1 : (⟨S2x800000, .i32⟩ : BufTy).Contents (Elt Ideal)) (x2 x3 : (⟨S128x128, .f32⟩ : BufTy).Contents (Elt Ideal)) (x4 : (⟨S128, .f32⟩ : BufTy).Contents (Elt Ideal)) (x5 x6 : (⟨S128x128, .f32⟩ : BufTy).Contents (Elt Ideal)) (x7 : (⟨S128, .f32⟩ : BufTy).Contents (Elt Ideal)) (x8 x9 : (⟨S128x128, .f32⟩ : BufTy).Contents (Elt Ideal)) (x10 : (⟨S128, .f32⟩ : BufTy).Contents (Elt Ideal)) :
    val_main_v87 (F := Ideal) x0 x1 x2 x3 x4 x5 x6 x7 x8 x9 x10 = val_main_v31 (F := Ideal) (val_main_v59 (F := Ideal) x0 x1 x2 x3 x4 x5 x6 x7) x1 x8 x9 x10 := rfl

/-- The fourth layer is the layer of the third layer's output. -/
theorem layer4 (x0 : (⟨S50000x128, .f32⟩ : BufTy).Contents (Elt Ideal)) (x1 : (⟨S2x800000, .i32⟩ : BufTy).Contents (Elt Ideal)) (x2 x3 : (⟨S128x128, .f32⟩ : BufTy).Contents (Elt Ideal)) (x4 : (⟨S128, .f32⟩ : BufTy).Contents (Elt Ideal)) (x5 x6 : (⟨S128x128, .f32⟩ : BufTy).Contents (Elt Ideal)) (x7 : (⟨S128, .f32⟩ : BufTy).Contents (Elt Ideal)) (x8 x9 : (⟨S128x128, .f32⟩ : BufTy).Contents (Elt Ideal)) (x10 : (⟨S128, .f32⟩ : BufTy).Contents (Elt Ideal)) (x11 x12 : (⟨S128x128, .f32⟩ : BufTy).Contents (Elt Ideal)) (x13 : (⟨S128, .f32⟩ : BufTy).Contents (Elt Ideal)) :
    val_main_v115 (F := Ideal) x0 x1 x2 x3 x4 x5 x6 x7 x8 x9 x10 x11 x12 x13 = val_main_v31 (F := Ideal) (val_main_v87 (F := Ideal) x0 x1 x2 x3 x4 x5 x6 x7 x8 x9 x10) x1 x11 x12 x13 := rfl

/-- The result is the last linear map of the fourth layer's output. -/
theorem last (x0 : (⟨S50000x128, .f32⟩ : BufTy).Contents (Elt Ideal)) (x1 : (⟨S2x800000, .i32⟩ : BufTy).Contents (Elt Ideal)) (x2 x3 : (⟨S128x128, .f32⟩ : BufTy).Contents (Elt Ideal)) (x4 : (⟨S128, .f32⟩ : BufTy).Contents (Elt Ideal)) (x5 x6 : (⟨S128x128, .f32⟩ : BufTy).Contents (Elt Ideal)) (x7 : (⟨S128, .f32⟩ : BufTy).Contents (Elt Ideal)) (x8 x9 : (⟨S128x128, .f32⟩ : BufTy).Contents (Elt Ideal)) (x10 : (⟨S128, .f32⟩ : BufTy).Contents (Elt Ideal)) (x11 x12 : (⟨S128x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) :
    val_main_v120 (F := Ideal) x0 x1 x2 x3 x4 x5 x6 x7 x8 x9 x10 x11 x12 x13 x14 x15 = lastR (F := Ideal) (val_main_v115 (F := Ideal) x0 x1 x2 x3 x4 x5 x6 x7 x8 x9 x10 x11 x12 x13) x14 x15 := rfl

end Cert.ReferenceIdeal.Layers

end
-- ==== Proof.Bridge.lean ====
/-
  The kernel's program and the reference compute one function of the sixteen arguments. Layer by layer: the kernel's
  layer of any feature array is the reference's layer of it (the means agree entry by entry, the transposed weights
  and the bias entries are the same, and a layer's entry depends on the mean and the features only through their
  row); the kernel's last linear map of any feature array is the reference's. The reference is four applications of
  its layer and its last map, the kernel's program four applications of its layer and its last map: equal.
-/
import proofs.«105406_j64759516889909_1_alg».proof.Proof.LayerLaw
import proofs.«105406_j64759516889909_1_alg».proof.Proof.RefLayers

set_option maxRecDepth 16384

noncomputable section

open scoped BigOperators

namespace Cert.Bridge

open Idealize.ShloMosaic Idealize.ShloMosaic.ValueIdx SageLaw RealEntries2
open Cert.KernelIdeal.Terms

/-- The reference's products are the plain ones: rows by columns, no batch axis. -/
theorem dotR_plain : Cert.ReferenceIdeal.dot_S50000x128_S128x128_S50000x128_1_0_0_1_n_n = DotDims.plain 50000 128 128 := rfl

/-- max(mean·WlT + h·WrT + bias row, 0) as a host program spells it, at an entry. -/
theorem hostLayer_at (mean h : FVec Ideal ⟨2, ![50000, 128]⟩ .f32) (WlT WrT : FVec Ideal ⟨2, ![128, 128]⟩ .f32)
    (b : FVec Ideal ⟨1, ![128]⟩ .f32)
    (D : DotDims ⟨2, ![50000, 128]⟩ ⟨2, ![128, 128]⟩ ⟨2, ![50000, 128]⟩) (hD : D = DotDims.plain 50000 128 128)
    (wb1 : (⟨1, ![128]⟩ : Shape).BroadcastsInDim ⟨2, ![1, 128]⟩ ![1])
    (wb2 : (⟨2, ![1, 128]⟩ : Shape).BroadcastsInDim ⟨2, ![50000, 128]⟩ ![0, 1])
    (wz : (⟨0, ![]⟩ : Shape).BroadcastsInDim ⟨2, ![50000, 128]⟩ ![]) (p : Fin 50000) (q : Fin 128) :
    maximumf (addf (addf (Host.dotGeneral (F := Ideal) D none mean WlT) (Host.dotGeneral (F := Ideal) D none h WrT))
          (broadcastInDim ⟨2, ![50000, 128]⟩ ![0, 1] wb2 (broadcastInDim ⟨2, ![1, 128]⟩ ![1] wb1 b)))
        (broadcastInDim ⟨2, ![50000, 128]⟩ ![] wz (constant (F := Ideal) ⟨0, ![]⟩ .f32 0x00000000#32)) (ix2 p q)
      = sageAt mean h WlT WrT (fun q' => b (ix1 q')) p q := by
  unfold sageAt
  simp only [maximumf, addf, Ideal.maximumf_def, Ideal.addf_def]
  rw [RowOps.dotGeneral_apply D hD, RowOps.dotGeneral_apply D hD, GcnLayout.row_spread_apply, GcnLayout.row_bcast_apply, splat_apply]

/-- x·WT + bias row as a host program spells it, at an entry. -/
theorem hostLast_at (h : FVec Ideal ⟨2, ![50000, 128]⟩ .f32) (WT : FVec Ideal ⟨2, ![128, 128]⟩ .f32) (b : FVec Ideal ⟨1, ![128]⟩ .f32)
    (D : DotDims ⟨2, ![50000, 128]⟩ ⟨2, ![128, 128]⟩ ⟨2, ![50000, 128]⟩) (hD : D = DotDims.plain 50000 128 128)
    (wb1 : (⟨1, ![128]⟩ : Shape).BroadcastsInDim ⟨2, ![1, 128]⟩ ![1])
    (wb2 : (⟨2, ![1, 128]⟩ : Shape).BroadcastsInDim ⟨2, ![50000, 128]⟩ ![0, 1]) (p : Fin 50000) (q : Fin 128) :
    addf (F := Ideal) (Host.dotGeneral (F := Ideal) D none h WT)
        (broadcastInDim ⟨2, ![50000, 128]⟩ ![0, 1] wb2 (broadcastInDim ⟨2, ![1, 128]⟩ ![1] wb1 b)) (ix2 p q)
      = fcAt h WT (fun q' => b (ix1 q')) p q := by
  unfold fcAt
  simp only [addf, Ideal.addf_def]
  rw [RowOps.dotGeneral_apply D hD, GcnLayout.row_spread_apply, GcnLayout.row_bcast_apply]

/-- The two programs' transposed weights are one matrix. -/
theorem tr_eq23 (W : Wt) : trOf W = Cert.ReferenceIdeal.Read.val_main_v23 (F := Ideal) W := rfl
theorem tr_eq25 (W : Wt) : trOf W = Cert.ReferenceIdeal.Read.val_main_v25 (F := Ideal) W := rfl
theorem tr_eq116 (W : Wt) : trOf W = Cert.ReferenceIdeal.Read.val_main_v116 (F := Ideal) W := rfl

/-- The bias row's entry (0, q) is the bias's entry q. -/
theorem row_at (b : Bias) (q : Fin 128) : rowOf b (ix2 (0 : Fin 1) q) = b (ix1 q) := by
  unfold rowOf
  exact SoftLayout.vec_row_cast_apply _ b 0 q

/-- The reference's layer at an entry. -/
theorem refLayer_at (h : Feat) (E : Edges) (Wl Wr : Wt) (b : Bias) (p : Fin 50000) (q : Fin 128) :
    Cert.ReferenceIdeal.Read.val_main_v31 (F := Ideal) h E Wl Wr b (ix2 p q)
      = sageAt (Cert.ReferenceIdeal.Read.val_main_v22 (F := Ideal) h E) h (Cert.ReferenceIdeal.Read.val_main_v23 (F := Ideal) Wl) (Cert.ReferenceIdeal.Read.val_main_v25 (F := Ideal) Wr)
          (fun q' => b (ix1 q')) p q := by
  unfold Cert.ReferenceIdeal.Read.val_main_v31 Cert.ReferenceIdeal.Read.val_main_v30 Cert.ReferenceIdeal.Read.val_main_v27 Cert.ReferenceIdeal.Read.val_main_v24 Cert.ReferenceIdeal.Read.val_main_v26
    Cert.ReferenceIdeal.Read.val_main_v29 Cert.ReferenceIdeal.Read.val_main_v28 Cert.ReferenceIdeal.Read.val_main_call0_v0 Cert.ReferenceIdeal.Read.val_main_call0_cst
  rw [hostLayer_at _ _ _ _ _ _ dotR_plain]

/-- THE LAYER LAW: the kernel program's layer of any features is the reference's layer of them. -/
theorem layer_law (h : Feat) (E : Edges) (Wl Wr : Wt) (b : Bias) :
    layerOf h (srcOf E) (dstOf E) (invColOf (dstOf E)) (trOf Wl) (trOf Wr) (rowOf b)
      = Cert.ReferenceIdeal.Read.val_main_v31 (F := Ideal) h E Wl Wr b := by
  funext i
  obtain ⟨p, q, rfl⟩ : ∃ (p : Fin 50000) (q : Fin 128), i = ix2 p q := ⟨i 0, i 1, eq_ix2 i⟩
  rw [refLayer_at]
  unfold layerOf
  rw [sage_ix2]
  exact sageAt_congr (n := 50000) (d := 128) (e := 128) (n' := 50000)
    (meanOf h (srcOf E) (dstOf E) (invColOf (dstOf E))) h (Cert.ReferenceIdeal.Read.val_main_v22 (F := Ideal) h E) h
    (trOf Wl) (trOf Wr) (Cert.ReferenceIdeal.Read.val_main_v23 (F := Ideal) Wl) (Cert.ReferenceIdeal.Read.val_main_v25 (F := Ideal) Wr)
    (fun q' => rowOf b (ix2 (0 : Fin 1) q')) (fun q' => b (ix1 q')) p p q
    (fun k => mean_eq h E p k) (fun k => rfl)
    (fun k => congrFun (tr_eq23 Wl) (ix2 k q)) (fun k => congrFun (tr_eq25 Wr) (ix2 k q)) (row_at b q)

/-- The last maps agree: the kernel program's x·WT + bias of any features is the reference's. -/
theorem last_law (h : Feat) (W : Wt) (b : Bias) :
    lastOf h (trOf W) (rowOf b) = Cert.ReferenceIdeal.Layers.lastR (F := Ideal) h W b := by
  funext i
  obtain ⟨p, q, rfl⟩ : ∃ (p : Fin 50000) (q : Fin 128), i = ix2 p q := ⟨i 0, i 1, eq_ix2 i⟩
  unfold lastOf
  rw [fc_ix2]
  unfold Cert.ReferenceIdeal.Layers.lastR Cert.ReferenceIdeal.Read.val_main_v119 Cert.ReferenceIdeal.Read.val_main_v118
  rw [hostLast_at _ _ _ _ dotR_plain]
  exact fcAt_congr (n := 50000) (d := 128) (e := 128) (n' := 50000)
    h h (trOf W) (Cert.ReferenceIdeal.Read.val_main_v116 (F := Ideal) W) (fun q' => rowOf b (ix2 (0 : Fin 1) q')) (fun q' => b (ix1 q')) p p q
    (fun k => rfl) (fun k => congrFun (tr_eq116 W) (ix2 k q)) (row_at b q)

/-- The kernel program's result as a function of the sixteen arguments. -/
def outOf (x : Feat) (E : Edges) (W1l W1r : Wt) (b1 : Bias) (W2l W2r : Wt) (b2 : Bias) (W3l W3r : Wt) (b3 : Bias) (W4l W4r : Wt) (b4 : Bias) (Wfc : Wt) (bfc : Bias) : Feat :=
  lastOf (layerOf (layerOf (layerOf (layerOf x (srcOf E) (dstOf E) (invColOf (dstOf E)) (trOf W1l) (trOf W1r) (rowOf b1)) (srcOf E) (dstOf E) (invColOf (dstOf E)) (trOf W2l) (trOf W2r) (rowOf b2)) (srcOf E) (dstOf E) (invColOf (dstOf E)) (trOf W3l) (trOf W3r) (rowOf b3)) (srcOf E) (dstOf E) (invColOf (dstOf E)) (trOf W4l) (trOf W4r) (rowOf b4)) (trOf Wfc) (rowOf bfc)

/-- THE TWO PROGRAMS COMPUTE ONE FUNCTION. -/
theorem out_eq (x : Feat) (E : Edges) (W1l W1r : Wt) (b1 : Bias) (W2l W2r : Wt) (b2 : Bias) (W3l W3r : Wt) (b3 : Bias) (W4l W4r : Wt) (b4 : Bias) (Wfc : Wt) (bfc : Bias) :
    outOf x E W1l W1r b1 W2l W2r b2 W3l W3r b3 W4l W4r b4 Wfc bfc = Cert.ReferenceIdeal.Read.val_main_v120 (F := Ideal) x E W1l W1r b1 W2l W2r b2 W3l W3r b3 W4l W4r b4 Wfc bfc := by
  unfold outOf
  rw [Cert.ReferenceIdeal.Layers.last, Cert.ReferenceIdeal.Layers.layer4, Cert.ReferenceIdeal.Layers.layer3, Cert.ReferenceIdeal.Layers.layer2]
  rw [layer_law, layer_law, layer_law, layer_law, last_law]

end Cert.Bridge

end
-- ==== Proof.lean ====
/-
  GraphSAGE on 50000 nodes and 800000 edges, 128 features throughout: four layers
      h ↦ max(mean(h)·Wlᵀ + h·Wrᵀ + b, 0),   mean(h)(n, ·) = (Σ over edges into n of h(source, ·)) / max(in-degree(n), 1),
  and a last linear map h ↦ h·Wfcᵀ + bfc. The kernel's program forms each mean on the host as the aggregate times the
  column 1 / max(in-degree, 1) and runs each layer's products, bias and maximum in a pipelined region of ten blocks of
  5000 rows, and the last map in a fifth region; the reference divides the aggregate by max(in-degree, 1) and applies
  the products, bias and maximum to whole arrays.
  On the extended reals the two are one function of the sixteen arguments. Each region's output array is its layer
  (or the last map) of the arrays it finds, because the ten blocks tile the rows and an output entry depends on its
  own row of the row blocks only; a product accumulated into zeros is the plain sum over the contracted coordinate on
  both sides; a change of float format is the identity; the two means agree because the in-degree is a real number,
  so max(in-degree, 1) is a real number at least 1, and a quotient by a nonzero real r is the product with 1/r for
  every extended-real dividend. The gather and the accumulating scatter are the same operations of the same arrays in
  both programs and are never opened. The precondition is not used: the law holds for infinite inputs too.
  The three frame claims are the generated frame certificates and the reference's generated run; the idealization
  rewrote no operation, so its claim is trivial.
-/
import proofs.«105406_j64759516889909_1_alg».proof.Defs
import proofs.«105406_j64759516889909_1_alg».proof.Proof.Gen.Kernel
import proofs.«105406_j64759516889909_1_alg».proof.Proof.Gen.Kernel.Skeleton
import proofs.«105406_j64759516889909_1_alg».proof.Proof.Gen.Kernel.Launch
import proofs.«105406_j64759516889909_1_alg».proof.Proof.Gen.Kernel.Points
import proofs.«105406_j64759516889909_1_alg».proof.Proof.Gen.Kernel.Frame
import proofs.«105406_j64759516889909_1_alg».proof.Proof.Gen.KernelIdeal
import proofs.«105406_j64759516889909_1_alg».proof.Proof.Gen.KernelIdeal.Skeleton
import proofs.«105406_j64759516889909_1_alg».proof.Proof.Gen.KernelIdeal.Launch
import proofs.«105406_j64759516889909_1_alg».proof.Proof.Gen.KernelIdeal.Points
import proofs.«105406_j64759516889909_1_alg».proof.Proof.Gen.KernelIdeal.Frame
import proofs.«105406_j64759516889909_1_alg».proof.Proof.Gen.ReferenceIdeal
import proofs.«105406_j64759516889909_1_alg».proof.Proof.Gen.Pre_finite_inputs
import proofs.«105406_j64759516889909_1_alg».proof.Proof.Gen.ReferenceIdeal.Run
import proofs.«105406_j64759516889909_1_alg».proof.Proof.Gen.ReferenceIdeal.Read
import proofs.«105406_j64759516889909_1_alg».proof.Proof.KernelRun
import proofs.«105406_j64759516889909_1_alg».proof.Proof.KernelValue
import proofs.«105406_j64759516889909_1_alg».proof.Proof.Bridge
import Idealize.ShloMosaic.Adequacy
import Idealize.ShloMosaic.Init

set_option maxRecDepth 16384

noncomputable section

namespace Cert.Proof

open Idealize.ShloMosaic Idealize.SL.Sem

/-- The kernel program's result, read off the launch memory, is its result function of the sixteen argument arrays. -/
theorem outK_eq (m : (ℓ : Loc Cert.KernelIdeal.nD Cert.KernelIdeal.τ Cert.KernelIdeal.sig) → Buf (Elt Ideal) ℓ) (c : Dev Cert.KernelIdeal.nD) :
    Cert.KernelIdeal.Host.OutK m c = Cert.Bridge.outOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs run, and from memories agreeing on the arguments both end with the result function of the
    arguments in their result buffers. -/
theorem algebraic : Cert.algebraic_KernelIdeal_ReferenceIdeal := by
  intro m ρ m' ρ' _ hagree
  refine ⟨fun c => Cert.KernelIdeal.Host.OutK m c, ?_, ?_⟩
  · exact (θ_run Cert.KernelIdeal.defs _ _).mono
      (fun r h c => ⟨(h c).1.trans (Cert.KernelIdeal.Host.result_eq m ρ c), (h c).2⟩)
      (Cert.KernelIdeal.RunValue.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9, a10, a11, a12, a13, a14, a15⟩ := hagree c
    rw [Cert.ReferenceIdeal.Read.val_main_v120_eq, a0, a1, a2, a3, a4, a5, a6, a7, a8, a9, a10, a11, a12, a13, a14, a15]
    exact ((outK_eq m c).trans (Cert.Bridge.out_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)))).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
